-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x26x128 : Shape := ⟨3, ![16384, 26, 128]⟩
abbrev S128x512 : Shape := ⟨2, ![128, 512]⟩
abbrev S128 : Shape := ⟨1, ![128]⟩
abbrev S512x890 : Shape := ⟨2, ![512, 890]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x26x128 : S_.BroadcastsInDim S16384x26x128 (![] : Fin 0 → Fin S16384x26x128.rank)
  reducesTo_S16384x26x128_S_d0_1_2 : S16384x26x128.ReducesTo [0, 1, 2] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S512x890 : S_.BroadcastsInDim S512x890 (![] : Fin 0 → Fin S512x890.rank)
  reducesTo_S512x890_S_d0_1 : S512x890.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x890 .f32) (main_arg5 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S512x890 .f32 := Host.absf main_arg4
  let main_cst_6 : FVec F S_ .f32 := constant S_ .f32 0x7F800000#32
  let main_v20 : FVec F S512x890 .f32 := broadcastInDim S512x890 ![] bcast_S_S512x890 main_cst_6
  let main_v21 : IVec S512x890 1 := cmpf .olt main_v19 main_v20
  let main_c_7 : IVec S_ 1 := constantI S_ 1 1#1
  let main_v22 : IVec S_ 1 := (fun x v => Host.reduce IntOp.andi x v reducesTo_S512x890_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S16384x512 .f32) (main_arg1 : FVec F S16384x26x128 .f32) (main_arg2 : FVec F S128x512 .f32) (main_arg3 : FVec F S128 .f32) (main_arg4 : FVec F S512x890 .f32) (main_arg5 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x26x128 .f32 := Host.absf main_arg1
  let main_cst_0 : FVec F S_ .f32 := constant S_ .f32 0x7F800000#32
  let main_v5 : FVec F S16384x26x128 .f32 := broadcastInDim S16384x26x128 ![] bcast_S_S16384x26x128 main_cst_0
  let main_v6 : IVec S16384x26x128 1 := cmpf .olt main_v4 main_v5
  let main_c_1 : IVec S_ 1 := constantI S_ 1 1#1
  let main_v7 : IVec S_ 1 := (fun x v => Host.reduce IntOp.andi x v reducesTo_S16384x26x128_S_d0_1_2 h_S_) main_v6 main_c_1
  let main_v8 : IVec S_ 1 := andi main_v3 main_v7
  let main_v9 : FVec F S128x512 .f32 := Host.absf main_arg2
  let main_cst_2 : FVec F S_ .f32 := constant S_ .f32 0x7F800000#32
  let main_v10 : FVec F S128x512 .f32 := broadcastInDim S128x512 ![] bcast_S_S128x512 main_cst_2
  let main_v11 : IVec S128x512 1 := cmpf .olt main_v9 main_v10
  let main_c_3 : IVec S_ 1 := constantI S_ 1 1#1
  let main_v12 : IVec S_ 1 := (fun x v => Host.reduce IntOp.andi x v reducesTo_S128x512_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S16384x512 : Shape := ⟨2, ![16384, 512]⟩
abbrev S16384x26x128 : Shape := ⟨3, ![16384, 26, 128]⟩
abbrev S128x512 : Shape := ⟨2, ![128, 512]⟩
abbrev S128 : Shape := ⟨1, ![128]⟩
abbrev S512x890 : Shape := ⟨2, ![512, 890]⟩
abbrev S512 : Shape := ⟨1, ![512]⟩
abbrev S378 : Shape := ⟨1, ![378]⟩
abbrev S512x128 : Shape := ⟨2, ![512, 128]⟩
abbrev S1x128 : Shape := ⟨2, ![1, 128]⟩
abbrev S512x512 : Shape := ⟨2, ![512, 512]⟩
abbrev S512x378 : Shape := ⟨2, ![512, 378]⟩
abbrev S_ : Shape := ⟨0, ![]⟩
abbrev S1024x512 : Shape := ⟨2, ![1024, 512]⟩
abbrev S378x512 : Shape := ⟨2, ![378, 512]⟩
abbrev S378x1 : Shape := ⟨2, ![378, 1]⟩
abbrev S1x512 : Shape := ⟨2, ![1, 512]⟩
abbrev S256x512 : Shape := ⟨2, ![256, 512]⟩
abbrev S256x26x128 : Shape := ⟨3, ![256, 26, 128]⟩
abbrev S256x128 : Shape := ⟨2, ![256, 128]⟩
abbrev S256x5x128 : Shape := ⟨3, ![256, 5, 128]⟩
abbrev S256x1x128 : Shape := ⟨3, ![256, 1, 128]⟩
abbrev S256x32x128 : Shape := ⟨3, ![256, 32, 128]⟩
abbrev S32x256x128 : Shape := ⟨3, ![32, 256, 128]⟩
abbrev S32x256x256 : Shape := ⟨3, ![32, 256, 256]⟩
abbrev S32x32x32 : Shape := ⟨3, ![32, 32, 32]⟩
abbrev S32x1x32x32 : Shape := ⟨4, ![32, 1, 32, 32]⟩
abbrev S32x8x32x32 : Shape := ⟨4, ![32, 8, 32, 32]⟩
abbrev S256x32x32 : Shape := ⟨3, ![256, 32, 32]⟩
abbrev S256x1024 : Shape := ⟨2, ![256, 1024]⟩

abbrev nBuf : Space → Nat
  | .hbm => 27
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x26x128, .f32⟩
  | .hbm, ⟨2, _⟩ => ⟨S128x512, .f32⟩
  | .hbm, ⟨3, _⟩ => ⟨S128, .f32⟩
  | .hbm, ⟨4, _⟩ => ⟨S512x890, .f32⟩
  | .hbm, ⟨5, _⟩ => ⟨S512, .f32⟩
  | .hbm, ⟨6, _⟩ => ⟨S378, .i32⟩
  | .hbm, ⟨7, _⟩ => ⟨S378, .i1⟩
  | .hbm, ⟨8, _⟩ => ⟨S512x128, .f32⟩
  | .hbm, ⟨9, _⟩ => ⟨S512x128, .bf16⟩
  | .hbm, ⟨10, _⟩ => ⟨S1x128, .f32⟩
  | .hbm, ⟨11, _⟩ => ⟨S512x512, .f32⟩
  | .hbm, ⟨12, _⟩ => ⟨S512x378, .f32⟩
  | .hbm, ⟨13, _⟩ => ⟨S512x512, .f32⟩
  | .hbm, ⟨14, _⟩ => ⟨S512x512, .bf16⟩
  | .hbm, ⟨15, _⟩ => ⟨S_, .f32⟩
  | .hbm, ⟨16, _⟩ => ⟨S1024x512, .f32⟩
  | .hbm, ⟨17, _⟩ => ⟨S378x512, .f32⟩
  | .hbm, ⟨18, _⟩ => ⟨S_, .i32⟩
  | .hbm, ⟨19, _⟩ => ⟨S378, .i32⟩
  | .hbm, ⟨20, _⟩ => ⟨S378, .i32⟩
  | .hbm, ⟨21, _⟩ => ⟨S378, .i32⟩
  | .hbm, ⟨22, _⟩ => ⟨S378x1, .i32⟩
  | .hbm, ⟨23, _⟩ => ⟨S1024x512, .f32⟩
  | .hbm, ⟨24, _⟩ => ⟨S1024x512, .bf16⟩
  | .hbm, ⟨25, _⟩ => ⟨S1x512, .f32⟩
  | .hbm, ⟨26, _⟩ => ⟨S16384x512, .f32⟩
  | .local _ .vmem, ⟨0, _⟩ => ⟨S256x512, .f32⟩
  | .local _ .vmem, ⟨1, _⟩ => ⟨S256x512, .f32⟩
  | .local _ .vmem, ⟨2, _⟩ => ⟨S256x26x128, .f32⟩
  | .local _ .vmem, ⟨3, _⟩ => ⟨S256x26x128, .f32⟩
  | .local _ .vmem, ⟨4, _⟩ => ⟨S512x128, .bf16⟩
  | .local _ .vmem, ⟨5, _⟩ => ⟨S1x128, .f32⟩
  | .local _ .vmem, ⟨6, _⟩ => ⟨S512x512, .bf16⟩
  | .local _ .vmem, ⟨7, _⟩ => ⟨S1024x512, .bf16⟩
  | .local _ .vmem, ⟨8, _⟩ => ⟨S1x512, .f32⟩
  | .local _ .vmem, ⟨9, _⟩ => ⟨S256x512, .f32⟩
  | .local _ .vmem, ⟨10, _⟩ => ⟨S256x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x26x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S128x512_S512x128_1_0 : S128x512.Transposes [1, 0] S512x128
  bitsLt_bf16_f32 : FTy.bits .bf16 < FTy.bits .f32
  shapeCasts_S128_S1x128 : S128.ShapeCasts S1x128
  slices_S512x890_S512x512_0_0 : S512x890.Slices ![0, 0] S512x512
  slices_S512x890_S512x378_0_512 : S512x890.Slices ![0, 512] S512x378
  transposes_S512x512_S512x512_1_0 : S512x512.Transposes [1, 0] S512x512
  bcast_S_S1024x512 : S_.BroadcastsInDim S1024x512 (![] : Fin 0 → Fin S1024x512.rank)
  transposes_S512x378_S378x512_1_0 : S512x378.Transposes [1, 0] S378x512
  bcast_S_S378 : S_.BroadcastsInDim S378 (![] : Fin 0 → Fin S378.rank)
  bcast_S378_S378x1_0 : S378.BroadcastsInDim S378x1 (![0] : Fin 1 → Fin S378x1.rank)
  shapeCasts_S512_S1x512 : S512.ShapeCasts S1x512
  inb_S256x512_S256x512_0_0 : ∀ a, (![0, 0] : Fin 2 → Nat) a + S256x512.size a ≤ S256x512.size a
  h_S256x512 : 0 < S256x512.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x26x128_S256x26x128_0_0_0 : ∀ a, (![0, 0, 0] : Fin 3 → Nat) a + S256x26x128.size a ≤ S256x26x128.size a
  h_S256x26x128 : 0 < S256x26x128.numel
  shapeCasts_S256x128_S256x1x128 : S256x128.ShapeCasts S256x1x128
  concatenates_S256x1x128_S256x26x128_S256x5x128_S256x32x128_d1 : Shape.Concatenates [S256x1x128, S256x26x128, S256x5x128] S256x32x128 1
  shapeCasts_S256x32x128_S32x256x128 : S256x32x128.ShapeCasts S32x256x128
  slices_S32x256x256_o0_0_0_S32x32x32 : S32x256x256.Slices ![0, 0, 0] S32x32x32
  slices_S32x256x256_o0_32_32_S32x32x32 : S32x256x256.Slices ![0, 32, 32] S32x32x32
  slices_S32x256x256_o0_64_64_S32x32x32 : S32x256x256.Slices ![0, 64, 64] S32x32x32
  slices_S32x256x256_o0_96_96_S32x32x32 : S32x256x256.Slices ![0, 96, 96] S32x32x32
  slices_S32x256x256_o0_128_128_S32x32x32 : S32x256x256.Slices ![0, 128, 128] S32x32x32
  slices_S32x256x256_o0_160_160_S32x32x32 : S32x256x256.Slices ![0, 160, 160] S32x32x32
  slices_S32x256x256_o0_192_192_S32x32x32 : S32x256x256.Slices ![0, 192, 192] S32x32x32
  slices_S32x256x256_o0_224_224_S32x32x32 : S32x256x256.Slices ![0, 224, 224] S32x32x32
  shapeCasts_S32x32x32_S32x1x32x32 : S32x32x32.ShapeCasts S32x1x32x32
  concatenates_S32x1x32x32_S32x1x32x32_S32x1x32x32_S32x1x32x32_S32x1x32x32_S32x1x32x32_S32x1x32x32_S32x1x32x32_S32x8x32x32_d1 : Shape.Concatenates [S32x1x32x32, S32x1x32x32, S32x1x32x32, S32x1x32x32, S32x1x32x32, S32x1x32x32, S32x1x32x32, S32x1x32x32] S32x8x32x32 1
  shapeCasts_S32x8x32x32_S256x32x32 : S32x8x32x32.ShapeCasts S256x32x32
  shapeCasts_S256x32x32_S256x1024 : S256x32x32.ShapeCasts S256x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  scatter_S1024x512_S378x1_S378x512_1_0_0_1_wf : ScatterDims.WF S1024x512 S378x1 S378x512 [1] [0] [0] 1
  dot_S256x512_S512x128_S256x128_1_0_0_1_n_n_wf : DotDims.WF S256x512 S512x128 S256x128 [1] [0] [0] [1] [] []
  dot_S32x256x128_S32x256x128_S32x256x256_2_2_1_1_0_0_wf : DotDims.WF S32x256x128 S32x256x128 S32x256x256 [2] [2] [1] [1] [0] [0]
  dot_S256x512_S512x512_S256x512_1_0_0_1_n_n_wf : DotDims.WF S256x512 S512x512 S256x512 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x26x128.size a ≤ S16384x26x128.size a
  hwx0_1 : ∀ i : grid0.Coords, EltTy.bits .f32 = 32 ∨ (Rect.block (s := S16384x26x128) S256x26x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .bf16 = 32 ∨ (Rect.block (s := S512x128) S512x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S16384x512.size a
  hwx0_7 : ∀ i : grid0.Coords, EltTy.bits .f32 = 32 ∨ (Rect.block (s := S16384x512) S256x512.size (cc0_transform_7 i) (hinb0_7 i)).WholeWords (EltTy.packing .f32)

variable [Facts₀]

def scatter_S1024x512_S378x1_S378x512_1_0_0_1 : ScatterDims S1024x512 S378x1 S378x512 where
  updateWindowDims := [1]
  insertedWindowDims := [0]
  scatterDimsToOperandDims := [0]
  indexVectorDim := 1
  wf := scatter_S1024x512_S378x1_S378x512_1_0_0_1_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf
def dot_S32x256x128_S32x256x128_S32x256x256_2_2_1_1_0_0 : DotDims S32x256x128 S32x256x128 S32x256x256 where
  lhsContracting := [2]
  rhsContracting := [2]
  lhsNonContracting := [1]
  rhsNonContracting := [1]
  lhsBatch := [0]
  rhsBatch := [0]
  wf := dot_S32x256x128_S32x256x128_S32x256x256_2_2_1_1_0_0_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x26x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x26x128 : Shape := ⟨3, ![16384, 26, 128]⟩
abbrev S128x512 : Shape := ⟨2, ![128, 512]⟩
abbrev S128 : Shape := ⟨1, ![128]⟩
abbrev S512x890 : Shape := ⟨2, ![512, 890]⟩
abbrev S512 : Shape := ⟨1, ![512]⟩
abbrev S512x128 : Shape := ⟨2, ![512, 128]⟩
abbrev S16384x128 : Shape := ⟨2, ![16384, 128]⟩
abbrev S1x128 : Shape := ⟨2, ![1, 128]⟩
abbrev S16384x1x128 : Shape := ⟨3, ![16384, 1, 128]⟩
abbrev S16384x27x128 : Shape := ⟨3, ![16384, 27, 128]⟩
abbrev S16384x27x27 : Shape := ⟨3, ![16384, 27, 27]⟩
abbrev S_ : Shape := ⟨0, ![]⟩
abbrev S27x27 : Shape := ⟨2, ![27, 27]⟩
abbrev S729 : Shape := ⟨1, ![729]⟩
abbrev S378 : Shape := ⟨1, ![378]⟩
abbrev S729x1 : Shape := ⟨2, ![729, 1]⟩
abbrev S378x1 : Shape := ⟨2, ![378, 1]⟩
abbrev S378x2 : Shape := ⟨2, ![378, 2]⟩
abbrev S16384x378 : Shape := ⟨2, ![16384, 378]⟩
abbrev S16384x890 : Shape := ⟨2, ![16384, 890]⟩
abbrev S890x512 : Shape := ⟨2, ![890, 512]⟩
abbrev S1x512 : Shape := ⟨2, ![1, 512]⟩

abbrev nBuf : Space → Nat
  | .hbm => 155
  | .vmem => 0
  | .smem => 0
  | _ => 0

abbrev hbmTy0_0 (i : Nat) : BufTy := match i % 128 with
  | 0 => ⟨S16384x512, .f32⟩
  | 1 => ⟨S16384x26x128, .f32⟩
  | 2 => ⟨S128x512, .f32⟩
  | 3 => ⟨S128, .f32⟩
  | 4 => ⟨S512x890, .f32⟩
  | 5 => ⟨S512, .f32⟩
  | 6 => ⟨S512x128, .f32⟩
  | 7 => ⟨S16384x128, .f32⟩
  | 8 => ⟨S1x128, .f32⟩
  | 9 => ⟨S16384x128, .f32⟩
  | 10 => ⟨S16384x128, .f32⟩
  | 11 => ⟨S16384x1x128, .f32⟩
  | 12 => ⟨S16384x27x128, .f32⟩
  | 13 => ⟨S16384x27x27, .f32⟩
  | 14 => ⟨S_, .f32⟩
  | 15 => ⟨S27x27, .f32⟩
  | 16 => ⟨S27x27, .i32⟩
  | 17 => ⟨S_, .i32⟩
  | 18 => ⟨S27x27, .i32⟩
  | 19 => ⟨S27x27, .i32⟩
  | 20 => ⟨S27x27, .i32⟩
  | 21 => ⟨S27x27, .i1⟩
  | 22 => ⟨S_, .f32⟩
  | 23 => ⟨S27x27, .f32⟩
  | 24 => ⟨S27x27, .f32⟩
  | 25 => ⟨S_, .f32⟩
  | 26 => ⟨S27x27, .f32⟩
  | 27 => ⟨S27x27, .i1⟩
  | 28 => ⟨S729, .i1⟩
  | 29 => ⟨S729, .i32⟩
  | 30 => ⟨S_, .i32⟩
  | 31 => ⟨S_, .i32⟩
  | 32 => ⟨S729, .i32⟩
  | 33 => ⟨S_, .i32⟩
  | 34 => ⟨S378, .i32⟩
  | 35 => ⟨S_, .i32⟩
  | 36 => ⟨S_, .i32⟩
  | 37 => ⟨S729, .i32⟩
  | 38 => ⟨S729, .i32⟩
  | 39 => ⟨S_, .i32⟩
  | 40 => ⟨S729, .i32⟩
  | 41 => ⟨S729, .i1⟩
  | 42 => ⟨S_, .i32⟩
  | 43 => ⟨S729, .i32⟩
  | 44 => ⟨S729, .i32⟩
  | 45 => ⟨S729, .i32⟩
  | 46 => ⟨S729x1, .i32⟩
  | 47 => ⟨S_, .i32⟩
  | 48 => ⟨S729, .i32⟩
  | 49 => ⟨S378, .i32⟩
  | 50 => ⟨S_, .i32⟩
  | 51 => ⟨S_, .i32⟩
  | 52 => ⟨S378, .i32⟩
  | 53 => ⟨S_, .i32⟩
  | 54 => ⟨S378, .i32⟩
  | 55 => ⟨S378, .i32⟩
  | 56 => ⟨S378, .i32⟩
  | 57 => ⟨S_, .i32⟩
  | 58 => ⟨S378, .i32⟩
  | 59 => ⟨S378, .i1⟩
  | 60 => ⟨S378, .i32⟩
  | 61 => ⟨S378, .i32⟩
  | 62 => ⟨S_, .i32⟩
  | 63 => ⟨S378, .i32⟩
  | 64 => ⟨S378, .i1⟩
  | 65 => ⟨S378, .i1⟩
  | 66 => ⟨S_, .i32⟩
  | 67 => ⟨S378, .i32⟩
  | 68 => ⟨S378, .i32⟩
  | 69 => ⟨S378, .i32⟩
  | 70 => ⟨S_, .i32⟩
  | 71 => ⟨S_, .i32⟩
  | 72 => ⟨S_, .i32⟩
  | 73 => ⟨S_, .i1⟩
  | 74 => ⟨S_, .i32⟩
  | 75 => ⟨S_, .i32⟩
  | 76 => ⟨S378, .i32⟩
  | 77 => ⟨S378, .i32⟩
  | 78 => ⟨S_, .i32⟩
  | 79 => ⟨S378, .i32⟩
  | 80 => ⟨S378, .i1⟩
  | 81 => ⟨S_, .i32⟩
  | 82 => ⟨S378, .i32⟩
  | 83 => ⟨S378, .i1⟩
  | 84 => ⟨S_, .i32⟩
  | 85 => ⟨S_, .i1⟩
  | 86 => ⟨S378, .i1⟩
  | 87 => ⟨S378, .i1⟩
  | 88 => ⟨S378, .i1⟩
  | 89 => ⟨S378, .i32⟩
  | 90 => ⟨S378, .i32⟩
  | 91 => ⟨S378, .i32⟩
  | 92 => ⟨S_, .i32⟩
  | 93 => ⟨S378, .i32⟩
  | 94 => ⟨S378, .i32⟩
  | 95 => ⟨S378, .i32⟩
  | 96 => ⟨S_, .i32⟩
  | 97 => ⟨S378, .i32⟩
  | 98 => ⟨S378, .i1⟩
  | 99 => ⟨S378, .i32⟩
  | 100 => ⟨S378, .i32⟩
  | 101 => ⟨S_, .i32⟩
  | 102 => ⟨S378, .i32⟩
  | 103 => ⟨S378, .i1⟩
  | 104 => ⟨S378, .i1⟩
  | 105 => ⟨S_, .i32⟩
  | 106 => ⟨S378, .i32⟩
  | 107 => ⟨S378, .i32⟩
  | 108 => ⟨S378, .i32⟩
  | 109 => ⟨S_, .i32⟩
  | 110 => ⟨S_, .i32⟩
  | 111 => ⟨S_, .i32⟩
  | 112 => ⟨S_, .i1⟩
  | 113 => ⟨S_, .i32⟩
  | 114 => ⟨S_, .i32⟩
  | 115 => ⟨S378, .i32⟩
  | 116 => ⟨S378, .i32⟩
  | 117 => ⟨S_, .i32⟩
  | 118 => ⟨S378, .i32⟩
  | 119 => ⟨S378, .i1⟩
  | 120 => ⟨S_, .i32⟩
  | 121 => ⟨S378, .i32⟩
  | 122 => ⟨S378, .i1⟩
  | 123 => ⟨S_, .i32⟩
  | 124 => ⟨S_, .i1⟩
  | 125 => ⟨S378, .i1⟩
  | 126 => ⟨S378, .i1⟩
  | 127 => ⟨S378, .i1⟩
  | _ => ⟨S16384x512, .f32⟩

abbrev hbmTy0_1 (i : Nat) : BufTy := match i % 128 with
  | 0 => ⟨S378, .i32⟩
  | 1 => ⟨S378, .i32⟩
  | 2 => ⟨S378, .i32⟩
  | 3 => ⟨S_, .i32⟩
  | 4 => ⟨S378, .i32⟩
  | 5 => ⟨S378, .i1⟩
  | 6 => ⟨S_, .i32⟩
  | 7 => ⟨S378, .i32⟩
  | 8 => ⟨S378, .i32⟩
  | 9 => ⟨S378, .i32⟩
  | 10 => ⟨S_, .i32⟩
  | 11 => ⟨S378, .i32⟩
  | 12 => ⟨S378, .i1⟩
  | 13 => ⟨S_, .i32⟩
  | 14 => ⟨S378, .i32⟩
  | 15 => ⟨S378, .i32⟩
  | 16 => ⟨S378, .i32⟩
  | 17 => ⟨S378x1, .i32⟩
  | 18 => ⟨S378x1, .i32⟩
  | 19 => ⟨S378x2, .i32⟩
  | 20 => ⟨S16384x378, .f32⟩
  | 21 => ⟨S16384x890, .f32⟩
  | 22 => ⟨S890x512, .f32⟩
  | 23 => ⟨S16384x512, .f32⟩
  | 24 => ⟨S1x512, .f32⟩
  | 25 => ⟨S16384x512, .f32⟩
  | 26 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_call0_c : Ref sig .tc := ⟨.hbm, 30, rfl⟩
abbrev main_call1_call0_v0 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_c_1 : Ref sig .tc := ⟨.hbm, 35, rfl⟩
abbrev main_call2_v0 : Ref sig .tc := ⟨.hbm, 36, rfl⟩
abbrev main_call2_v1 : Ref sig .tc := ⟨.hbm, 37, rfl⟩
abbrev main_v14 : Ref sig .tc := ⟨.hbm, 38, rfl⟩
abbrev main_c_2 : Ref sig .tc := ⟨.hbm, 39, rfl⟩
abbrev main_v15 : Ref sig .tc := ⟨.hbm, 40, rfl⟩
abbrev main_v16 : Ref sig .tc := ⟨.hbm, 41, rfl⟩
abbrev main_c_3 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_4 : Ref sig .tc := ⟨.hbm, 47, rfl⟩
abbrev main_v21 : Ref sig .tc := ⟨.hbm, 48, rfl⟩
abbrev main_v22 : Ref sig .tc := ⟨.hbm, 49, rfl⟩
abbrev main_call3_call0_c : Ref sig .tc := ⟨.hbm, 50, rfl⟩
abbrev main_call3_call0_v0 : Ref sig .tc := ⟨.hbm, 51, rfl⟩
abbrev main_v23 : Ref sig .tc := ⟨.hbm, 52, rfl⟩
abbrev main_c_5 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_call4_v3 : Ref sig .tc := ⟨.hbm, 57, rfl⟩
abbrev main_call4_v4 : Ref sig .tc := ⟨.hbm, 58, rfl⟩
abbrev main_call4_v5 : Ref sig .tc := ⟨.hbm, 59, rfl⟩
abbrev main_call4_v6 : Ref sig .tc := ⟨.hbm, 60, rfl⟩
abbrev main_call4_v7 : Ref sig .tc := ⟨.hbm, 61, rfl⟩
abbrev main_call4_c : Ref sig .tc := ⟨.hbm, 62, rfl⟩
abbrev main_call4_v8 : Ref sig .tc := ⟨.hbm, 63, rfl⟩
abbrev main_call4_v9 : Ref sig .tc := ⟨.hbm, 64, rfl⟩
abbrev main_call4_v10 : Ref sig .tc := ⟨.hbm, 65, rfl⟩
abbrev main_call4_c_0 : Ref sig .tc := ⟨.hbm, 66, rfl⟩
abbrev main_call4_v11 : Ref sig .tc := ⟨.hbm, 67, rfl⟩
abbrev main_call4_v12 : Ref sig .tc := ⟨.hbm, 68, rfl⟩
abbrev main_v24 : Ref sig .tc := ⟨.hbm, 69, rfl⟩
abbrev main_c_6 : Ref sig .tc := ⟨.hbm, 70, rfl⟩
abbrev main_call5_v0 : Ref sig .tc := ⟨.hbm, 71, rfl⟩
abbrev main_call5_c : Ref sig .tc := ⟨.hbm, 72, rfl⟩
abbrev main_call5_v1 : Ref sig .tc := ⟨.hbm, 73, rfl⟩
abbrev main_call5_c_0 : Ref sig .tc := ⟨.hbm, 74, rfl⟩
abbrev main_call5_v2 : Ref sig .tc := ⟨.hbm, 75, rfl⟩
abbrev main_call5_v3 : Ref sig .tc := ⟨.hbm, 76, rfl⟩
abbrev main_call5_v4 : Ref sig .tc := ⟨.hbm, 77, rfl⟩
abbrev main_call5_c_1 : Ref sig .tc := ⟨.hbm, 78, rfl⟩
abbrev main_call5_v5 : Ref sig .tc := ⟨.hbm, 79, rfl⟩
abbrev main_call5_v6 : Ref sig .tc := ⟨.hbm, 80, rfl⟩
abbrev main_call5_c_2 : Ref sig .tc := ⟨.hbm, 81, rfl⟩
abbrev main_call5_v7 : Ref sig .tc := ⟨.hbm, 82, rfl⟩
abbrev main_call5_v8 : Ref sig .tc := ⟨.hbm, 83, rfl⟩
abbrev main_call5_c_3 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_v12 : Ref sig .tc := ⟨.hbm, 88, rfl⟩
abbrev main_call5_v13 : Ref sig .tc := ⟨.hbm, 89, rfl⟩
abbrev main_call5_v14 : Ref sig .tc := ⟨.hbm, 90, rfl⟩
abbrev main_v25 : Ref sig .tc := ⟨.hbm, 91, rfl⟩
abbrev main_c_7 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_call6_v5 : Ref sig .tc := ⟨.hbm, 98, rfl⟩
abbrev main_call6_v6 : Ref sig .tc := ⟨.hbm, 99, rfl⟩
abbrev main_call6_v7 : Ref sig .tc := ⟨.hbm, 100, rfl⟩
abbrev main_call6_c : Ref sig .tc := ⟨.hbm, 101, rfl⟩
abbrev main_call6_v8 : Ref sig .tc := ⟨.hbm, 102, rfl⟩
abbrev main_call6_v9 : Ref sig .tc := ⟨.hbm, 103, rfl⟩
abbrev main_call6_v10 : Ref sig .tc := ⟨.hbm, 104, rfl⟩
abbrev main_call6_c_0 : Ref sig .tc := ⟨.hbm, 105, rfl⟩
abbrev main_call6_v11 : Ref sig .tc := ⟨.hbm, 106, rfl⟩
abbrev main_call6_v12 : Ref sig .tc := ⟨.hbm, 107, rfl⟩
abbrev main_v26 : Ref sig .tc := ⟨.hbm, 108, rfl⟩
abbrev main_c_8 : Ref sig .tc := ⟨.hbm, 109, rfl⟩
abbrev main_call7_v0 : Ref sig .tc := ⟨.hbm, 110, rfl⟩
abbrev main_call7_c : Ref sig .tc := ⟨.hbm, 111, rfl⟩
abbrev main_call7_v1 : Ref sig .tc := ⟨.hbm, 112, rfl⟩
abbrev main_call7_c_0 : Ref sig .tc := ⟨.hbm, 113, rfl⟩
abbrev main_call7_v2 : Ref sig .tc := ⟨.hbm, 114, rfl⟩
abbrev main_call7_v3 : Ref sig .tc := ⟨.hbm, 115, rfl⟩
abbrev main_call7_v4 : Ref sig .tc := ⟨.hbm, 116, rfl⟩
abbrev main_call7_c_1 : Ref sig .tc := ⟨.hbm, 117, rfl⟩
abbrev main_call7_v5 : Ref sig .tc := ⟨.hbm, 118, rfl⟩
abbrev main_call7_v6 : Ref sig .tc := ⟨.hbm, 119, rfl⟩
abbrev main_call7_c_2 : Ref sig .tc := ⟨.hbm, 120, rfl⟩
abbrev main_call7_v7 : Ref sig .tc := ⟨.hbm, 121, rfl⟩
abbrev main_call7_v8 : Ref sig .tc := ⟨.hbm, 122, rfl⟩
abbrev main_call7_c_3 : Ref sig .tc := ⟨.hbm, 123, rfl⟩
abbrev main_call7_v9 : Ref sig .tc := ⟨.hbm, 124, rfl⟩
abbrev main_call7_v10 : Ref sig .tc := ⟨.hbm, 125, rfl⟩
abbrev main_call7_v11 : Ref sig .tc := ⟨.hbm, 126, rfl⟩
abbrev main_call7_v12 : Ref sig .tc := ⟨.hbm, 127, rfl⟩
abbrev main_call7_v13 : Ref sig .tc := ⟨.hbm, 128, rfl⟩
abbrev main_call7_v14 : Ref sig .tc := ⟨.hbm, 129, rfl⟩
abbrev main_v27 : Ref sig .tc := ⟨.hbm, 130, rfl⟩
abbrev main_c_9 : Ref sig .tc := ⟨.hbm, 131, rfl⟩
abbrev main_v28 : Ref sig .tc := ⟨.hbm, 132, rfl⟩
abbrev main_v29 : Ref sig .tc := ⟨.hbm, 133, rfl⟩
abbrev main_c_10 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_c_11 : Ref sig .tc := ⟨.hbm, 138, rfl⟩
abbrev main_v33 : Ref sig .tc := ⟨.hbm, 139, rfl⟩
abbrev main_v34 : Ref sig .tc := ⟨.hbm, 140, rfl⟩
abbrev main_c_12 : Ref sig .tc := ⟨.hbm, 141, rfl⟩
abbrev main_v35 : Ref sig .tc := ⟨.hbm, 142, rfl⟩
abbrev main_v36 : Ref sig .tc := ⟨.hbm, 143, rfl⟩
abbrev main_v37 : Ref sig .tc := ⟨.hbm, 144, rfl⟩
abbrev main_v38 : Ref sig .tc := ⟨.hbm, 145, rfl⟩
abbrev main_v39 : Ref sig .tc := ⟨.hbm, 146, rfl⟩
abbrev main_v40 : Ref sig .tc := ⟨.hbm, 147, rfl⟩
abbrev main_v41 : Ref sig .tc := ⟨.hbm, 148, rfl⟩
abbrev main_v42 : Ref sig .tc := ⟨.hbm, 149, rfl⟩
abbrev main_v43 : Ref sig .tc := ⟨.hbm, 150, rfl⟩
abbrev main_v44 : Ref sig .tc := ⟨.hbm, 151, rfl⟩
abbrev main_v45 : Ref sig .tc := ⟨.hbm, 152, rfl⟩
abbrev main_v46 : Ref sig .tc := ⟨.hbm, 153, rfl⟩
abbrev main_v47 : Ref sig .tc := ⟨.hbm, 154, rfl⟩

abbrev nD : Nat := 1
abbrev τ : Topo := Topo.v7x

variable {F : FTy → Type} [FloatOps F]

class Facts₀ : Prop where
  transposes_S128x512_S512x128_1_0 : S128x512.Transposes [1, 0] S512x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S16384x128_S16384x1x128_0_2 : S16384x128.BroadcastsInDim S16384x1x128 (![0, 2] : Fin 2 → Fin S16384x1x128.rank)
  concatenates_S16384x1x128_S16384x26x128_S16384x27x128_d1 : Shape.Concatenates [S16384x1x128, S16384x26x128] S16384x27x128 1
  bcast_S_S27x27 : S_.BroadcastsInDim S27x27 (![] : Fin 0 → Fin S27x27.rank)
  shapeCasts_S27x27_S729 : S27x27.ShapeCasts S729
  natLt_1_32 : 1 < 32
  bcast_S_S_ : S_.BroadcastsInDim S_ (![] : Fin 0 → Fin S_.rank)
  reduceWindows_S729_S729_w729s1p728_0 : S729.ReduceWindows (![729] : Fin 1 → Nat) ![1] ![728] ![0] S729
  h_S_ : 0 < S_.numel
  bcast_S_S378 : S_.BroadcastsInDim S378 (![] : Fin 0 → Fin S378.rank)
  bcast_S_S729 : S_.BroadcastsInDim S729 (![] : Fin 0 → Fin S729.rank)
  bcast_S729_S729x1_0 : S729.BroadcastsInDim S729x1 (![0] : Fin 1 → Fin S729x1.rank)
  reduceWindows_S378_S378_w378s1p377_0 : S378.ReduceWindows (![378] : Fin 1 → Nat) ![1] ![377] ![0] S378
  bcast_S378_S378x1_0 : S378.BroadcastsInDim S378x1 (![0] : Fin 1 → Fin S378x1.rank)
  concatenates_S378x1_S378x1_S378x2_d1 : Shape.Concatenates [S378x1, S378x1] S378x2 1
  concatenates_S16384x512_S16384x378_S16384x890_d1 : Shape.Concatenates [S16384x512, S16384x378] S16384x890 1
  transposes_S512x890_S890x512_1_0 : S512x890.Transposes [1, 0] S890x512
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x512_S512x128_S16384x128_1_0_0_1_n_n_wf : DotDims.WF S16384x512 S512x128 S16384x128 [1] [0] [0] [1] [] []
  dot_S16384x27x128_S16384x27x128_S16384x27x27_2_2_1_1_0_0_wf : DotDims.WF S16384x27x128 S16384x27x128 S16384x27x27 [2] [2] [1] [1] [0] [0]
  scatter_S378_S729x1_S729_n_0_0_1_wf : ScatterDims.WF S378 S729x1 S729 [] [0] [0] 1
  gather_S16384x27x27_S378x2_S16384x378_0_12_n_n_12_1_1638411_wf : GatherDims.WF S16384x27x27 S378x2 S16384x378 [0] [1, 2] [] [1, 2] [] 1 ![16384, 1, 1]
  dot_S16384x890_S890x512_S16384x512_1_0_0_1_n_n_wf : DotDims.WF S16384x890 S890x512 S16384x512 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x27x128_S16384x27x128_S16384x27x27_2_2_1_1_0_0 : DotDims S16384x27x128 S16384x27x128 S16384x27x27 where
  lhsContracting := [2]
  rhsContracting := [2]
  lhsNonContracting := [1]
  rhsNonContracting := [1]
  lhsBatch := [0]
  rhsBatch := [0]
  wf := dot_S16384x27x128_S16384x27x128_S16384x27x27_2_2_1_1_0_0_wf
def scatter_S378_S729x1_S729_n_0_0_1 : ScatterDims S378 S729x1 S729 where
  updateWindowDims := []
  insertedWindowDims := [0]
  scatterDimsToOperandDims := [0]
  indexVectorDim := 1
  wf := scatter_S378_S729x1_S729_n_0_0_1_wf
def gather_S16384x27x27_S378x2_S16384x378_0_12_n_n_12_1_1638411 : GatherDims S16384x27x27 S378x2 S16384x378 where
  offsetDims := [0]
  collapsedSliceDims := [1, 2]
  operandBatchingDims := []
  startIndicesBatchingDims := []
  startIndexMap := [1, 2]
  indexVectorDim := 1
  sliceSizes := ![16384, 1, 1]
  wf := gather_S16384x27x27_S378x2_S16384x378_0_12_n_n_12_1_1638411_wf
def dot_S16384x890_S890x512_S16384x512_1_0_0_1_n_n : DotDims S16384x890 S890x512 S16384x512 where
  lhsContracting := [1]
  rhsContracting := [0]
  lhsNonContracting := [0]
  rhsNonContracting := [1]
  lhsBatch := []
  rhsBatch := []
  wf := dot_S16384x890_S890x512_S16384x512_1_0_0_1_n_n_wf

class Facts : Prop extends Facts₀ where

variable [Facts]
-- ==== Proof.KernelPayLemmas.lean ====
/-
  Layout and contraction operations read at one index, over the extended reals: a matrix product into a zero
  accumulator is the plain sum over its contracted axis; a batched product contracts the last axis of both operands
  group by group; a unit-stride slice reads its operand shifted by the offsets; a shape cast reads the operand at the
  same row-major position. Each statement names explicit coordinates.
-/
import proofs.«147438_j49555332661502_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelPay

open Idealize.ShloMosaic Idealize.ShloMosaic.ValueIdx Cert.KernelIdeal Cert.KernelIdeal.Gen

/-! ## Products -/

/-- A rows-by-columns product into the zero accumulator, at row r and column o: the sum over the shared axis. -/
theorem matmul_plain_apply {M K N : Nat} {φ₁ φ₂ : FTy}
    (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (r : Fin M) (o : Fin N) :
    FloatOps.matmul D none lhs rhs (constant (F := Ideal) ⟨2, ![M, N]⟩ .f32 0x00000000#32) (ix2 r o)
      = ∑ k : Fin K, lhs (ix2 r k) * rhs (ix2 k o) := by
  subst hD
  rw [Ideal.matmul_constant_zero_apply]
  rw [← Equiv.sum_comp (contrEquiv1 (DotDims.plain M K N) K rfl rfl).symm]
  refine Finset.sum_congr rfl fun k _ => ?_
  have hv := contrEquiv1_symm_val (DotDims.plain M K N) K rfl rfl k
  have hl : (DotDims.plain M K N).lhsIdx (ix2 r o) ((contrEquiv1 (DotDims.plain M K N) K rfl rfl).symm k) = ix2 r k := by
    funext a
    match a with
    | ⟨0, _⟩ => rfl
    | ⟨1, _⟩ =>
      refine Fin.ext ?_
      exact ((DotDims.plain M K N).lhsIdx_val_of_single (cl := 1) rfl _ _).trans hv
  have hr : (DotDims.plain M K N).rhsIdx (ix2 r o) ((contrEquiv1 (DotDims.plain M K N) K rfl rfl).symm k) = ix2 k o := by
    funext a
    match a with
    | ⟨0, _⟩ =>
      refine Fin.ext ?_
      exact ((DotDims.plain M K N).rhsIdx_val_of_single (cr := 0) rfl _ _).trans hv
    | ⟨1, _⟩ => rfl
  rw [hl, hr]

/-- The batched product (group axis 0, the last axis of both operands contracted) into the zero accumulator, at
    group g, row a, column b: the inner product of row a and row b of group g. -/
theorem matmul_batched_apply {φ₁ φ₂ : FTy} (lhs : FVec Ideal S32x256x128 φ₁) (rhs : FVec Ideal S32x256x128 φ₂)
    (g : Fin 32) (a b : Fin 256) :
    FloatOps.matmul dot_S32x256x128_S32x256x128_S32x256x256_2_2_1_1_0_0 none lhs rhs
        (constant (F := Ideal) S32x256x256 .f32 0x00000000#32) (ix3 g a b)
      = ∑ e : Fin 128, lhs (ix3 g a e) * rhs (ix3 g b e) := by
  rw [Ideal.matmul_constant_zero_apply]
  rw [← Equiv.sum_comp (contrEquiv1 dot_S32x256x128_S32x256x128_S32x256x256_2_2_1_1_0_0 128 rfl rfl).symm]
  refine Finset.sum_congr rfl fun k _ => ?_
  have hv := contrEquiv1_symm_val dot_S32x256x128_S32x256x128_S32x256x256_2_2_1_1_0_0 128 rfl rfl k
  have hl : dot_S32x256x128_S32x256x128_S32x256x256_2_2_1_1_0_0.lhsIdx (ix3 g a b)
      ((contrEquiv1 dot_S32x256x128_S32x256x128_S32x256x256_2_2_1_1_0_0 128 rfl rfl).symm k) = ix3 g a k := by
    funext c
    match c with
    | ⟨0, _⟩ => rfl
    | ⟨1, _⟩ => rfl
    | ⟨2, _⟩ =>
      refine Fin.ext ?_
      exact (dot_S32x256x128_S32x256x128_S32x256x256_2_2_1_1_0_0.lhsIdx_val_of_single (cl := 2) rfl _ _).trans hv
  have hr : dot_S32x256x128_S32x256x128_S32x256x256_2_2_1_1_0_0.rhsIdx (ix3 g a b)
      ((contrEquiv1 dot_S32x256x128_S32x256x128_S32x256x256_2_2_1_1_0_0 128 rfl rfl).symm k) = ix3 g b k := by
    funext c
    match c with
    | ⟨0, _⟩ => rfl
    | ⟨1, _⟩ => rfl
    | ⟨2, _⟩ =>
      refine Fin.ext ?_
      exact (dot_S32x256x128_S32x256x128_S32x256x256_2_2_1_1_0_0.rhsIdx_val_of_single (cr := 2) rfl _ _).trans hv
  rw [hl, hr]

/-! ## Slices and shape casts -/

section Layout
variable {α : Type}

/-- A 32 x 32 x 32 slice of a 32 x 256 x 256 array at offsets (0, c, c): the diagonal block starting at c. -/
theorem slice_diag_apply (c : Nat) (x : S32x256x256.Idx → α) (h : S32x256x256.Slices ![0, c, c] S32x32x32)
    (hc : c + 32 ≤ 256) (g i j : Fin 32) :
    extractStridedSlice S32x32x32 ![0, c, c] x h (ix3 g i j)
      = x (ix3 g (⟨c + i.val, by omega⟩ : Fin 256) (⟨c + j.val, by omega⟩ : Fin 256)) :=
  extractStridedSlice_apply _ x h _ _ fun a =>
    match a with
    | ⟨0, _⟩ => by show g.val = 0 + g.val; omega
    | ⟨1, _⟩ => rfl
    | ⟨2, _⟩ => rfl

/-- A unit axis put after the first: (g, u, i, j) reads (g, i, j). -/
theorem cast_addUnit_apply (x : S32x32x32.Idx → α) (h : S32x32x32.ShapeCasts S32x1x32x32)
    (g : Fin 32) (u : Fin 1) (i j : Fin 32) :
    shapeCast S32x1x32x32 x h (ix4 g u i j) = x (ix3 g i j) :=
  shapeCast_apply x h _ _ (by
    have hu : u.val = 0 := by omega
    rw [Shape.rowMajor_val_three, Shape.rowMajor_val_four]
    show (g.val * 32 + i.val) * 32 + j.val = ((g.val * 1 + u.val) * 32 + i.val) * 32 + j.val
    omega)

/-- The two leading axes 32 x 8 merged into 256: sample r reads group r / 8, place r % 8. -/
theorem cast_merge_apply (x : S32x8x32x32.Idx → α) (h : S32x8x32x32.ShapeCasts S256x32x32)
    (r : Fin 256) (i j : Fin 32) :
    shapeCast S256x32x32 x h (ix3 r i j)
      = x (ix4 (⟨r.val / 8, by omega⟩ : Fin 32) (⟨r.val % 8, by omega⟩ : Fin 8) i j) :=
  shapeCast_apply x h _ _ (by
    rw [Shape.rowMajor_val_four, Shape.rowMajor_val_three]
    show ((r.val / 8 * 8 + r.val % 8) * 32 + i.val) * 32 + j.val = (r.val * 32 + i.val) * 32 + j.val
    omega)

/-- The two trailing axes 32 x 32 flattened to 1024: position p reads (p / 32, p % 32). -/
theorem cast_flatten_apply (x : S256x32x32.Idx → α) (h : S256x32x32.ShapeCasts S256x1024)
    (r : Fin 256) (p : Fin 1024) :
    shapeCast S256x1024 x h (ix2 r p)
      = x (ix3 r (⟨p.val / 32, by omega⟩ : Fin 32) (⟨p.val % 32, by omega⟩ : Fin 32)) :=
  shapeCast_apply x h _ _ (by
    rw [Shape.rowMajor_val_three, Shape.rowMajor_val_two]
    show (r.val * 32 + p.val / 32) * 32 + p.val % 32 = r.val * 1024 + p.val
    omega)

/-- The rows of 8 samples packed into one 256-row group: row i of sample r sits in group r / 8 at row 32 (r % 8) + i. -/
theorem cast_pack_apply (x : S256x32x128.Idx → α) (h : S256x32x128.ShapeCasts S32x256x128)
    (r : Fin 256) (i : Fin 32) (e : Fin 128) :
    shapeCast S32x256x128 x h
        (ix3 (⟨r.val / 8, by omega⟩ : Fin 32) (⟨32 * (r.val % 8) + i.val, by omega⟩ : Fin 256) e)
      = x (ix3 r i e) :=
  shapeCast_apply x h _ _ (by
    rw [Shape.rowMajor_val_three, Shape.rowMajor_val_three]
    show (r.val * 32 + i.val) * 128 + e.val = (r.val / 8 * 256 + (32 * (r.val % 8) + i.val)) * 128 + e.val
    omega)

/-- A row matrix given a unit middle axis: (r, u, e) reads (r, e). -/
theorem cast_row_apply (x : S256x128.Idx → α) (h : S256x128.ShapeCasts S256x1x128)
    (r : Fin 256) (u : Fin 1) (e : Fin 128) :
    shapeCast S256x1x128 x h (ix3 r u e) = x (ix2 r e) :=
  shapeCast_apply x h _ _ (by
    have hu : u.val = 0 := by omega
    rw [Shape.rowMajor_val_two, Shape.rowMajor_val_three]
    show r.val * 128 + e.val = (r.val * 1 + u.val) * 128 + e.val
    omega)

end Layout

end Cert.KernelPay

end
-- ==== Proof.KernelPay.lean ====
/-
  The kernel body's arithmetic read at one output index, over the extended reals (every float operation exact, a
  change of format the identity).

  A tile holds 256 samples. Each sample has 32 rows of width 128: row 0 is its dense features projected,
  x · Wpᵀ + bp; rows 1..26 are its sparse rows; rows 27..31 are zero (tp). The rows of 8 samples are packed into one
  256-row operand, 32 such groups; the batched product of that operand with itself holds, on its 8 diagonal 32 x 32
  blocks, each sample's 32 x 32 matrix of pairwise inner products; the blocks are cut out, stacked and flattened, so
  that sample r, position p reads the inner product of rows p / 32 and p % 32 of sample r (zp). The stored value is the
  dense features through their weights, plus the flattened products through theirs, plus the bias row.
-/
import proofs.«147438_j49555332661502_2_alg».proof.Proof.KernelPayLemmas

noncomputable section

open scoped BigOperators

namespace Cert.KernelPay

open Idealize.ShloMosaic Idealize.ShloMosaic.ValueIdx Cert.KernelIdeal Cert.KernelIdeal.Gen

section Body

variable (v0 : Vec Ideal S256x512 .f32) (v2 : Vec Ideal S512x128 .bf16) (v5 : Vec Ideal S1x128 .f32)
  (v9 : Vec Ideal S256x26x128 .f32)

/-- Row i of sample r's 32 padded rows, entry e: the projected dense row, the 26 sparse rows, 5 zero rows. -/
def tp (r : Fin 256) (i : Fin 32) (e : Fin 128) : EReal :=
  if i.val = 0 then (∑ d : Fin 512, v0 (ix2 r d) * v2 (ix2 d e)) + v5 (ix2 (0 : Fin 1) e)
  else if h : i.val ≤ 26 then v9 (ix3 r (⟨i.val - 1, by omega⟩ : Fin 26) e) else 0

/-- Sample r's padded 32 x 32 matrix of pairwise inner products of its rows, flattened row by row. -/
def zp (r : Fin 256) (p : Fin 1024) : EReal :=
  ∑ e : Fin 128, tp v0 v2 v5 v9 r (⟨p.val / 32, by omega⟩ : Fin 32) e * tp v0 v2 v5 v9 r (⟨p.val % 32, by omega⟩ : Fin 32) e

/-! ## The body's intermediate values -/

/-- The projected dense rows. -/
def w8 : FVec Ideal S256x128 .f32 :=
  addf (matmul (φ₁ := .bf16) (φ₂ := .bf16) dot_S256x512_S512x128_S256x128_1_0_0_1_n_n none (k0_pay2 v0)
      (shapeCast S512x128 v2 shapeCasts_S512x128_S512x128 : FVec Ideal S512x128 .bf16)
      (constant S256x128 .f32 0x00000000#32))
    (broadcastTo S256x128 (shapeCast S1x128 v5 shapeCasts_S1x128_S1x128) broadcasts_S1x128_S256x128)

/-- The 32 padded rows of every sample. -/
def w12 : FVec Ideal S256x32x128 .f32 :=
  concatenate S256x32x128 1
    [⟨S256x1x128, shapeCast S256x1x128 (w8 v0 v2 v5) shapeCasts_S256x128_S256x1x128⟩, ⟨S256x26x128, v9⟩,
      ⟨S256x5x128, broadcast S256x5x128 (Scalar.ofBits (F := Ideal) .f32 0x00000000#32)⟩]
    concatenates_S256x1x128_S256x26x128_S256x5x128_S256x32x128_d1

/-- The same rows packed 8 samples to a group. -/
def w14 : FVec Ideal S32x256x128 .bf16 :=
  shapeCast S32x256x128 (truncf .bf16 (w12 v0 v2 v5 v9) bitsLt_bf16_f32) shapeCasts_S256x32x128_S32x256x128

/-- All pairwise inner products within a group. -/
def w15 : FVec Ideal S32x256x256 .f32 :=
  matmul dot_S32x256x128_S32x256x128_S32x256x256_2_2_1_1_0_0 none (w14 v0 v2 v5 v9) (w14 v0 v2 v5 v9)
    (constant S32x256x256 .f32 0x00000000#32)

end Body

/-- The diagonal block at offset c of every group, with a unit axis for stacking. -/
def blk (x : FVec Ideal S32x256x256 .f32) (c : Nat) (h : S32x256x256.Slices ![0, c, c] S32x32x32) :
    FVec Ideal S32x1x32x32 .f32 :=
  shapeCast S32x1x32x32 (extractStridedSlice S32x32x32 ![0, c, c] x h) shapeCasts_S32x32x32_S32x1x32x32

/-- The 8 diagonal blocks of every group, stacked. -/
def w32 (x : FVec Ideal S32x256x256 .f32) : FVec Ideal S32x8x32x32 .f32 :=
  concatenate S32x8x32x32 1
    [⟨S32x1x32x32, blk x 0 slices_S32x256x256_o0_0_0_S32x32x32⟩,
      ⟨S32x1x32x32, blk x 32 slices_S32x256x256_o0_32_32_S32x32x32⟩,
      ⟨S32x1x32x32, blk x 64 slices_S32x256x256_o0_64_64_S32x32x32⟩,
      ⟨S32x1x32x32, blk x 96 slices_S32x256x256_o0_96_96_S32x32x32⟩,
      ⟨S32x1x32x32, blk x 128 slices_S32x256x256_o0_128_128_S32x32x32⟩,
      ⟨S32x1x32x32, blk x 160 slices_S32x256x256_o0_160_160_S32x32x32⟩,
      ⟨S32x1x32x32, blk x 192 slices_S32x256x256_o0_192_192_S32x32x32⟩,
      ⟨S32x1x32x32, blk x 224 slices_S32x256x256_o0_224_224_S32x32x32⟩]
    concatenates_S32x1x32x32_S32x1x32x32_S32x1x32x32_S32x1x32x32_S32x1x32x32_S32x1x32x32_S32x1x32x32_S32x1x32x32_S32x8x32x32_d1

/-- The stacked blocks, one flattened 32 x 32 matrix per sample. -/
def w34 (x : FVec Ideal S32x256x256 .f32) : FVec Ideal S256x1024 .f32 :=
  shapeCast S256x1024 (shapeCast S256x32x32 (w32 x) shapeCasts_S32x8x32x32_S256x32x32) shapeCasts_S256x32x32_S256x1024

/-- The body's interaction operand is those flattened matrices of the groups' products. -/
theorem pay3_eq (v0 : Vec Ideal S256x512 .f32) (v2 : Vec Ideal S512x128 .bf16) (v5 : Vec Ideal S1x128 .f32)
    (v9 : Vec Ideal S256x26x128 .f32) :
    k0_pay3 v0 v2 v5 v9 = truncf .bf16 (w34 (w15 v0 v2 v5 v9)) bitsLt_bf16_f32 := rfl

section Rows

variable (v0 : Vec Ideal S256x512 .f32) (v2 : Vec Ideal S512x128 .bf16) (v5 : Vec Ideal S1x128 .f32)
  (v9 : Vec Ideal S256x26x128 .f32)

/-- The projected dense row of sample r at e: the features through the projection's weights, plus its bias. -/
theorem w8_apply (r : Fin 256) (e : Fin 128) :
    w8 v0 v2 v5 (ix2 r e) = (∑ d : Fin 512, v0 (ix2 r d) * v2 (ix2 d e)) + v5 (ix2 (0 : Fin 1) e) := by
  unfold w8
  rw [addf_apply, shapeCast_self, shapeCast_self, broadcastTo_1b_ab_apply]
  refine congrArg (· + v5 (ix2 (0 : Fin 1) e)) ?_
  exact matmul_plain_apply dot_S256x512_S512x128_S256x128_1_0_0_1_n_n rfl (k0_pay2 v0) v2 r e

/-- Row i of sample r among the concatenated rows. -/
theorem w12_apply (r : Fin 256) (i : Fin 32) (e : Fin 128) :
    w12 v0 v2 v5 v9 (ix3 r i e) = tp v0 v2 v5 v9 r i e := by
  unfold w12 tp
  by_cases h0 : i.val = 0
  · rw [if_pos h0]
    refine Eq.trans (concatenate_apply_piece (t := S256x32x128) (1 : Fin 3) _ _ (ix3 r i e) 0 ?_ S256x1x128 _ rfl rfl 0 rfl
      (ix3 r (0 : Fin 1) e) (fun b hb => ?_) ?_) ?_
    · simp
    · match b with
      | ⟨0, _⟩ => rfl
      | ⟨1, _⟩ => exact absurd rfl hb
      | ⟨2, _⟩ => rfl
    · show 0 + 0 = i.val
      omega
    · rw [cast_row_apply]
      exact w8_apply v0 v2 v5 r e
  · rw [if_neg h0]
    by_cases h1 : i.val ≤ 26
    · rw [dif_pos h1]
      refine concatenate_apply_piece (t := S256x32x128) (1 : Fin 3) _ _ (ix3 r i e) 1 ?_ S256x26x128 v9 rfl rfl 1 rfl
        (ix3 r (⟨i.val - 1, by omega⟩ : Fin 26) e) (fun b hb => ?_) ?_
      · simp
      · match b with
        | ⟨0, _⟩ => rfl
        | ⟨1, _⟩ => exact absurd rfl hb
        | ⟨2, _⟩ => rfl
      · show 1 + (i.val - 1) = i.val
        omega
    · rw [dif_neg h1]
      refine Eq.trans (concatenate_apply_piece (t := S256x32x128) (1 : Fin 3) _ _ (ix3 r i e) 2 ?_ S256x5x128 _ rfl rfl 27 rfl
        (ix3 r (⟨i.val - 27, by omega⟩ : Fin 5) e) (fun b hb => ?_) ?_) ?_
      · simp
      · match b with
        | ⟨0, _⟩ => rfl
        | ⟨1, _⟩ => exact absurd rfl hb
        | ⟨2, _⟩ => rfl
      · show 27 + (i.val - 27) = i.val
        omega
      · exact Ideal.ofBits_zero_f32

/-- Row i of sample r where the packing puts it. -/
theorem w14_apply (r : Fin 256) (i : Fin 32) (e : Fin 128) :
    w14 v0 v2 v5 v9 (ix3 (⟨r.val / 8, by omega⟩ : Fin 32) (⟨32 * (r.val % 8) + i.val, by omega⟩ : Fin 256) e)
      = tp v0 v2 v5 v9 r i e := by
  unfold w14
  rw [cast_pack_apply]
  exact w12_apply v0 v2 v5 v9 r i e

/-- A group's product at rows a and b: their inner product. -/
theorem w15_apply (g : Fin 32) (a b : Fin 256) :
    w15 v0 v2 v5 v9 (ix3 g a b) = ∑ e : Fin 128, w14 v0 v2 v5 v9 (ix3 g a e) * w14 v0 v2 v5 v9 (ix3 g b e) :=
  matmul_batched_apply (w14 v0 v2 v5 v9) (w14 v0 v2 v5 v9) g a b

end Rows

/-! ## The diagonal blocks -/

/-- Block c of group g at (i, j) reads the group's product at (c + i, c + j). -/
theorem blk_apply (x : FVec Ideal S32x256x256 .f32) (c : Nat) (h : S32x256x256.Slices ![0, c, c] S32x32x32)
    (hc : c + 32 ≤ 256) (g : Fin 32) (u : Fin 1) (i j : Fin 32) :
    blk x c h (ix4 g u i j) = x (ix3 g (⟨c + i.val, by omega⟩ : Fin 256) (⟨c + j.val, by omega⟩ : Fin 256)) := by
  unfold blk
  rw [cast_addUnit_apply, slice_diag_apply c x h hc]

/-- The stacked blocks at group g, place s, (i, j): the group's product at (32 s + i, 32 s + j). -/
theorem w32_apply (x : FVec Ideal S32x256x256 .f32) (g : Fin 32) (s : Fin 8) (i j : Fin 32) :
    w32 x (ix4 g s i j)
      = x (ix3 g (⟨32 * s.val + i.val, by omega⟩ : Fin 256) (⟨32 * s.val + j.val, by omega⟩ : Fin 256)) := by
  have hi : ∀ (s : Fin 8) (b : Fin S32x1x32x32.rank),
      b.cast (rfl : S32x1x32x32.rank = S32x8x32x32.rank) ≠ (1 : Fin 4) →
      (ix4 g (0 : Fin 1) i j b).val = (ix4 g s i j (b.cast rfl)).val := fun s b hb =>
    match b with
    | ⟨0, _⟩ => rfl
    | ⟨1, _⟩ => absurd rfl hb
    | ⟨2, _⟩ => rfl
    | ⟨3, _⟩ => rfl
  unfold w32
  match s with
  | ⟨0, hs⟩ =>
    refine Eq.trans (concatenate_apply_piece (t := S32x8x32x32) (1 : Fin 4) _ _ (ix4 g (⟨0, hs⟩ : Fin 8) i j) 0 ?_
      S32x1x32x32 _ rfl rfl 0 rfl (ix4 g (0 : Fin 1) i j) (hi _) rfl) (blk_apply x 0 _ (by omega) g 0 i j)
    simp
  | ⟨1, hs⟩ =>
    refine Eq.trans (concatenate_apply_piece (t := S32x8x32x32) (1 : Fin 4) _ _ (ix4 g (⟨1, hs⟩ : Fin 8) i j) 1 ?_
      S32x1x32x32 _ rfl rfl 1 rfl (ix4 g (0 : Fin 1) i j) (hi _) rfl) (blk_apply x 32 _ (by omega) g 0 i j)
    simp
  | ⟨2, hs⟩ =>
    refine Eq.trans (concatenate_apply_piece (t := S32x8x32x32) (1 : Fin 4) _ _ (ix4 g (⟨2, hs⟩ : Fin 8) i j) 2 ?_
      S32x1x32x32 _ rfl rfl 2 rfl (ix4 g (0 : Fin 1) i j) (hi _) rfl) (blk_apply x 64 _ (by omega) g 0 i j)
    simp
  | ⟨3, hs⟩ =>
    refine Eq.trans (concatenate_apply_piece (t := S32x8x32x32) (1 : Fin 4) _ _ (ix4 g (⟨3, hs⟩ : Fin 8) i j) 3 ?_
      S32x1x32x32 _ rfl rfl 3 rfl (ix4 g (0 : Fin 1) i j) (hi _) rfl) (blk_apply x 96 _ (by omega) g 0 i j)
    simp
  | ⟨4, hs⟩ =>
    refine Eq.trans (concatenate_apply_piece (t := S32x8x32x32) (1 : Fin 4) _ _ (ix4 g (⟨4, hs⟩ : Fin 8) i j) 4 ?_
      S32x1x32x32 _ rfl rfl 4 rfl (ix4 g (0 : Fin 1) i j) (hi _) rfl) (blk_apply x 128 _ (by omega) g 0 i j)
    simp
  | ⟨5, hs⟩ =>
    refine Eq.trans (concatenate_apply_piece (t := S32x8x32x32) (1 : Fin 4) _ _ (ix4 g (⟨5, hs⟩ : Fin 8) i j) 5 ?_
      S32x1x32x32 _ rfl rfl 5 rfl (ix4 g (0 : Fin 1) i j) (hi _) rfl) (blk_apply x 160 _ (by omega) g 0 i j)
    simp
  | ⟨6, hs⟩ =>
    refine Eq.trans (concatenate_apply_piece (t := S32x8x32x32) (1 : Fin 4) _ _ (ix4 g (⟨6, hs⟩ : Fin 8) i j) 6 ?_
      S32x1x32x32 _ rfl rfl 6 rfl (ix4 g (0 : Fin 1) i j) (hi _) rfl) (blk_apply x 192 _ (by omega) g 0 i j)
    simp
  | ⟨7, hs⟩ =>
    refine Eq.trans (concatenate_apply_piece (t := S32x8x32x32) (1 : Fin 4) _ _ (ix4 g (⟨7, hs⟩ : Fin 8) i j) 7 ?_
      S32x1x32x32 _ rfl rfl 7 rfl (ix4 g (0 : Fin 1) i j) (hi _) rfl) (blk_apply x 224 _ (by omega) g 0 i j)
    simp

/-- Sample r, position p of the flattened matrices: the product of r's group at r's diagonal block, entry
    (p / 32, p % 32). -/
theorem w34_apply (x : FVec Ideal S32x256x256 .f32) (r : Fin 256) (p : Fin 1024) :
    w34 x (ix2 r p)
      = x (ix3 (⟨r.val / 8, by omega⟩ : Fin 32) (⟨32 * (r.val % 8) + p.val / 32, by omega⟩ : Fin 256)
          (⟨32 * (r.val % 8) + p.val % 32, by omega⟩ : Fin 256)) := by
  unfold w34
  rw [cast_flatten_apply, cast_merge_apply]
  exact w32_apply x _ _ _ _

/-! ## The stored value -/

section Final

variable (v0 : Vec Ideal S256x512 .f32) (v2 : Vec Ideal S512x128 .bf16) (v5 : Vec Ideal S1x128 .f32)
  (v9 : Vec Ideal S256x26x128 .f32) (v36 : Vec Ideal S512x512 .bf16) (v39 : Vec Ideal S1024x512 .bf16)
  (v43 : Vec Ideal S1x512 .f32)

/-- The interaction operand at sample r, position p: the inner product of rows p / 32 and p % 32 of sample r. -/
theorem pay3_apply (r : Fin 256) (p : Fin 1024) : k0_pay3 v0 v2 v5 v9 (ix2 r p) = zp v0 v2 v5 v9 r p := by
  rw [pay3_eq, truncf_apply, w34_apply, w15_apply]
  unfold zp
  refine Finset.sum_congr rfl fun e _ => ?_
  exact congrArg₂ (· * ·) (w14_apply v0 v2 v5 v9 r (⟨p.val / 32, by omega⟩ : Fin 32) e)
    (w14_apply v0 v2 v5 v9 r (⟨p.val % 32, by omega⟩ : Fin 32) e)

/-- The dense features through their part of the last layer's weights. -/
theorem pay4_apply (r : Fin 256) (o : Fin 512) :
    k0_pay4 v0 v36 (ix2 r o) = ∑ d : Fin 512, v0 (ix2 r d) * v36 (ix2 d o) := by
  show FloatOps.matmul dot_S256x512_S512x512_S256x512_1_0_0_1_n_n none (k0_pay2 v0)
    (shapeCast S512x512 v36 shapeCasts_S512x512_S512x512 : FVec Ideal S512x512 .bf16)
    (constant (F := Ideal) S256x512 .f32 0x00000000#32) (ix2 r o) = _
  rw [shapeCast_self]
  exact matmul_plain_apply dot_S256x512_S512x512_S256x512_1_0_0_1_n_n rfl (k0_pay2 v0) v36 r o

/-- The interaction weights pass through unchanged. -/
theorem pay5_eq : k0_pay5 v39 = v39 := shapeCast_self v39 _

/-- The sum the body stores, over any three operands: the first product's value, plus the second product, plus the
    bias row. -/
theorem pay1_apply (X : FVec Ideal S256x1024 .bf16) (Y : FVec Ideal S256x512 .f32) (Z : FVec Ideal S1024x512 .bf16)
    (r : Fin 256) (o : Fin 512) :
    k0_pay1 X Y Z (constant (F := Ideal) S256x512 .f32 0x00000000#32) v43 (ix2 r o)
      = (Y (ix2 r o) + ∑ p : Fin 1024, X (ix2 r p) * Z (ix2 p o)) + v43 (ix2 (0 : Fin 1) o) := by
  show (Y (ix2 r o) + FloatOps.matmul dot_S256x1024_S1024x512_S256x512_1_0_0_1_n_n none X Z
      (constant (F := Ideal) S256x512 .f32 0x00000000#32) (ix2 r o))
    + broadcastTo S256x512 (shapeCast S1x512 v43 shapeCasts_S1x512_S1x512) broadcasts_S1x512_S256x512 (ix2 r o) = _
  rw [matmul_plain_apply dot_S256x1024_S1024x512_S256x512_1_0_0_1_n_n rfl, shapeCast_self, broadcastTo_1b_ab_apply]

/-- **The stored value at sample r, output feature o.** -/
theorem pay_apply (r : Fin 256) (o : Fin 512) :
    k0_pay1 (k0_pay3 v0 v2 v5 v9) (k0_pay4 v0 v36) (k0_pay5 v39) (constant (F := Ideal) S256x512 .f32 0x00000000#32) v43
        (ix2 r o)
      = ((∑ d : Fin 512, v0 (ix2 r d) * v36 (ix2 d o)) + ∑ p : Fin 1024, zp v0 v2 v5 v9 r p * v39 (ix2 p o))
        + v43 (ix2 (0 : Fin 1) o) := by
  rw [pay1_apply, pay4_apply, pay5_eq]
  refine congrArg (fun t => ((∑ d : Fin 512, v0 (ix2 r d) * v36 (ix2 d o)) + t) + v43 (ix2 (0 : Fin 1) o)) ?_
  exact Finset.sum_congr rfl fun p _ => by rw [pay3_apply]

end Final

end Cert.KernelPay

end
-- ==== Proof.LibScatterSet.lean ====
/-
  A host scatter whose body returns the update ("set"), read at one element.

  The scatter folds over the update indices in row-major order; each update that lands inside the operand
  overwrites the element it lands on. So the result at an element `z` is the operand's element when no update
  lands on `z`, and otherwise the value of the LAST update (in row-major order) that lands on `z`.

  From this: two such scatters agree at `z₁` and `z₂` whenever a relabelling `σ` of the update indices carries
  the updates landing on `z₂` onto those landing on `z₁`, with equal values, and keeps their relative order.

  General: nothing here mentions a program.
-/
import Idealize.ShloMosaic.PureOps.ShapeOps
import Idealize.ShloMosaic.PureOps.Dims
import Mathlib.Data.Fintype.Pi
import Mathlib.Order.Fin.Basic
import Mathlib.Data.Finset.Max

namespace Cert.LibScatterSet

open Idealize.ShloMosaic

variable {α : Type} {s si u : Shape} {w : Nat}

/-- The elements of `Fin n` listed in increasing order. -/
theorem pairwise_lt_finRange (n : Nat) : (List.finRange n).Pairwise (· < ·) := by
  rw [List.pairwise_iff_getElem]
  intro i j hi hj hij
  simp only [List.getElem_finRange]
  exact hij

/-- One step of the fold: the update numbered `n` overwrites the element it lands on, if any. -/
def step (d : ScatterDims s si u) (idx : IVec si w) (upd : u.Idx → α) (r : s.Idx → α) (n : Fin u.numel) : s.Idx → α :=
  match d.resultIdx? (u.rowMajor.symm n) idx with
  | some i => fun i' => if i' = i then (fun _ b => b) (r i) (upd (u.rowMajor.symm n)) else r i'
  | none => r

theorem scatter_eq_foldl (d : ScatterDims s si u) (x : s.Idx → α) (idx : IVec si w) (upd : u.Idx → α) :
    Host.scatter d (fun _ b => b) x idx upd = (List.finRange u.numel).foldl (step d idx upd) x := rfl

theorem step_miss (d : ScatterDims s si u) (idx : IVec si w) (upd : u.Idx → α) (r : s.Idx → α) (n : Fin u.numel)
    (z : s.Idx) (h : d.resultIdx? (u.rowMajor.symm n) idx ≠ some z) : step d idx upd r n z = r z := by
  unfold step
  cases hres : d.resultIdx? (u.rowMajor.symm n) idx with
  | none => rfl
  | some i =>
    have hz : ¬ z = i := fun e => h (by rw [hres, e])
    show (if z = i then _ else r z) = r z
    rw [if_neg hz]

theorem step_hit (d : ScatterDims s si u) (idx : IVec si w) (upd : u.Idx → α) (r : s.Idx → α) (n : Fin u.numel)
    (z : s.Idx) (h : d.resultIdx? (u.rowMajor.symm n) idx = some z) :
    step d idx upd r n z = upd (u.rowMajor.symm n) := by
  unfold step
  rw [h]
  show (if z = z then upd (u.rowMajor.symm n) else r z) = _
  rw [if_pos rfl]

/-- Updates none of which lands on `z` leave `z` as it was. -/
theorem foldl_miss (d : ScatterDims s si u) (idx : IVec si w) (upd : u.Idx → α) (z : s.Idx) (L : List (Fin u.numel))
    (h : ∀ n ∈ L, d.resultIdx? (u.rowMajor.symm n) idx ≠ some z) (r : s.Idx → α) :
    L.foldl (step d idx upd) r z = r z := by
  induction L generalizing r with
  | nil => rfl
  | cons a L ih =>
    rw [List.foldl_cons, ih (fun n hn => h n (List.mem_cons_of_mem _ hn))]
    exact step_miss d idx upd r a z (h a List.mem_cons_self)

/-- Over an increasing list of updates, the last one that lands on `z` decides `z`. -/
theorem foldl_last (d : ScatterDims s si u) (idx : IVec si w) (upd : u.Idx → α) (z : s.Idx) (L : List (Fin u.numel))
    (hs : L.Pairwise (· < ·)) (a : Fin u.numel) (ha : a ∈ L) (hit : d.resultIdx? (u.rowMajor.symm a) idx = some z)
    (hlast : ∀ b ∈ L, a < b → d.resultIdx? (u.rowMajor.symm b) idx ≠ some z) (r : s.Idx → α) :
    L.foldl (step d idx upd) r z = upd (u.rowMajor.symm a) := by
  induction L generalizing r with
  | nil => exact absurd ha (by simp)
  | cons b L ih =>
    rw [List.pairwise_cons] at hs
    rw [List.foldl_cons]
    rcases List.mem_cons.1 ha with hab | haL
    · subst hab
      rw [foldl_miss d idx upd z L (fun n hn => hlast n (List.mem_cons_of_mem _ hn) (hs.1 n hn))]
      exact step_hit d idx upd r a z hit
    · exact ih hs.2 haL (fun c hc hac => hlast c (List.mem_cons_of_mem _ hc) hac) _

/-- No update lands on `z`: the result there is the operand's element. -/
theorem scatter_set_of_none (d : ScatterDims s si u) (x : s.Idx → α) (idx : IVec si w) (upd : u.Idx → α) (z : s.Idx)
    (h : ∀ j, d.resultIdx? j idx ≠ some z) : Host.scatter d (fun _ b => b) x idx upd z = x z := by
  rw [scatter_eq_foldl]
  exact foldl_miss d idx upd z _ (fun n _ => h _) x

/-- Update `j` lands on `z` and no later update does: the result there is update `j`'s value. -/
theorem scatter_set_of_last (d : ScatterDims s si u) (x : s.Idx → α) (idx : IVec si w) (upd : u.Idx → α) (z : s.Idx)
    (j : u.Idx) (hit : d.resultIdx? j idx = some z)
    (hlast : ∀ j', u.rowMajor j < u.rowMajor j' → d.resultIdx? j' idx ≠ some z) :
    Host.scatter d (fun _ b => b) x idx upd z = upd j := by
  rw [scatter_eq_foldl]
  have h := foldl_last d idx upd z (List.finRange u.numel) (pairwise_lt_finRange _) (u.rowMajor j) (List.mem_finRange _)
    (by rw [Equiv.symm_apply_apply]; exact hit)
    (fun b _ hb => hlast (u.rowMajor.symm b) (by rw [Equiv.apply_symm_apply]; exact hb)) x
  rw [h, Equiv.symm_apply_apply]

/-- Two "set" scatters agree at `z₁` and `z₂` when a relabelling `σ` of the update indices, onto, matches the
    updates landing on `z₂` with those landing on `z₁`, with equal values, keeping the order of the ones that land. -/
theorem scatter_set_transport {s₁ si₁ u₁ s₂ si₂ u₂ : Shape} {w₁ w₂ : Nat}
    (d₁ : ScatterDims s₁ si₁ u₁) (d₂ : ScatterDims s₂ si₂ u₂)
    (x₁ : s₁.Idx → α) (idx₁ : IVec si₁ w₁) (upd₁ : u₁.Idx → α)
    (x₂ : s₂.Idx → α) (idx₂ : IVec si₂ w₂) (upd₂ : u₂.Idx → α)
    (z₁ : s₁.Idx) (z₂ : s₂.Idx) (σ : u₂.Idx → u₁.Idx) (hσ : Function.Surjective σ)
    (hhit : ∀ j, d₁.resultIdx? (σ j) idx₁ = some z₁ ↔ d₂.resultIdx? j idx₂ = some z₂)
    (hupd : ∀ j, d₂.resultIdx? j idx₂ = some z₂ → upd₁ (σ j) = upd₂ j)
    (hord : ∀ j j', d₂.resultIdx? j idx₂ = some z₂ → d₂.resultIdx? j' idx₂ = some z₂ →
      u₂.rowMajor j < u₂.rowMajor j' → u₁.rowMajor (σ j) < u₁.rowMajor (σ j'))
    (hx : x₁ z₁ = x₂ z₂) :
    Host.scatter d₁ (fun _ b => b) x₁ idx₁ upd₁ z₁ = Host.scatter d₂ (fun _ b => b) x₂ idx₂ upd₂ z₂ := by
  classical
  by_cases hex : ∃ j, d₂.resultIdx? j idx₂ = some z₂
  · obtain ⟨j₀, hj₀⟩ := hex
    have hne : (Finset.univ.filter fun j => d₂.resultIdx? j idx₂ = some z₂).Nonempty :=
      ⟨j₀, by simp only [Finset.mem_filter, Finset.mem_univ, true_and]; exact hj₀⟩
    obtain ⟨j, hjm, hmax⟩ := Finset.exists_max_image _ (fun j => u₂.rowMajor j) hne
    have hj : d₂.resultIdx? j idx₂ = some z₂ := by
      simpa only [Finset.mem_filter, Finset.mem_univ, true_and] using hjm
    have hmax' : ∀ j', d₂.resultIdx? j' idx₂ = some z₂ → u₂.rowMajor j' ≤ u₂.rowMajor j := fun j' h' =>
      hmax j' (by simp only [Finset.mem_filter, Finset.mem_univ, true_and]; exact h')
    rw [scatter_set_of_last d₂ x₂ idx₂ upd₂ z₂ j hj (fun j' hlt h' => absurd (hmax' j' h') (not_le.2 hlt))]
    rw [scatter_set_of_last d₁ x₁ idx₁ upd₁ z₁ (σ j) ((hhit j).2 hj) ?_, hupd j hj]
    intro j₁ hlt h₁
    obtain ⟨j', rfl⟩ := hσ j₁
    have h' := (hhit j').1 h₁
    rcases lt_or_eq_of_le (hmax' j' h') with hl | he
    · exact absurd (hord j' j h' hj hl) (not_lt.2 (le_of_lt hlt))
    · have : j' = j := u₂.rowMajor.injective he
      subst this
      exact absurd hlt (lt_irrefl _)
  · have h₂ : ∀ j, d₂.resultIdx? j idx₂ ≠ some z₂ := fun j h => hex ⟨j, h⟩
    have h₁ : ∀ j, d₁.resultIdx? j idx₁ ≠ some z₁ := fun j₁ h => by
      obtain ⟨j', rfl⟩ := hσ j₁
      exact h₂ j' ((hhit j').1 h)
    rw [scatter_set_of_none d₁ x₁ idx₁ upd₁ z₁ h₁, scatter_set_of_none d₂ x₂ idx₂ upd₂ z₂ h₂, hx]

end Cert.LibScatterSet
-- ==== Proof.LibRowScatter.lean ====
/-
  A scatter of rows with addition, read at an index; and two such scatters fused into one.

  The operand is an N × C array, the updates an E × C array, and update row e is added into the operand row
  that the e-th scatter index names (read signed, not clamped; a row outside the operand is dropped). Read at
  (n, k), the result is the operand's entry plus the sum of the updates' k-th column over the rows e whose
  index is n.

  Fusing: scattering the 2E rows "u followed by −u" by the indices "r followed by s" gives, at every entry,
  the scatter of u by r MINUS the scatter of u by s — provided the entries of u are real numbers: negation
  does not distribute over a sum of extended reals that contains both infinities.

  General: nothing here mentions a program.
-/
import Idealize.ShloMosaic.PureOps.Ideal
import Idealize.ShloMosaic.Lib.ValueIdx

noncomputable section

open scoped BigOperators

namespace Cert.LibRowScatter

open Idealize.ShloMosaic Idealize.ShloMosaic.ValueIdx Finset

/-! ## Where an update lands, for any dimension numbers -/

/-- An update lands at `i` exactly when, on every operand axis, window start plus window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have h1 := congrArg (fun f => (f a).val) hi
      simp only at h1
      have h2 := h a
      omega
    · intro hi
      funext a
      apply Fin.ext
      have h1 := hi a
      simp only
      omega
  · rename_i h
    constructor
    · intro hi; exact absurd hi (by simp)
    · intro hi
      exfalso; apply h
      intro a
      have h1 := hi a
      have h2 := (i a).isLt
      omega

/-! ## Rows -/

/-- The dimension numbers of a scatter of rows: operand N × C, scatter indices E × 1, updates E × C; the
    updates' second axis is the window, the operand's first axis is the one indexed. -/
abbrev rowDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)

/-- Where the scatter indices hold update row `e`'s index. -/
abbrev rowAt (e : Fin E) : (⟨2, ![E, 1]⟩ : Shape).Idx := ix2 e (0 : Fin 1)

theorem start_zero (e : Fin E) (k : Fin C) (idx : IVec ⟨2, ![E, 1]⟩ w) :
    (rowDims N C E wf).start (ix2 e k) idx 0 = (idx (rowAt e)).toInt := by
  unfold ScatterDims.start
  rw [dif_pos (show (0 : Fin 2) ∈ (rowDims N C E wf).scatterDimsToOperandDims from List.mem_singleton.mpr rfl)]
  have hsi : (rowDims N C E wf).siIdx (ix2 e k) ⟨List.idxOf (0 : Fin 2) (rowDims N C E wf).scatterDimsToOperandDims,
      List.idxOf_lt_length_iff.2 (List.mem_singleton.mpr rfl)⟩ = rowAt e := by
    funext b; refine Fin.ext ?_
    match b with
    | ⟨0, _⟩ => rfl
    | ⟨1, _⟩ => rfl
  rw [hsi]

theorem start_one (e : Fin E) (k : Fin C) (idx : IVec ⟨2, ![E, 1]⟩ w) :
    (rowDims N C E wf).start (ix2 e k) idx 1 = 0 := by
  unfold ScatterDims.start
  have h : ¬ (1 : Fin 2) ∈ (rowDims N C E wf).scatterDimsToOperandDims :=
    show ¬ (1 : Fin 2) ∈ ([0] : List (Fin 2)) by decide
  rw [dif_neg h]

theorem window_zero (e : Fin E) (k : Fin C) : (rowDims N C E wf).window (ix2 e k) 0 = 0 := by
  unfold ScatterDims.window
  have h : ¬ (0 : Fin 2) ∈ (rowDims N C E wf).sKept :=
    show ¬ (0 : Fin 2) ∈ (List.finRange 2).filter (· ∉ ([0] : List (Fin 2))) by decide
  rw [dif_neg h]

theorem window_one (e : Fin E) (k : Fin C) : (rowDims N C E wf).window (ix2 e k) 1 = k.val := by
  unfold ScatterDims.window
  have h : (1 : Fin 2) ∈ (rowDims N C E wf).sKept :=
    show (1 : Fin 2) ∈ (List.finRange 2).filter (· ∉ ([0] : List (Fin 2))) by decide
  rw [dif_pos h]
  rfl

/-- Update entry (e, k) lands at (n, k') exactly when row e's index is n and the columns agree. -/
theorem resultIdx?_rows (e : Fin E) (k : Fin C) (idx : IVec ⟨2, ![E, 1]⟩ w) (n : Fin N) (k' : Fin C) :
    (rowDims N C E wf).resultIdx? (ix2 e k) idx = some (ix2 n k') ↔ (idx (rowAt e)).toInt = (n.val : Int) ∧ k = k' := by
  rw [resultIdx?_eq_some_iff, Fin.forall_fin_two, start_zero, start_one, window_zero, window_one]
  constructor
  · rintro ⟨h0, h1⟩
    refine ⟨by simpa using h0, Fin.ext ?_⟩
    have : ((k.val : Int)) = ((k'.val : Nat) : Int) := by simpa using h1
    exact_mod_cast this
  · rintro ⟨h0, rfl⟩
    exact ⟨by simpa using h0, by simp⟩

/-- THE SCATTER READ AT (n, k): the operand's entry plus the k-th column of the updates summed over the rows
    whose index is n. -/
theorem hostScatterAdd_rows_apply (x : (⟨2, ![N, C]⟩ : Shape).Idx → EReal) (idx : IVec ⟨2, ![E, 1]⟩ w)
    (upd : (⟨2, ![E, C]⟩ : Shape).Idx → EReal) (n : Fin N) (k : Fin C) :
    Ideal.hostScatterAdd (rowDims N C E wf) x idx upd (ix2 n k)
      = x (ix2 n k) + ∑ e ∈ univ.filter (fun e : Fin E => (idx (rowAt e)).toInt = (n.val : Int)), upd (ix2 e k) := by
  unfold Ideal.hostScatterAdd
  congr 1
  rw [Finset.sum_filter, sum_idx2, Finset.sum_filter]
  refine Finset.sum_congr rfl fun e _ => ?_
  simp only [resultIdx?_rows]
  by_cases h : (idx (rowAt e)).toInt = (n.val : Int)
  · simp only [h, true_and, if_true]
    rw [Finset.sum_ite_eq' Finset.univ k (fun c => upd (ix2 e c)), if_pos (Finset.mem_univ k)]
  · simp only [h, false_and, if_false, Finset.sum_const_zero]

end Rows

/-! ## Sums of real numbers among the extended reals -/

/-- The inclusion of the reals carries a finite sum to the sum of the inclusions. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Negation distributes over a finite sum of real numbers. -/
theorem sum_neg_coe {ι : Type} (s : Finset ι) (f : ι → ℝ) :
    ∑ i ∈ s, -((f i : ℝ) : EReal) = -∑ i ∈ s, ((f i : ℝ) : EReal) := by
  rw [← coe_sum, ← EReal.coe_neg, ← Finset.sum_neg_distrib, coe_sum]
  simp only [EReal.coe_neg]

/-! ## Two scatters in one -/

/-- THE FUSED SUM. Over 2E rows whose indices are `ρ` then `σ` and whose values are `υ` then `−υ` (`υ` real), the
    rows indexed `n` sum to: the rows of `υ` that `ρ` sends to `n`, minus the rows of `υ` that `σ` sends to `n`. -/
theorem sum_fused {E E2 : Nat} (hE : E2 = E + E) (n : Int) (ρ σ : Fin E → Int) (υ : Fin E → ℝ)
    (ρ2 : Fin E2 → Int) (υ2 : Fin E2 → EReal)
    (hl : ∀ (e : Fin E2) (h : e.val < E), ρ2 e = ρ ⟨e.val, h⟩ ∧ υ2 e = ((υ ⟨e.val, h⟩ : ℝ) : EReal))
    (hr : ∀ (e : Fin E2) (h : E ≤ e.val), ρ2 e = σ ⟨e.val - E, by have := e.isLt; omega⟩
      ∧ υ2 e = -((υ ⟨e.val - E, by have := e.isLt; omega⟩ : ℝ) : EReal)) :
    ∑ e ∈ univ.filter (fun e => ρ2 e = n), υ2 e
      = (∑ e ∈ univ.filter (fun e => ρ e = n), ((υ e : ℝ) : EReal))
        - ∑ e ∈ univ.filter (fun e => σ e = n), ((υ e : ℝ) : EReal) := by
  subst hE
  rw [Finset.sum_filter, Fin.sum_univ_add, sub_eq_add_neg, ← sum_neg_coe, Finset.sum_filter, Finset.sum_filter]
  congr 1
  · refine Finset.sum_congr rfl fun e _ => ?_
    obtain ⟨h1, h2⟩ := hl (Fin.castAdd E e) (by simp)
    rw [h1, h2]
    rfl
  · refine Finset.sum_congr rfl fun e _ => ?_
    obtain ⟨h1, h2⟩ := hr (Fin.natAdd E e) (by simp)
    rw [h1, h2]
    have he : (⟨(Fin.natAdd E e).val - E, by simp⟩ : Fin E) = e := Fin.ext (by simp)
    simp only [he]

end Cert.LibRowScatter

end
-- ==== Proof.Spec.lean ====
/-
  What both programs compute, as one function of the six argument arrays over the extended reals, index by index.
  A sample `b` has 27 rows of width 128: row 0 is the dense features projected, `x · Wpᵀ + bp`, rows 1..26 are the
  sparse rows. Its interaction matrix holds the 27 x 27 pairwise inner products of those rows; the 378 entries on and
  below the diagonal, taken in row-major order (`triRow k`, `triCol k`), are appended to the 512 dense features, and
  the result is that 890-vector through the last affine layer `· Woᵀ + bo`, the sum split into its dense and its
  triangle part.
-/
import Idealize.ShloMosaic.PureOps.Ideal
import Idealize.ShloMosaic.Lib.ValueIdx

noncomputable section

open scoped BigOperators

namespace Cert.Spec

open Idealize.ShloMosaic Idealize.ShloMosaic.ValueIdx

/-- Entry `k` of a lower triangle enumerated row by row, as (row, column): starting from row `r`, which holds
    `r + 1` entries, step down a row while `k` exceeds it. `fuel` bounds the number of steps. -/
def triSplit : Nat → Nat → Nat → Nat × Nat
  | 0, r, k => (r, k)
  | fuel + 1, r, k => if k ≤ r then (r, k) else triSplit fuel (r + 1) (k - (r + 1))

/-- The row of the `k`-th entry of the 27 x 27 lower triangle. -/
def triRow (k : Fin 378) : Fin 27 := ⟨(triSplit 27 0 k.val).1 % 27, Nat.mod_lt _ (by decide)⟩

/-- Its column. -/
def triCol (k : Fin 378) : Fin 27 := ⟨(triSplit 27 0 k.val).2 % 27, Nat.mod_lt _ (by decide)⟩

abbrev Dense := (⟨2, ![16384, 512]⟩ : Shape).Idx → EReal
abbrev Sparse := (⟨3, ![16384, 26, 128]⟩ : Shape).Idx → EReal
abbrev WpT := (⟨2, ![128, 512]⟩ : Shape).Idx → EReal
abbrev BpT := (⟨1, ![128]⟩ : Shape).Idx → EReal
abbrev WoT := (⟨2, ![512, 890]⟩ : Shape).Idx → EReal
abbrev BoT := (⟨1, ![512]⟩ : Shape).Idx → EReal

/-- The dense features of sample `b` projected to the embedding width, entry `e`. -/
def proj (x : Dense) (Wp : WpT) (bp : BpT) (b : Fin 16384) (e : Fin 128) : EReal :=
  (∑ d : Fin 512, x (ix2 b d) * Wp (ix2 e d)) + bp (ix1 e)

/-- Row `i` of sample `b`'s 27 rows: the projection, then the sparse rows. -/
def feat (x : Dense) (sp : Sparse) (Wp : WpT) (bp : BpT) (b : Fin 16384) (i : Fin 27) (e : Fin 128) : EReal :=
  if h : i.val = 0 then proj x Wp bp b e else sp (ix3 b (⟨i.val - 1, by omega⟩ : Fin 26) e)

/-- The inner product of rows `i` and `j` of sample `b`. -/
def gram (x : Dense) (sp : Sparse) (Wp : WpT) (bp : BpT) (b : Fin 16384) (i j : Fin 27) : EReal :=
  ∑ e : Fin 128, feat x sp Wp bp b i e * feat x sp Wp bp b j e

/-- The result at sample `b`, output feature `o`. -/
def outAt (x : Dense) (sp : Sparse) (Wp : WpT) (bp : BpT) (Wo : WoT) (bo : BoT) (b : Fin 16384) (o : Fin 512) : EReal :=
  ((∑ d : Fin 512, x (ix2 b d) * Wo (ix2 o (⟨d.val, by omega⟩ : Fin 890)))
    + ∑ k : Fin 378, gram x sp Wp bp b (triRow k) (triCol k) * Wo (ix2 o (⟨512 + k.val, by omega⟩ : Fin 890)))
  + bo (ix1 o)

/-- The result array. -/
def out (x : Dense) (sp : Sparse) (Wp : WpT) (bp : BpT) (Wo : WoT) (bo : BoT) : Dense :=
  fun i => outAt x sp Wp bp Wo bo (i 0) (i 1)

end Cert.Spec

end
-- ==== Proof.PosTable.lean ====
/-
  The kernel's wrapper writes row k of the transposed triangle weights at row 32 · triRow k + triCol k of a
  1024-row array: the flat position of entry (triRow k, triCol k) in a 32 x 32 matrix. The program carries these
  378 positions as a literal table; here the table is checked against that formula, and the positions are shown
  to increase with k, hence to be distinct.
-/
import proofs.«147438_j49555332661502_2_alg».proof.KernelIdeal
import proofs.«147438_j49555332661502_2_alg».proof.Proof.Spec

noncomputable section

namespace Cert.PosTable

open Cert.KernelIdeal Idealize.ShloMosaic
open Idealize.ShloMosaic.ValueIdx Cert.Spec

/-! ## The table of flat positions -/

/-- The flat position, in a 32 x 32 matrix, of the k-th entry of the 27 x 27 lower triangle. -/
def pos (k : Fin 378) : Fin 1024 := ⟨32 * (triRow k).val + (triCol k).val, by have := (triRow k).isLt; have := (triCol k).isLt; omega⟩

/-- The program's literal table holds exactly these positions. -/
theorem lit_eq : ∀ k : Fin 378, lit0 k = BitVec.ofNat 32 (pos k).val := by decide

theorem pos_div (k : Fin 378) : (pos k).val / 32 = (triRow k).val := by
  have := (triCol k).isLt; show (32 * (triRow k).val + (triCol k).val) / 32 = _; omega

theorem pos_mod (k : Fin 378) : (pos k).val % 32 = (triCol k).val := by
  have := (triCol k).isLt; show (32 * (triRow k).val + (triCol k).val) % 32 = _; omega

/-- The positions increase with k, -/
theorem pos_succ_lt : ∀ k : Fin 377, (pos k.castSucc).val < (pos k.succ).val := by decide

/-- so they are distinct. -/
theorem pos_injective : Function.Injective pos := by
  have hm : StrictMono pos := Fin.strictMono_iff_lt_succ.2 fun k => pos_succ_lt k
  exact hm.injective

theorem lit_toInt (k : Fin 378) : (lit0 k).toInt = ((pos k).val : Int) := by
  rw [lit_eq k]
  have h := (pos k).isLt
  have h2 : (BitVec.ofNat 32 (pos k).val).toNat = (pos k).val := by
    rw [BitVec.toNat_ofNat]; exact Nat.mod_eq_of_lt (by omega)
  rw [BitVec.toInt_eq_toNat_cond, h2]
  split <;> omega

end Cert.PosTable

end
-- ==== Proof.KernelGlue.lean ====
/-
  The five arrays the kernel's resident windows stage are computed on the host from the arguments before the
  launch; here each is read at an index as an entry of an argument. The projection weights transposed: entry
  (d, e) is Wp (e, d). The two biases given a leading unit axis. The dense part of the output weights transposed:
  entry (d, o) is Wo (o, d) for d < 512. The triangle part is a 1024 x 512 array of zeros into which row k of the
  transposed triangle weights — Wo (·, 512 + k) — is written at row `pos k`: these 378 positions are distinct, so
  a row of the result is either that weight row or zero.
-/
import proofs.«147438_j49555332661502_2_alg».proof.Proof.Gen.KernelIdeal.Value
import Idealize.ShloMosaic.Lib.ValueLayout
import Idealize.ShloMosaic.Lib.StableHlo.Run
import Idealize.ShloMosaic.PureOps.Ideal.Laws
import proofs.«147438_j49555332661502_2_alg».proof.Proof.LibScatterSet
import proofs.«147438_j49555332661502_2_alg».proof.Proof.LibRowScatter
import proofs.«147438_j49555332661502_2_alg».proof.Proof.PosTable

noncomputable section

namespace Cert.KernelGlue

open Cert.KernelIdeal Cert.KernelIdeal.Gen Idealize.ShloMosaic Idealize.ShloMosaic.TcCoe Idealize.SL.Sem
open Idealize.ShloMosaic.ValueIdx Cert.Spec Cert.PosTable

/-! ## The scatter, on its own -/

/-- The scatter's index array: the literal table, one index per row. (The wrapper's negative-index wrap selects on
    an all-false mask and changes nothing.) -/
def idxArr : IVec S378x1 32 :=
  broadcastInDim S378x1 ![0] bcast_S378_S378x1_0
    (select (constantI S378 1 0#1)
      (addi (fun i => lit0 (S378.rowMajor i)) (broadcastInDim S378 ![] bcast_S_S378 (constantI S_ 32 1024#32)))
      (fun i => lit0 (S378.rowMajor i)))

theorem idxArr_apply (k : Fin 378) : idxArr (ix2 k (0 : Fin 1)) = lit0 k := by
  unfold idxArr
  rw [broadcastInDim_apply _ _ _ _ (ix1 k) (fun a => match a with | ⟨0, _⟩ => rfl)]
  rw [select_apply]
  show Scalar.select 0#1 _ _ = _
  rw [select_zero]
  show lit0 (S378.rowMajor (ix1 k)) = lit0 k
  exact congrArg lit0 (Fin.ext (Shape.rowMajor_val_one _))

/-- The triangle weights scattered into 1024 zero rows. -/
def wprime (Wo : FVec Ideal S512x890 .f32) : S1024x512.Idx → EReal :=
  truncf (F := Ideal) .bf16 (Host.scatter scatter_S1024x512_S378x1_S378x512_1_0_0_1 (fun _ b => b)
    (broadcastInDim S1024x512 ![] bcast_S_S1024x512 (constant (F := Ideal) S_ .f32 0x00000000#32))
    idxArr
    (transpose S378x512 [1, 0] (extractStridedSlice S512x378 ![0, 512] Wo slices_S512x890_S512x378_0_512) transposes_S512x378_S378x512_1_0)) bitsLt_bf16_f32

set_option maxRecDepth 8192 in
theorem wprime_apply (Wo : FVec Ideal S512x890 .f32) (z : S1024x512.Idx) :
    wprime Wo z = Host.scatter scatter_S1024x512_S378x1_S378x512_1_0_0_1 (fun _ b => b)
      (broadcastInDim S1024x512 ![] bcast_S_S1024x512 (constant (F := Ideal) S_ .f32 0x00000000#32))
      idxArr
      (transpose S378x512 [1, 0] (extractStridedSlice S512x378 ![0, 512] Wo slices_S512x890_S512x378_0_512) transposes_S512x378_S378x512_1_0) z := by
  unfold wprime
  exact truncf_apply _ _ z

theorem lands_iff (k' : Fin 378) (o' : Fin 512) (p : Fin 1024) (o : Fin 512) :
    scatter_S1024x512_S378x1_S378x512_1_0_0_1.resultIdx? (ix2 k' o') idxArr = some (ix2 p o) ↔ pos k' = p ∧ o' = o := by
  have h := Cert.LibRowScatter.resultIdx?_rows (N := 1024) (C := 512) (E := 378) scatter_S1024x512_S378x1_S378x512_1_0_0_1_wf
    k' o' idxArr p o
  refine Iff.trans h ?_
  rw [show idxArr (Cert.LibRowScatter.rowAt k') = lit0 k' from idxArr_apply k', lit_toInt]
  constructor
  · rintro ⟨h0, h1⟩; exact ⟨Fin.ext (by exact_mod_cast h0), h1⟩
  · rintro ⟨h0, h1⟩; exact ⟨by rw [h0], h1⟩

/-- Row `pos k` of the scattered array is row k of the transposed triangle weights. -/
theorem wprime_hit (Wo : FVec Ideal S512x890 .f32) (k : Fin 378) (o : Fin 512) :
    wprime Wo (ix2 (pos k) o) = Wo (ix2 o (⟨512 + k.val, by omega⟩ : Fin 890)) := by
  rw [wprime_apply, Cert.LibScatterSet.scatter_set_of_last _ _ _ _ (ix2 (pos k) o) (ix2 k o) ((lands_iff k o (pos k) o).2 ⟨rfl, rfl⟩)]
  · rw [transpose_ix2_apply]
    exact slice2_axis1_apply 512 Wo _ o k _ rfl
  · intro j' hlt hj'
    obtain ⟨k', o', rfl⟩ : ∃ (k' : Fin 378) (o' : Fin 512), j' = ix2 k' o' := ⟨j' 0, j' 1, eq_ix2 j'⟩
    obtain ⟨hk, ho⟩ := (lands_iff k' o' (pos k) o).1 hj'
    have hk' : k' = k := pos_injective hk
    subst hk' ho
    exact absurd hlt (lt_irrefl _)

/-- A row that is no `pos k` stays zero. -/
theorem wprime_miss (Wo : FVec Ideal S512x890 .f32) (p : Fin 1024) (hp : ∀ k, pos k ≠ p) (o : Fin 512) :
    wprime Wo (ix2 p o) = 0 := by
  rw [wprime_apply, Cert.LibScatterSet.scatter_set_of_none _ _ _ _ (ix2 p o)]
  · show Ideal.ofBits .f32 0x00000000#32 = 0
    exact Ideal.ofBits_zero_f32
  · intro j' hj'
    obtain ⟨k', o', rfl⟩ : ∃ (k' : Fin 378) (o' : Fin 512), j' = ix2 k' o' := ⟨j' 0, j' 1, eq_ix2 j'⟩
    exact hp k' ((lands_iff k' o' p o).1 hj').1

/-! ## The staged arrays as the region finds them -/

variable (m : (ℓ : Loc nD τ sig) → Buf (Elt Ideal) ℓ) (c : Dev nD)

theorem V_v1_apply (d : Fin 512) (e : Fin 128) :
    (V m c main_v1 : S512x128.Idx → EReal) (ix2 d e) = (m ((c : Thread nD τ).loc main_arg2) : S128x512.Idx → EReal) (ix2 e d) := by
  have h : (V m c main_v1 : S512x128.Idx → EReal)
      = truncf (F := Ideal) .bf16 (transpose S512x128 [1, 0] (m ((c : Thread nD τ).loc main_arg2)) transposes_S128x512_S512x128_1_0) bitsLt_bf16_f32 := by
    dsimp only [V, hostOps0]
    after_results
  rw [h]
  exact transpose_ix2_apply _ _ d e

theorem V_v2_apply (u : Fin 1) (e : Fin 128) :
    (V m c main_v2 : S1x128.Idx → EReal) (ix2 u e) = (m ((c : Thread nD τ).loc main_arg3) : S128.Idx → EReal) (ix1 e) := by
  have h : (V m c main_v2 : S1x128.Idx → EReal)
      = shapeCast S1x128 (m ((c : Thread nD τ).loc main_arg3) : S128.Idx → EReal) shapeCasts_S128_S1x128 := by
    dsimp only [V, hostOps0]
    after_results
    rfl
  rw [h]
  exact shapeCast_a_1a_apply _ _ u e

theorem V_v6_apply (d : Fin 512) (o : Fin 512) :
    (V m c main_v6 : S512x512.Idx → EReal) (ix2 d o)
      = (m ((c : Thread nD τ).loc main_arg4) : S512x890.Idx → EReal) (ix2 o (⟨d.val, by omega⟩ : Fin 890)) := by
  have h : (V m c main_v6 : S512x512.Idx → EReal)
      = truncf (F := Ideal) .bf16 (transpose S512x512 [1, 0]
          (extractStridedSlice S512x512 ![0, 0] (m ((c : Thread nD τ).loc main_arg4)) slices_S512x890_S512x512_0_0) transposes_S512x512_S512x512_1_0) bitsLt_bf16_f32 := by
    dsimp only [V, hostOps0]
    after_results
  rw [h]
  show transpose S512x512 [1, 0] (extractStridedSlice S512x512 ![0, 0] (m ((c : Thread nD τ).loc main_arg4)) slices_S512x890_S512x512_0_0)
    transposes_S512x512_S512x512_1_0 (ix2 d o) = _
  rw [transpose_ix2_apply]
  exact slice2_axis1_apply 0 _ _ o d _ (by simp)

set_option maxRecDepth 8192 in
theorem V_v14_eq :
    (V m c main_v14 : S1024x512.Idx → EReal) = wprime (m ((c : Thread nD τ).loc main_arg4)) := by
  have h : (V m c main_v14 : S1024x512.Idx → EReal)
      = truncf (F := Ideal) .bf16 (Host.scatter scatter_S1024x512_S378x1_S378x512_1_0_0_1 (fun _ b => b)
        (broadcastInDim S1024x512 ![] bcast_S_S1024x512 (constant (F := Ideal) S_ .f32 0x00000000#32))
        (broadcastInDim S378x1 ![0] bcast_S378_S378x1_0
          (select (constantI S378 1 0#1) (addi (fun i => lit0 (S378.rowMajor i)) (broadcastInDim S378 ![] bcast_S_S378 (constantI S_ 32 1024#32))) (fun i => lit0 (S378.rowMajor i))))
        (transpose S378x512 [1, 0] (extractStridedSlice S512x378 ![0, 512] (m ((c : Thread nD τ).loc main_arg4)) slices_S512x890_S512x378_0_512) transposes_S512x378_S378x512_1_0)) bitsLt_bf16_f32 := by
    dsimp only [V, hostOps0]
    after_results
    rfl
  unfold wprime idxArr
  exact h

theorem V_v15_apply (u : Fin 1) (o : Fin 512) :
    (V m c main_v15 : S1x512.Idx → EReal) (ix2 u o) = (m ((c : Thread nD τ).loc main_arg5) : S512.Idx → EReal) (ix1 o) := by
  have h : (V m c main_v15 : S1x512.Idx → EReal)
      = shapeCast S1x512 (m ((c : Thread nD τ).loc main_arg5) : S512.Idx → EReal) shapeCasts_S512_S1x512 := by
    dsimp only [V, hostOps0]
    after_results
    rfl
  rw [h]
  exact shapeCast_a_1a_apply _ _ u o

end Cert.KernelGlue

end
-- ==== Proof.LibSupportSum.lean ====
/-
  A sum against weights that vanish off the image of an injection: if `W` is `w k` at `pos k` and zero at every
  index that is no `pos k`, then ∑ p, f p * W p = ∑ k, f (pos k) * w k. Only `x * 0 = 0` and the commutative
  monoid of addition are used, so this holds on the extended reals with no finiteness assumption. And a sum over `Fin (a + b)` split in two.
  General: nothing here mentions a program.
-/
import Mathlib.Algebra.BigOperators.Fin
import Mathlib.Data.EReal.Basic

open scoped BigOperators

namespace Cert.LibSupportSum

theorem sum_mul_of_support {ι κ : Type*} [Fintype ι] [Fintype κ] [DecidableEq ι]
    (pos : κ → ι) (hinj : Function.Injective pos) (f W : ι → EReal) (w : κ → EReal)
    (hhit : ∀ k, W (pos k) = w k) (hmiss : ∀ p, (∀ k, pos k ≠ p) → W p = 0) :
    ∑ p, f p * W p = ∑ k, f (pos k) * w k := by
  rw [← Finset.sum_subset (Finset.subset_univ (Finset.univ.image pos))]
  · rw [Finset.sum_image (fun a _ b _ h => hinj h)]
    exact Finset.sum_congr rfl fun k _ => by rw [hhit]
  · intro p _ hp
    rw [hmiss p (fun k hk => hp (Finset.mem_image.2 ⟨k, Finset.mem_univ _, hk⟩)), mul_zero]

/-- A sum over `Fin n`, with `n = a + b`, split into its first `a` and its last `b` terms. -/
theorem sum_fin_split {M : Type*} [AddCommMonoid M] (a b n : Nat) (h : n = a + b) (f : Fin n → M) :
    ∑ q : Fin n, f q = (∑ d : Fin a, f ⟨d.val, by omega⟩) + ∑ k : Fin b, f ⟨a + k.val, by omega⟩ := by
  subst h
  rw [Fin.sum_univ_add]
  rfl

end Cert.LibSupportSum
-- ==== Proof.KernelArr.lean ====
/-
  From blocks to the array. Grid point t of 64 works on samples 256 t … 256 t + 255: it fetches that tile of the
  dense and of the sparse features, has the five resident arrays whole, and writes back that tile of the output. At
  sample 256 t + r and output feature o the body's stored value is the dense features through the dense output
  weights, plus the padded 32 x 32 interaction matrix through the scattered triangle weights, plus the bias. The
  scattered weights vanish off the 378 rows `pos k`, and on row `pos k` = 32 · triRow k + triCol k the padded matrix
  holds the inner product of the sample's rows triRow k and triCol k (both below 27, so neither is a zero padding
  row): the 1024-term sum is the specification's 378-term sum. The tiles cover the output, so the output array after
  the run is the specification's result.
-/
import proofs.«147438_j49555332661502_2_alg».proof.Proof.Gen.KernelIdeal.Value
import proofs.«147438_j49555332661502_2_alg».proof.Proof.KernelPay
import proofs.«147438_j49555332661502_2_alg».proof.Proof.KernelGlue
import proofs.«147438_j49555332661502_2_alg».proof.Proof.LibSupportSum
import proofs.«147438_j49555332661502_2_alg».proof.Proof.Spec

noncomputable section

open scoped BigOperators

namespace Cert.KernelArr

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Spec Cert.PosTable Cert.KernelPay Cert.KernelGlue

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 64 grid points: the two tiled inputs move with the output along the
    batch axis, everything else stays at block 0, and point t's output block is block t. -/
theorem idx_facts : ∀ t : Fin cfg0.N,
    win0_7.index t (0 : Fin 2) = t.val ∧ win0_7.index t (1 : Fin 2) = 0
    ∧ win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

section Reads
variable (c : Dev nD) (t : Fin cfg0.N)

/-- The dense tile at point t is rows 256 t … of the dense features. -/
theorem blk0 (r : Fin 256) (d : Fin 512) (b : Fin 16384) (hb : b.val = t.val * 256 + r.val) :
    iblk m c 0 t (ix2 r d) = (m ((c : Thread nD τ).loc main_arg0) : S16384x512.Idx → EReal) (ix2 b d) := by
  obtain ⟨-, -, e0, e1, -⟩ := idx_facts t
  show V m c main_arg0 (((cfg0.win 0).blk t).view.emb (ix2 r d)) = _
  rw [V_main_arg0]
  refine congrArg _ (funext fun a => Fin.ext ?_)
  match a with
  | ⟨0, _⟩ => show win0_0.index t (0 : Fin 2) * 256 + 1 * r.val = b.val; omega
  | ⟨1, _⟩ => show win0_0.index t (1 : Fin 2) * 512 + 1 * d.val = d.val; omega

/-- The sparse tile likewise. -/
theorem blk1 (r : Fin 256) (i : Fin 26) (e : Fin 128) (b : Fin 16384) (hb : b.val = t.val * 256 + r.val) :
    iblk m c 1 t (ix3 r i e) = (m ((c : Thread nD τ).loc main_arg1) : S16384x26x128.Idx → EReal) (ix3 b i e) := by
  obtain ⟨-, -, -, -, e0, e1, e2, -⟩ := idx_facts t
  show V m c main_arg1 (((cfg0.win 1).blk t).view.emb (ix3 r i e)) = _
  rw [V_main_arg1]
  refine congrArg _ (funext fun a => Fin.ext ?_)
  match a with
  | ⟨0, _⟩ => show win0_1.index t (0 : Fin 3) * 256 + 1 * r.val = b.val; omega
  | ⟨1, _⟩ => show win0_1.index t (1 : Fin 3) * 26 + 1 * i.val = i.val; omega
  | ⟨2, _⟩ => show win0_1.index t (2 : Fin 3) * 128 + 1 * e.val = e.val; omega

/-- The resident arrays are read whole at every point. -/
theorem blk2 (d : Fin 512) (e : Fin 128) : iblk m c 2 t (ix2 d e) = (V m c main_v1 : S512x128.Idx → EReal) (ix2 d e) := by
  obtain ⟨-, -, -, -, -, -, -, e0, e1, -⟩ := idx_facts t
  show V m c main_v1 (((cfg0.win 2).blk t).view.emb (ix2 d e)) = _
  refine congrArg _ (funext fun a => Fin.ext ?_)
  match a with
  | ⟨0, _⟩ => show win0_2.index t (0 : Fin 2) * 512 + 1 * d.val = d.val; omega
  | ⟨1, _⟩ => show win0_2.index t (1 : Fin 2) * 128 + 1 * e.val = e.val; omega

theorem blk3 (u : Fin 1) (e : Fin 128) : iblk m c 3 t (ix2 u e) = (V m c main_v2 : S1x128.Idx → EReal) (ix2 u e) := by
  obtain ⟨-, -, -, -, -, -, -, -, -, e0, e1, -⟩ := idx_facts t
  show V m c main_v2 (((cfg0.win 3).blk t).view.emb (ix2 u e)) = _
  refine congrArg _ (funext fun a => Fin.ext ?_)
  match a with
  | ⟨0, _⟩ => show win0_3.index t (0 : Fin 2) * 1 + 1 * u.val = u.val; omega
  | ⟨1, _⟩ => show win0_3.index t (1 : Fin 2) * 128 + 1 * e.val = e.val; omega

theorem blk4 (d : Fin 512) (o : Fin 512) : iblk m c 4 t (ix2 d o) = (V m c main_v6 : S512x512.Idx → EReal) (ix2 d o) := by
  obtain ⟨-, -, -, -, -, -, -, -, -, -, -, e0, e1, -⟩ := idx_facts t
  show V m c main_v6 (((cfg0.win 4).blk t).view.emb (ix2 d o)) = _
  refine congrArg _ (funext fun a => Fin.ext ?_)
  match a with
  | ⟨0, _⟩ => show win0_4.index t (0 : Fin 2) * 512 + 1 * d.val = d.val; omega
  | ⟨1, _⟩ => show win0_4.index t (1 : Fin 2) * 512 + 1 * o.val = o.val; omega

theorem blk5 (p : Fin 1024) (o : Fin 512) : iblk m c 5 t (ix2 p o) = (V m c main_v14 : S1024x512.Idx → EReal) (ix2 p o) := by
  obtain ⟨-, -, -, -, -, -, -, -, -, -, -, -, -, e0, e1, -⟩ := idx_facts t
  show V m c main_v14 (((cfg0.win 5).blk t).view.emb (ix2 p o)) = _
  refine congrArg _ (funext fun a => Fin.ext ?_)
  match a with
  | ⟨0, _⟩ => show win0_5.index t (0 : Fin 2) * 1024 + 1 * p.val = p.val; omega
  | ⟨1, _⟩ => show win0_5.index t (1 : Fin 2) * 512 + 1 * o.val = o.val; omega

theorem blk6 (u : Fin 1) (o : Fin 512) : iblk m c 6 t (ix2 u o) = (V m c main_v15 : S1x512.Idx → EReal) (ix2 u o) := by
  obtain ⟨-, -, -, -, -, -, -, -, -, -, -, -, -, -, -, e0, e1⟩ := idx_facts t
  show V m c main_v15 (((cfg0.win 6).blk t).view.emb (ix2 u o)) = _
  refine congrArg _ (funext fun a => Fin.ext ?_)
  match a with
  | ⟨0, _⟩ => show win0_6.index t (0 : Fin 2) * 1 + 1 * u.val = u.val; omega
  | ⟨1, _⟩ => show win0_6.index t (1 : Fin 2) * 512 + 1 * o.val = o.val; omega

end Reads

section Point
variable (c : Dev nD) (t : Fin cfg0.N)

/-- A padded row below 27 of the tile's sample r is the specification's row of sample 256 t + r. -/
theorem tp_eq (r : Fin 256) (b : Fin 16384) (hb : b.val = t.val * 256 + r.val) (i : Fin 32) (i' : Fin 27)
    (hi : i.val = i'.val) (e : Fin 128) :
    tp (iblk m c 0 t) (iblk m c 2 t) (iblk m c 3 t) (iblk m c 1 t) r i e
      = Spec.feat (m ((c : Thread nD τ).loc main_arg0)) (m ((c : Thread nD τ).loc main_arg1))
          (m ((c : Thread nD τ).loc main_arg2)) (m ((c : Thread nD τ).loc main_arg3)) b i' e := by
  obtain ⟨iv, hiv⟩ := i
  dsimp only at hi
  subst hi
  unfold tp Spec.feat Spec.proj
  by_cases h0 : i'.val = 0
  · rw [if_pos h0, dif_pos h0]
    refine congrArg₂ (· + ·) (Finset.sum_congr rfl fun d _ => ?_) ?_
    · rw [blk0 m c t r d b hb, blk2 m c t d e, V_v1_apply]
    · rw [blk3 m c t 0 e, V_v2_apply]
  · have h26 : i'.val ≤ 26 := by have := i'.isLt; omega
    rw [if_neg h0, dif_neg h0, dif_pos h26]
    exact blk1 m c t r ⟨i'.val - 1, by omega⟩ e b hb

/-- At row `pos k` the padded interaction matrix holds the inner product of rows triRow k and triCol k. -/
theorem zp_eq (r : Fin 256) (b : Fin 16384) (hb : b.val = t.val * 256 + r.val) (k : Fin 378) :
    zp (iblk m c 0 t) (iblk m c 2 t) (iblk m c 3 t) (iblk m c 1 t) r (pos k)
      = Spec.gram (m ((c : Thread nD τ).loc main_arg0)) (m ((c : Thread nD τ).loc main_arg1))
          (m ((c : Thread nD τ).loc main_arg2)) (m ((c : Thread nD τ).loc main_arg3)) b (triRow k) (triCol k) := by
  unfold zp Spec.gram
  refine Finset.sum_congr rfl fun e _ => ?_
  rw [tp_eq m c t r b hb _ (triRow k) (pos_div k) e, tp_eq m c t r b hb _ (triCol k) (pos_mod k) e]

/-- THE BODY'S STORED VALUE at tile row r, feature o, is the specification at sample 256 t + r. -/
theorem point_eq (r : Fin 256) (o : Fin 512) (b : Fin 16384) (hb : b.val = t.val * 256 + r.val) :
    out0_7 (iblk m c 0 t) (iblk m c 1 t) (iblk m c 2 t) (iblk m c 3 t) (iblk m c 4 t) (iblk m c 5 t) (iblk m c 6 t) (ix2 r o)
      = Spec.outAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) b o := by
  unfold out0_7
  rw [View.canon_unit_zero hz2]
  simp only [View.ld_unit_zero (S := S256x512) hz2, View.ld_unit_zero (S := S512x128) hz2, View.ld_unit_zero (S := S1x128) hz2,
    View.ld_unit_zero (S := S256x26x128) hz3, View.ld_unit_zero (S := S512x512) hz2, View.ld_unit_zero (S := S1024x512) hz2,
    View.ld_unit_zero (S := S1x512) hz2]
  refine (pay_apply (iblk m c 0 t) (iblk m c 2 t) (iblk m c 3 t) (iblk m c 1 t) (iblk m c 4 t) (iblk m c 5 t) (iblk m c 6 t) r o).trans ?_
  unfold Spec.outAt
  refine congrArg₂ (· + ·) (congrArg₂ (· + ·) (Finset.sum_congr rfl fun d _ => ?_) ?_) ?_
  · rw [blk0 m c t r d b hb, blk4 m c t d o, V_v6_apply]
  · have hW : ∀ p : Fin 1024, iblk m c 5 t (ix2 p o) = wprime (m ((c : Thread nD τ).loc main_arg4)) (ix2 p o) :=
      fun p => by rw [blk5 m c t p o, V_v14_eq]
    refine (Finset.sum_congr rfl fun p _ => by rw [hW p]).trans ?_
    refine (Cert.LibSupportSum.sum_mul_of_support pos pos_injective
      (fun p => zp (iblk m c 0 t) (iblk m c 2 t) (iblk m c 3 t) (iblk m c 1 t) r p)
      (fun p => wprime (m ((c : Thread nD τ).loc main_arg4)) (ix2 p o))
      (fun k => (m ((c : Thread nD τ).loc main_arg4) : S512x890.Idx → EReal) (ix2 o (⟨512 + k.val, by omega⟩ : Fin 890)))
      (fun k => wprime_hit _ k o) (fun p hp => wprime_miss _ p hp o)).trans ?_
    exact Finset.sum_congr rfl fun k _ => by rw [zp_eq m c t r b hb k]
  · rw [blk6 m c t 0 o, V_v15_apply]

end Point

/-! ## The output array -/

/-- The specification's result of the argument arrays as launched, on core c. -/
abbrev G (c : Dev nD) : S16384x512.Idx → EReal :=
  Spec.out (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))

/-- WHAT POINT t WRITES BACK is block t of the specification's result. -/
theorem flushed_eq (c : Dev nD) (t : Fin cfg0.N) :
    (dats m 0 c).flushed 7 t = ((cfg0.win 7).blk t).view.read (Elt Ideal) (G m c) := by
  rw [flushed7]
  obtain ⟨e0, e1, -⟩ := idx_facts t
  funext y
  obtain ⟨r, o, rfl⟩ : ∃ (r : Fin 256) (o : Fin 512), y = ix2 r o := ⟨y 0, y 1, eq_ix2 y⟩
  have ht : t.val < 64 := Nat.lt_of_lt_of_eq t.isLt N_0
  refine (point_eq m c t r o ⟨t.val * 256 + r.val, by have := r.isLt; omega⟩ rfl).trans ?_
  show _ = G m c (((cfg0.win 7).blk t).view.emb (ix2 r o))
  unfold G Spec.out
  refine congrArg₂ (Spec.outAt _ _ _ _ _ _) (Fin.ext ?_) (Fin.ext ?_)
  · show t.val * 256 + r.val = win0_7.index t (0 : Fin 2) * 256 + 1 * r.val; omega
  · show o.val = win0_7.index t (1 : Fin 2) * 512 + 1 * o.val; omega

/-- An index of the array is in point t's block iff each coordinate is in the block's range on its axis. -/
theorem mem_blk (t : Fin cfg0.N) (i : S16384x512.Idx) :
    i ∈ ((cfg0.win 7).blk t).view.set ↔ ∀ a : Fin 2, win0_7.index t a * S256x512.size a ≤ (i a).val ∧ (i a).val < win0_7.index t a * S256x512.size a + S256x512.size a := by
  show i ∈ ((View.whole main_v16).slice (win0_7.rect t)).set ↔ _
  rw [View.set_slice_whole, Rect.mem_set_unit]
  exact Iff.rfl

/-- The 64 tiles cover the output: row b is in tile b / 256. -/
theorem cover (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  have hN : cfg0.N = 64 := N_0
  let t : Fin cfg0.N := ⟨(i 0).val / 256, by rw [hN]; omega⟩
  obtain ⟨e0, e1, -⟩ := idx_facts t
  have e0' : win0_7.index t (0 : Fin 2) = (i 0).val / 256 := e0
  refine ⟨t, flush0_7 t, ?_⟩
  rw [mem_blk]
  intro a
  match a with
  | ⟨0, _⟩ => show win0_7.index t (0 : Fin 2) * 256 ≤ (i 0).val ∧ (i 0).val < win0_7.index t (0 : Fin 2) * 256 + 256; omega
  | ⟨1, _⟩ => show win0_7.index t (1 : Fin 2) * 512 ≤ (i 1).val ∧ (i 1).val < win0_7.index t (1 : Fin 2) * 512 + 512; omega

/-- THE OUTPUT ARRAY after the run is the specification's result. -/
theorem final (c : Dev nD) : (dats m 0 c).arrAt 7 cfg0.N = G m c :=
  (dats m 0 c).arrAt_eq_of_cover 7 (G m c) (fun t _ => flushed_eq m c t) cover

/-- The kernel's run: the result array at the specification's result, the arguments unchanged. -/
theorem run : θ_run defs (onTc (τ := τ) (main (F := Ideal))) ⟨m, fun _ => 0, ρ⟩ fun r => ∀ c : Dev nD,
      r.2.mem ((c : Thread nD τ).loc main_v16) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelArr

end
-- ==== Proof.RefTerm.lean ====
/-
  The reference program's result as pure functions of its argument arrays: its host operations composed in the
  order the program applies them, with the functions jax outlined (tril, cumsum, clip, floor_divide, remainder,
  where) written out at their calls. Two parts. The INTEGER part has no argument: it is jnp.tril_indices(27)
  computed as jnp.nonzero of a lower-triangular mask — the mask flattened to 729 entries, its running count, one
  scatter-add per entry into 378 bins (how many entries have a given count), the running count of the bins (the
  flat position of the (k+1)-th set entry), and that position split into a row (÷27 mod 27) and a column (mod 27).
  The FLOAT part projects the dense features, stacks them on the 26 sparse rows, takes all pairwise inner
  products per sample, gathers the 378 lower-triangle ones, appends them to the dense features and applies the
  last affine layer.
-/
import proofs.«147438_j49555332661502_2_alg».proof.ReferenceIdeal

noncomputable section

namespace Cert.RefTerm

open Idealize.ShloMosaic Cert.ReferenceIdeal

variable {F : FTy → Type} [FloatOps F] [Facts]
open Facts₀ Facts

/-- Ones on and below the diagonal of a 27 x 27 array, zeros above (`jnp.tril` of ones). -/
def trilOnes : FVec F S27x27 .f32 :=
  select (cmpi .sge (addi (iotaInDim S27x27 32 0) (broadcastInDim S27x27 ![] bcast_S_S27x27 (constantI S_ 32 0#32)))
      (iotaInDim S27x27 32 1))
    (broadcastInDim S27x27 ![] bcast_S_S27x27 (constant S_ .f32 0x3F800000#32))
    (broadcastInDim S27x27 ![] bcast_S_S27x27 (constant S_ .f32 0x00000000#32))

/-- Where that array is not zero. -/
def trilMask : IVec S27x27 1 :=
  cmpf .une (trilOnes (F := F)) (broadcastInDim S27x27 ![] bcast_S_S27x27 (constant S_ .f32 0x00000000#32))

/-- The running count of set entries along the flattened mask. -/
def maskCum : IVec S729 32 :=
  Host.reduceWindow IntOp.addi ![729] ![1] ![728] ![0]
    (extui 32 (shapeCast S729 (trilMask (F := F)) shapeCasts_S27x27_S729) natLt_1_32)
    (broadcastInDim S_ ![] bcast_S_S_ (constantI S_ 32 0#32)) reduceWindows_S729_S729_w729s1p728_0 h_S_

/-- The running count clipped below at zero. -/
def cumClip : IVec S729 32 :=
  maxsi (broadcastInDim S729 ![] bcast_S_S729 (id (constantI S_ 32 0#32))) (maskCum (F := F))

/-- The same as a bin number (a negative one would wrap by 378; none is). -/
def cumIdx : IVec S729 32 :=
  select (cmpi .slt (cumClip (F := F)) (broadcastInDim S729 ![] bcast_S_S729 (constantI S_ 32 0#32)))
    (addi (cumClip (F := F)) (broadcastInDim S729 ![] bcast_S_S729 (constantI S_ 32 378#32))) (cumClip (F := F))

/-- Bin `k` counts the flattened entries whose running count is `k`. -/
def counts : IVec S378 32 :=
  Host.scatter scatter_S378_S729x1_S729_n_0_0_1 IntOp.addi (broadcastInDim S378 ![] bcast_S_S378 (constantI S_ 32 0#32))
    (broadcastInDim S729x1 ![0] bcast_S729_S729x1_0 (cumIdx (F := F))) (broadcastInDim S729 ![] bcast_S_S729 (constantI S_ 32 1#32))

/-- The running count of the bins: the flat position of the (k+1)-th set entry. -/
def flatPos : IVec S378 32 :=
  Host.reduceWindow IntOp.addi ![378] ![1] ![377] ![0] (counts (F := F))
    (broadcastInDim S_ ![] bcast_S_S_ (constantI S_ 32 0#32)) reduceWindows_S378_S378_w378s1p377_0 h_S_

/-- `jnp.floor_divide` by a scalar: the truncated quotient, less one where the signs differ and the division is inexact. -/
def floorDiv (x : IVec S378 32) (c : IVec S_ 32) : IVec S378 32 :=
  select
    (andi (cmpi .ne (signi x) (broadcastInDim S378 ![] bcast_S_S378 (signi c)))
      (cmpi .ne (Host.remsi x (broadcastInDim S378 ![] bcast_S_S378 c)) (broadcastInDim S378 ![] bcast_S_S378 (constantI S_ 32 0#32))))
    (subi (Host.divsi x (broadcastInDim S378 ![] bcast_S_S378 c)) (broadcastInDim S378 ![] bcast_S_S378 (constantI S_ 32 1#32)))
    (Host.divsi x (broadcastInDim S378 ![] bcast_S_S378 c))

/-- The divisor `jnp.remainder` uses: `1` in place of `0`. -/
def safeDiv (c : IVec S_ 32) : IVec S_ 32 :=
  select (cmpi .eq (id c) (constantI S_ 32 0#32)) (constantI S_ 32 1#32) (id c)

/-- `jnp.remainder` by a scalar: the truncated remainder, plus the divisor where it is non-zero and its sign differs from the divisor's. -/
def remn (x : IVec S378 32) (c : IVec S_ 32) : IVec S378 32 :=
  select
    (andi
      (cmpi .ne (cmpi .slt (Host.remsi x (broadcastInDim S378 ![] bcast_S_S378 (safeDiv c))) (broadcastInDim S378 ![] bcast_S_S378 (constantI S_ 32 0#32)))
        (broadcastInDim S378 ![] bcast_S_S378 (cmpi .slt (safeDiv c) (constantI S_ 32 0#32))))
      (cmpi .ne (Host.remsi x (broadcastInDim S378 ![] bcast_S_S378 (safeDiv c))) (broadcastInDim S378 ![] bcast_S_S378 (constantI S_ 32 0#32))))
    (addi (Host.remsi x (broadcastInDim S378 ![] bcast_S_S378 (safeDiv c))) (broadcastInDim S378 ![] bcast_S_S378 (safeDiv c)))
    (Host.remsi x (broadcastInDim S378 ![] bcast_S_S378 (safeDiv c)))

/-- An index below zero counted from the end of an axis of extent 27. -/
def wrap27 (y : IVec S378 32) : IVec S378 32 :=
  select (cmpi .slt y (broadcastInDim S378 ![] bcast_S_S378 (constantI S_ 32 0#32)))
    (addi y (broadcastInDim S378 ![] bcast_S_S378 (constantI S_ 32 27#32))) y

/-- The rows of the lower triangle's entries, in row-major order. -/
def rowIdx : IVec S378 32 :=
  wrap27 (remn (floorDiv (flatPos (F := F)) (constantI S_ 32 27#32)) (constantI S_ 32 27#32))

/-- Their columns. -/
def colIdx : IVec S378 32 :=
  wrap27 (remn (floorDiv (flatPos (F := F)) (constantI S_ 32 1#32)) (constantI S_ 32 27#32))

/-- Row and column side by side: the gather's index array. -/
def idxPairs : IVec S378x2 32 :=
  concatenate S378x2 1 [⟨S378x1, broadcastInDim S378x1 ![0] bcast_S378_S378x1_0 (rowIdx (F := F))⟩,
    ⟨S378x1, broadcastInDim S378x1 ![0] bcast_S378_S378x1_0 (colIdx (F := F))⟩] concatenates_S378x1_S378x1_S378x2_d1

/-- The dense features projected to the embedding width: `x · Wpᵀ + bp`. -/
def proj (x : FVec F S16384x512 .f32) (Wp : FVec F S128x512 .f32) (bp : FVec F S128 .f32) : FVec F S16384x128 .f32 :=
  addf (Host.dotGeneral dot_S16384x512_S512x128_S16384x128_1_0_0_1_n_n none x (transpose S512x128 [1, 0] Wp transposes_S128x512_S512x128_1_0))
    (broadcastInDim S16384x128 ![0, 1] bcast_S1x128_S16384x128_0_1 (broadcastInDim S1x128 ![1] bcast_S128_S1x128_1 bp))

/-- The projected row on top of the 26 sparse rows. -/
def stack (x : FVec F S16384x512 .f32) (sp : FVec F S16384x26x128 .f32) (Wp : FVec F S128x512 .f32) (bp : FVec F S128 .f32) :
    FVec F S16384x27x128 .f32 :=
  concatenate S16384x27x128 1 [⟨S16384x1x128, broadcastInDim S16384x1x128 ![0, 2] bcast_S16384x128_S16384x1x128_0_2 (proj x Wp bp)⟩,
    ⟨S16384x26x128, sp⟩] concatenates_S16384x1x128_S16384x26x128_S16384x27x128_d1

/-- All pairwise inner products of a sample's 27 rows. -/
def gramAll (x : FVec F S16384x512 .f32) (sp : FVec F S16384x26x128 .f32) (Wp : FVec F S128x512 .f32) (bp : FVec F S128 .f32) :
    FVec F S16384x27x27 .f32 :=
  Host.dotGeneral dot_S16384x27x128_S16384x27x128_S16384x27x27_2_2_1_1_0_0 none (stack x sp Wp bp) (stack x sp Wp bp)

/-- The reference's result. -/
def out (x : FVec F S16384x512 .f32) (sp : FVec F S16384x26x128 .f32) (Wp : FVec F S128x512 .f32) (bp : FVec F S128 .f32)
    (Wo : FVec F S512x890 .f32) (bo : FVec F S512 .f32) : FVec F S16384x512 .f32 :=
  addf
    (Host.dotGeneral dot_S16384x890_S890x512_S16384x512_1_0_0_1_n_n none
      (concatenate S16384x890 1 [⟨S16384x512, x⟩,
        ⟨S16384x378, Host.gather gather_S16384x27x27_S378x2_S16384x378_0_12_n_n_12_1_1638411 (gramAll x sp Wp bp) (idxPairs (F := F))⟩]
        concatenates_S16384x512_S16384x378_S16384x890_d1)
      (transpose S890x512 [1, 0] Wo transposes_S512x890_S890x512_1_0))
    (broadcastInDim S16384x512 ![0, 1] bcast_S1x512_S16384x512_0_1 (broadcastInDim S1x512 ![1] bcast_S512_S1x512_1 bo))

end Cert.RefTerm

end
-- ==== Proof.RefRun.lean ====
/-
  The run of the reference program. Its @main is a straight line of host operations once the functions it
  calls (tril, cumsum, clip, floor_divide, remainder, where) are unfolded at their calls, each callee's
  operations over the buffers of that call: `ops` lists them in program order. Every weakly fair execution
  then terminates with each buffer at the operations' fold over the launch contents (`run_main`); at the
  result buffer that fold is the composed term `Cert.RefTerm.out` of the six arguments' contents, and at each
  argument buffer it is what was there (`run`).
-/
import proofs.«147438_j49555332661502_2_alg».proof.ReferenceIdeal
import proofs.«147438_j49555332661502_2_alg».proof.Proof.Gen.ReferenceIdeal
import proofs.«147438_j49555332661502_2_alg».proof.Proof.RefTerm
import Idealize.ShloMosaic.Lib.StableHlo.Run
import Idealize.ShloMosaic.PureOps.Ideal

noncomputable section

namespace Cert.RefRun

open Cert.ReferenceIdeal Idealize.ShloMosaic Idealize.ShloMosaic.TcCoe Idealize.SL.Sem Idealize.ShloMosaic.StableHlo
open Facts₀ Facts

variable {F : FTy → Type} [FloatOps F]

/-- @main's 149 operations in order, each call replaced by its callee's operations over that call's buffers. -/
abbrev ops : List (HloOp τ sig (Elt F)) :=
  [ StableHlo.unary main_arg2 main_v0 ((transpose S512x128 [1, 0] · transposes_S128x512_S512x128_1_0) : (⟨S128x512, .f32⟩ : BufTy).Contents (Elt F) → (⟨S512x128, .f32⟩ : BufTy).Contents (Elt F)),
    StableHlo.binary main_arg0 main_v0 main_v1 ((fun l r => Host.dotGeneral dot_S16384x512_S512x128_S16384x128_1_0_0_1_n_n none l r) : (⟨S16384x512, .f32⟩ : BufTy).Contents (Elt F) → (⟨S512x128, .f32⟩ : BufTy).Contents (Elt F) → (⟨S16384x128, .f32⟩ : BufTy).Contents (Elt F)),
    StableHlo.unary main_arg3 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S16384x128 ![0, 1] bcast_S1x128_S16384x128_0_1 : (⟨S1x128, .f32⟩ : BufTy).Contents (Elt F) → (⟨S16384x128, .f32⟩ : BufTy).Contents (Elt F)),
    StableHlo.binary main_v1 main_v3 main_v4 (addf : (⟨S16384x128, .f32⟩ : BufTy).Contents (Elt F) → (⟨S16384x128, .f32⟩ : BufTy).Contents (Elt F) → (⟨S16384x128, .f32⟩ : BufTy).Contents (Elt F)),
    StableHlo.unary main_v4 main_v5 (broadcastInDim S16384x1x128 ![0, 2] bcast_S16384x128_S16384x1x128_0_2 : (⟨S16384x128, .f32⟩ : BufTy).Contents (Elt F) → (⟨S16384x1x128, .f32⟩ : BufTy).Contents (Elt F)),
    StableHlo.binary main_v5 main_arg1 main_v6 ((fun a b => concatenate S16384x27x128 1 [⟨S16384x1x128, a⟩, ⟨S16384x26x128, b⟩] concatenates_S16384x1x128_S16384x26x128_S16384x27x128_d1) : (⟨S16384x1x128, .f32⟩ : BufTy).Contents (Elt F) → (⟨S16384x26x128, .f32⟩ : BufTy).Contents (Elt F) → (⟨S16384x27x128, .f32⟩ : BufTy).Contents (Elt F)),
    StableHlo.binary main_v6 main_v6 main_v7 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)),
    StableHlo.nullary main_cst (constant S_ .f32 0x3F800000#32),
    StableHlo.unary main_cst main_v8 (broadcastInDim S27x27 ![] bcast_S_S27x27 : (⟨S_, .f32⟩ : BufTy).Contents (Elt F) → (⟨S27x27, .f32⟩ : BufTy).Contents (Elt F)),
    StableHlo.TRef.nullary main_call0.v0 (iotaInDim S27x27 32 0),
    StableHlo.TRef.nullary main_call0.c (constantI S_ 32 0#32),
    StableHlo.TRef.unary main_call0.c main_call0.v1 (broadcastInDim S27x27 ![] bcast_S_S27x27),
    StableHlo.TRef.binary main_call0.v0 main_call0.v1 main_call0.v2 addi,
    StableHlo.TRef.nullary main_call0.v3 (iotaInDim S27x27 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S27x27 ![] bcast_S_S27x27),
    StableHlo.TRef.ternary main_call0.v4 (.of main_v8 : StableHlo.TRef sig ⟨S27x27, .f32⟩) main_call0.v5 main_call0.v6 select,
    StableHlo.nullary main_cst_0 (constant S_ .f32 0x00000000#32),
    StableHlo.unary main_cst_0 main_v10 (broadcastInDim S27x27 ![] bcast_S_S27x27 : (⟨S_, .f32⟩ : BufTy).Contents (Elt F) → (⟨S27x27, .f32⟩ : BufTy).Contents (Elt F)),
    StableHlo.binary main_v9 main_v10 main_v11 (cmpf .une : (⟨S27x27, .f32⟩ : BufTy).Contents (Elt F) → (⟨S27x27, .f32⟩ : BufTy).Contents (Elt F) → (⟨S27x27, .i1⟩ : BufTy).Contents (Elt F)),
    StableHlo.TRef.reshape (.of main_v11 : StableHlo.TRef sig ⟨S27x27, .i1⟩) main_call1.v0 rfl shapeCasts_S27x27_S729,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![729] ![1] ![728] ![0] x v reduceWindows_S729_S729_w729s1p728_0 h_S_),
    StableHlo.nullary main_c (constantI S_ 32 0#32),
    StableHlo.unary main_c main_v13 (broadcastInDim S378 ![] bcast_S_S378 : (⟨S_, .i32⟩ : BufTy).Contents (Elt F) → (⟨S378, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S729 ![] bcast_S_S729),
    StableHlo.TRef.binary main_call2.v1 (.of main_v12 : StableHlo.TRef sig ⟨S729, .i32⟩) main_call2.v2 maxsi,
    StableHlo.nullary main_c_2 (constantI S_ 32 0#32),
    StableHlo.unary main_c_2 main_v15 (broadcastInDim S729 ![] bcast_S_S729 : (⟨S_, .i32⟩ : BufTy).Contents (Elt F) → (⟨S729, .i32⟩ : BufTy).Contents (Elt F)),
    StableHlo.binary main_v14 main_v15 main_v16 (cmpi .slt : (⟨S729, .i32⟩ : BufTy).Contents (Elt F) → (⟨S729, .i32⟩ : BufTy).Contents (Elt F) → (⟨S729, .i1⟩ : BufTy).Contents (Elt F)),
    StableHlo.nullary main_c_3 (constantI S_ 32 378#32),
    StableHlo.unary main_c_3 main_v17 (broadcastInDim S729 ![] bcast_S_S729 : (⟨S_, .i32⟩ : BufTy).Contents (Elt F) → (⟨S729, .i32⟩ : BufTy).Contents (Elt F)),
    StableHlo.binary main_v14 main_v17 main_v18 (addi : (⟨S729, .i32⟩ : BufTy).Contents (Elt F) → (⟨S729, .i32⟩ : BufTy).Contents (Elt F) → (⟨S729, .i32⟩ : BufTy).Contents (Elt F)),
    StableHlo.ternary main_v16 main_v18 main_v14 main_v19 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    StableHlo.unary main_v19 main_v20 (broadcastInDim S729x1 ![0] bcast_S729_S729x1_0 : (⟨S729, .i32⟩ : BufTy).Contents (Elt F) → (⟨S729x1, .i32⟩ : BufTy).Contents (Elt F)),
    StableHlo.nullary main_c_4 (constantI S_ 32 1#32),
    StableHlo.unary main_c_4 main_v21 (broadcastInDim S729 ![] bcast_S_S729 : (⟨S_, .i32⟩ : BufTy).Contents (Elt F) → (⟨S729, .i32⟩ : BufTy).Contents (Elt F)),
    StableHlo.ternary main_v13 main_v20 main_v21 main_v22 ((fun x i u => Host.scatter scatter_S378_S729x1_S729_n_0_0_1 IntOp.addi x i u) : (⟨S378, .i32⟩ : BufTy).Contents (Elt F) → (⟨S729x1, .i32⟩ : BufTy).Contents (Elt F) → (⟨S729, .i32⟩ : BufTy).Contents (Elt F) → (⟨S378, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v22 : StableHlo.TRef sig ⟨S378, .i32⟩) main_call3.call0.v0 main_call3.call0.v1 (fun x v => Host.reduceWindow IntOp.addi ![378] ![1] ![377] ![0] x v reduceWindows_S378_S378_w378s1p377_0 h_S_),
    StableHlo.nullary main_c_5 (constantI S_ 32 27#32),
    StableHlo.TRef.unary (.of main_c_5 : StableHlo.TRef sig ⟨S_, .i32⟩) main_call4.v0 (broadcastInDim S378 ![] bcast_S_S378),
    StableHlo.TRef.binary (.of main_v23 : StableHlo.TRef sig ⟨S378, .i32⟩) main_call4.v0 main_call4.v1 Host.divsi,
    StableHlo.TRef.unary (.of main_v23 : StableHlo.TRef sig ⟨S378, .i32⟩) main_call4.v2 signi,
    StableHlo.TRef.unary (.of main_c_5 : StableHlo.TRef sig ⟨S_, .i32⟩) main_call4.v3 signi,
    StableHlo.TRef.unary main_call4.v3 main_call4.v4 (broadcastInDim S378 ![] bcast_S_S378),
    StableHlo.TRef.binary main_call4.v2 main_call4.v4 main_call4.v5 (cmpi .ne),
    StableHlo.TRef.unary (.of main_c_5 : StableHlo.TRef sig ⟨S_, .i32⟩) main_call4.v6 (broadcastInDim S378 ![] bcast_S_S378),
    StableHlo.TRef.binary (.of main_v23 : StableHlo.TRef sig ⟨S378, .i32⟩) main_call4.v6 main_call4.v7 Host.remsi,
    StableHlo.TRef.nullary main_call4.c (constantI S_ 32 0#32),
    StableHlo.TRef.unary main_call4.c main_call4.v8 (broadcastInDim S378 ![] bcast_S_S378),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S378 ![] bcast_S_S378),
    StableHlo.TRef.binary main_call4.v1 main_call4.v11 main_call4.v12 subi,
    StableHlo.TRef.ternary main_call4.v10 main_call4.v12 main_call4.v1 main_call4.call0.v0 select,
    StableHlo.nullary main_c_6 (constantI S_ 32 27#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S378 ![] bcast_S_S378),
    StableHlo.TRef.binary (.of main_v24 : StableHlo.TRef sig ⟨S378, .i32⟩) main_call5.v3 main_call5.v4 Host.remsi,
    StableHlo.TRef.nullary main_call5.c_1 (constantI S_ 32 0#32),
    StableHlo.TRef.unary main_call5.c_1 main_call5.v5 (broadcastInDim S378 ![] bcast_S_S378),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S378 ![] bcast_S_S378),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S378 ![] bcast_S_S378),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S378 ![] bcast_S_S378),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S378 ![] bcast_S_S378),
    StableHlo.TRef.binary (.of main_v23 : StableHlo.TRef sig ⟨S378, .i32⟩) main_call6.v0 main_call6.v1 Host.divsi,
    StableHlo.TRef.unary (.of main_v23 : StableHlo.TRef sig ⟨S378, .i32⟩) main_call6.v2 signi,
    StableHlo.TRef.unary (.of main_c_7 : StableHlo.TRef sig ⟨S_, .i32⟩) main_call6.v3 signi,
    StableHlo.TRef.unary main_call6.v3 main_call6.v4 (broadcastInDim S378 ![] bcast_S_S378),
    StableHlo.TRef.binary main_call6.v2 main_call6.v4 main_call6.v5 (cmpi .ne),
    StableHlo.TRef.unary (.of main_c_7 : StableHlo.TRef sig ⟨S_, .i32⟩) main_call6.v6 (broadcastInDim S378 ![] bcast_S_S378),
    StableHlo.TRef.binary (.of main_v23 : StableHlo.TRef sig ⟨S378, .i32⟩) main_call6.v6 main_call6.v7 Host.remsi,
    StableHlo.TRef.nullary main_call6.c (constantI S_ 32 0#32),
    StableHlo.TRef.unary main_call6.c main_call6.v8 (broadcastInDim S378 ![] bcast_S_S378),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S378 ![] bcast_S_S378),
    StableHlo.TRef.binary main_call6.v1 main_call6.v11 main_call6.v12 subi,
    StableHlo.TRef.ternary main_call6.v10 main_call6.v12 main_call6.v1 main_call6.call0.v0 select,
    StableHlo.nullary main_c_8 (constantI S_ 32 27#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S378 ![] bcast_S_S378),
    StableHlo.TRef.binary (.of main_v26 : StableHlo.TRef sig ⟨S378, .i32⟩) main_call7.v3 main_call7.v4 Host.remsi,
    StableHlo.TRef.nullary main_call7.c_1 (constantI S_ 32 0#32),
    StableHlo.TRef.unary main_call7.c_1 main_call7.v5 (broadcastInDim S378 ![] bcast_S_S378),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S378 ![] bcast_S_S378),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S378 ![] bcast_S_S378),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S378 ![] bcast_S_S378),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v28 (broadcastInDim S378 ![] bcast_S_S378 : (⟨S_, .i32⟩ : BufTy).Contents (Elt F) → (⟨S378, .i32⟩ : BufTy).Contents (Elt F)),
    StableHlo.binary main_v25 main_v28 main_v29 (cmpi .slt : (⟨S378, .i32⟩ : BufTy).Contents (Elt F) → (⟨S378, .i32⟩ : BufTy).Contents (Elt F) → (⟨S378, .i1⟩ : BufTy).Contents (Elt F)),
    StableHlo.nullary main_c_10 (constantI S_ 32 27#32),
    StableHlo.unary main_c_10 main_v30 (broadcastInDim S378 ![] bcast_S_S378 : (⟨S_, .i32⟩ : BufTy).Contents (Elt F) → (⟨S378, .i32⟩ : BufTy).Contents (Elt F)),
    StableHlo.binary main_v25 main_v30 main_v31 (addi : (⟨S378, .i32⟩ : BufTy).Contents (Elt F) → (⟨S378, .i32⟩ : BufTy).Contents (Elt F) → (⟨S378, .i32⟩ : BufTy).Contents (Elt F)),
    StableHlo.ternary main_v29 main_v31 main_v25 main_v32 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    StableHlo.nullary main_c_11 (constantI S_ 32 0#32),
    StableHlo.unary main_c_11 main_v33 (broadcastInDim S378 ![] bcast_S_S378 : (⟨S_, .i32⟩ : BufTy).Contents (Elt F) → (⟨S378, .i32⟩ : BufTy).Contents (Elt F)),
    StableHlo.binary main_v27 main_v33 main_v34 (cmpi .slt : (⟨S378, .i32⟩ : BufTy).Contents (Elt F) → (⟨S378, .i32⟩ : BufTy).Contents (Elt F) → (⟨S378, .i1⟩ : BufTy).Contents (Elt F)),
    StableHlo.nullary main_c_12 (constantI S_ 32 27#32),
    StableHlo.unary main_c_12 main_v35 (broadcastInDim S378 ![] bcast_S_S378 : (⟨S_, .i32⟩ : BufTy).Contents (Elt F) → (⟨S378, .i32⟩ : BufTy).Contents (Elt F)),
    StableHlo.binary main_v27 main_v35 main_v36 (addi : (⟨S378, .i32⟩ : BufTy).Contents (Elt F) → (⟨S378, .i32⟩ : BufTy).Contents (Elt F) → (⟨S378, .i32⟩ : BufTy).Contents (Elt F)),
    StableHlo.ternary main_v34 main_v36 main_v27 main_v37 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    StableHlo.unary main_v32 main_v38 (broadcastInDim S378x1 ![0] bcast_S378_S378x1_0 : (⟨S378, .i32⟩ : BufTy).Contents (Elt F) → (⟨S378x1, .i32⟩ : BufTy).Contents (Elt F)),
    StableHlo.unary main_v37 main_v39 (broadcastInDim S378x1 ![0] bcast_S378_S378x1_0 : (⟨S378, .i32⟩ : BufTy).Contents (Elt F) → (⟨S378x1, .i32⟩ : BufTy).Contents (Elt F)),
    StableHlo.binary main_v38 main_v39 main_v40 ((fun a b => concatenate S378x2 1 [⟨S378x1, a⟩, ⟨S378x1, b⟩] concatenates_S378x1_S378x1_S378x2_d1) : (⟨S378x1, .i32⟩ : BufTy).Contents (Elt F) → (⟨S378x1, .i32⟩ : BufTy).Contents (Elt F) → (⟨S378x2, .i32⟩ : BufTy).Contents (Elt F)),
    StableHlo.binary main_v7 main_v40 main_v41 ((fun x i => Host.gather gather_S16384x27x27_S378x2_S16384x378_0_12_n_n_12_1_1638411 x i) : (⟨S16384x27x27, .f32⟩ : BufTy).Contents (Elt F) → (⟨S378x2, .i32⟩ : BufTy).Contents (Elt F) → (⟨S16384x378, .f32⟩ : BufTy).Contents (Elt F)),
    StableHlo.binary main_arg0 main_v41 main_v42 ((fun a b => concatenate S16384x890 1 [⟨S16384x512, a⟩, ⟨S16384x378, b⟩] concatenates_S16384x512_S16384x378_S16384x890_d1) : (⟨S16384x512, .f32⟩ : BufTy).Contents (Elt F) → (⟨S16384x378, .f32⟩ : BufTy).Contents (Elt F) → (⟨S16384x890, .f32⟩ : BufTy).Contents (Elt F)),
    StableHlo.unary main_arg4 main_v43 ((transpose S890x512 [1, 0] · transposes_S512x890_S890x512_1_0) : (⟨S512x890, .f32⟩ : BufTy).Contents (Elt F) → (⟨S890x512, .f32⟩ : BufTy).Contents (Elt F)),
    StableHlo.binary main_v42 main_v43 main_v44 ((fun l r => Host.dotGeneral dot_S16384x890_S890x512_S16384x512_1_0_0_1_n_n none l r) : (⟨S16384x890, .f32⟩ : BufTy).Contents (Elt F) → (⟨S890x512, .f32⟩ : BufTy).Contents (Elt F) → (⟨S16384x512, .f32⟩ : BufTy).Contents (Elt F)),
    StableHlo.unary main_arg5 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S16384x512 ![0, 1] bcast_S1x512_S16384x512_0_1 : (⟨S1x512, .f32⟩ : BufTy).Contents (Elt F) → (⟨S16384x512, .f32⟩ : BufTy).Contents (Elt F)),
    StableHlo.binary main_v44 main_v46 main_v47 (addf : (⟨S16384x512, .f32⟩ : BufTy).Contents (Elt F) → (⟨S16384x512, .f32⟩ : BufTy).Contents (Elt F) → (⟨S16384x512, .f32⟩ : BufTy).Contents (Elt F)) ]

-- one bind per operation is re-associated: the rewrite recurses once per statement
set_option maxRecDepth 16384 in
set_option maxHeartbeats 4000000 in
/-- @main is that straight line: its two windows and the called functions' bodies unfolded, both sides are one
    chain of `hlo` steps once sequencing is re-associated. -/
theorem main_eq (c : Dev nD) : main (F := F) c = seq ops := by
  simp only [main, main_part0, main_part1, fn_tril.body, fn_cumsum.body, fn_cumsum_0.body, fn_clip.body, fn_cumsum_1.body,
    fn_cumsum_2.body, fn_floor_divide.body, fn_where.body, fn_remainder.body, fn_where_3.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., binary_bufs_sub .., unary_bufs_sub .., unary_bufs_sub .., binary_bufs_sub .., unary_bufs_sub ..,
    binary_bufs_sub .., binary_bufs_sub .., nullary_bufs_sub .., unary_bufs_sub .., nullary_bufs_sub .., nullary_bufs_sub ..,
    unary_bufs_sub .., binary_bufs_sub .., nullary_bufs_sub .., binary_bufs_sub .., nullary_bufs_sub .., unary_bufs_sub ..,
    ternary_bufs_sub .., nullary_bufs_sub .., unary_bufs_sub .., binary_bufs_sub .., reshape_bufs_sub .., unary_bufs_sub ..,
    nullary_bufs_sub .., unary_bufs_sub .., binary_bufs_sub .., nullary_bufs_sub .., unary_bufs_sub .., nullary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., nullary_bufs_sub ..,
    unary_bufs_sub .., ternary_bufs_sub .., nullary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    nullary_bufs_sub .., binary_bufs_sub .., nullary_bufs_sub .., ternary_bufs_sub .., unary_bufs_sub .., binary_bufs_sub ..,
    nullary_bufs_sub .., unary_bufs_sub .., binary_bufs_sub .., nullary_bufs_sub .., unary_bufs_sub .., binary_bufs_sub ..,
    nullary_bufs_sub .., binary_bufs_sub .., unary_bufs_sub .., binary_bufs_sub .., binary_bufs_sub .., unary_bufs_sub ..,
    binary_bufs_sub .., ternary_bufs_sub .., nullary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., nullary_bufs_sub .., unary_bufs_sub .., nullary_bufs_sub .., binary_bufs_sub .., nullary_bufs_sub ..,
    ternary_bufs_sub .., unary_bufs_sub .., binary_bufs_sub .., nullary_bufs_sub .., unary_bufs_sub .., binary_bufs_sub ..,
    nullary_bufs_sub .., unary_bufs_sub .., binary_bufs_sub .., nullary_bufs_sub .., binary_bufs_sub .., unary_bufs_sub ..,
    binary_bufs_sub .., binary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., binary_bufs_sub .., binary_bufs_sub .., binary_bufs_sub ..,
    unary_bufs_sub .., binary_bufs_sub .., unary_bufs_sub .., unary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result, stage by stage

The operations in consecutive stretches; what each leaves at the buffer the next ones read is stated over ANY contents
before it, so each statement is about a short list, and the stretches compose by `after_append`. -/

/-- The projection of the dense features, the stacked rows and their pairwise inner products. -/
abbrev segA : List (HloOp τ sig (Elt F)) :=
  [ StableHlo.unary main_arg2 main_v0 ((transpose S512x128 [1, 0] · transposes_S128x512_S512x128_1_0) : (⟨S128x512, .f32⟩ : BufTy).Contents (Elt F) → (⟨S512x128, .f32⟩ : BufTy).Contents (Elt F)),
    StableHlo.binary main_arg0 main_v0 main_v1 ((fun l r => Host.dotGeneral dot_S16384x512_S512x128_S16384x128_1_0_0_1_n_n none l r) : (⟨S16384x512, .f32⟩ : BufTy).Contents (Elt F) → (⟨S512x128, .f32⟩ : BufTy).Contents (Elt F) → (⟨S16384x128, .f32⟩ : BufTy).Contents (Elt F)),
    StableHlo.unary main_arg3 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S16384x128 ![0, 1] bcast_S1x128_S16384x128_0_1 : (⟨S1x128, .f32⟩ : BufTy).Contents (Elt F) → (⟨S16384x128, .f32⟩ : BufTy).Contents (Elt F)),
    StableHlo.binary main_v1 main_v3 main_v4 (addf : (⟨S16384x128, .f32⟩ : BufTy).Contents (Elt F) → (⟨S16384x128, .f32⟩ : BufTy).Contents (Elt F) → (⟨S16384x128, .f32⟩ : BufTy).Contents (Elt F)),
    StableHlo.unary main_v4 main_v5 (broadcastInDim S16384x1x128 ![0, 2] bcast_S16384x128_S16384x1x128_0_2 : (⟨S16384x128, .f32⟩ : BufTy).Contents (Elt F) → (⟨S16384x1x128, .f32⟩ : BufTy).Contents (Elt F)),
    StableHlo.binary main_v5 main_arg1 main_v6 ((fun a b => concatenate S16384x27x128 1 [⟨S16384x1x128, a⟩, ⟨S16384x26x128, b⟩] concatenates_S16384x1x128_S16384x26x128_S16384x27x128_d1) : (⟨S16384x1x128, .f32⟩ : BufTy).Contents (Elt F) → (⟨S16384x26x128, .f32⟩ : BufTy).Contents (Elt F) → (⟨S16384x27x128, .f32⟩ : BufTy).Contents (Elt F)),
    StableHlo.binary main_v6 main_v6 main_v7 ((fun l r => Host.dotGeneral dot_S16384x27x128_S16384x27x128_S16384x27x27_2_2_1_1_0_0 none l r) : (⟨S16384x27x128, .f32⟩ : BufTy).Contents (Elt F) → (⟨S16384x27x128, .f32⟩ : BufTy).Contents (Elt F) → (⟨S16384x27x27, .f32⟩ : BufTy).Contents (Elt F)) ]

/-- The lower-triangular mask. -/
abbrev segM1 : List (HloOp τ sig (Elt F)) :=
  [ StableHlo.nullary main_cst (constant S_ .f32 0x3F800000#32),
    StableHlo.unary main_cst main_v8 (broadcastInDim S27x27 ![] bcast_S_S27x27 : (⟨S_, .f32⟩ : BufTy).Contents (Elt F) → (⟨S27x27, .f32⟩ : BufTy).Contents (Elt F)),
    StableHlo.TRef.nullary main_call0.v0 (iotaInDim S27x27 32 0),
    StableHlo.TRef.nullary main_call0.c (constantI S_ 32 0#32),
    StableHlo.TRef.unary main_call0.c main_call0.v1 (broadcastInDim S27x27 ![] bcast_S_S27x27),
    StableHlo.TRef.binary main_call0.v0 main_call0.v1 main_call0.v2 addi,
    StableHlo.TRef.nullary main_call0.v3 (iotaInDim S27x27 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S27x27 ![] bcast_S_S27x27),
    StableHlo.TRef.ternary main_call0.v4 (.of main_v8 : StableHlo.TRef sig ⟨S27x27, .f32⟩) main_call0.v5 main_call0.v6 select,
    StableHlo.nullary main_cst_0 (constant S_ .f32 0x00000000#32),
    StableHlo.unary main_cst_0 main_v10 (broadcastInDim S27x27 ![] bcast_S_S27x27 : (⟨S_, .f32⟩ : BufTy).Contents (Elt F) → (⟨S27x27, .f32⟩ : BufTy).Contents (Elt F)),
    StableHlo.binary main_v9 main_v10 main_v11 (cmpf .une : (⟨S27x27, .f32⟩ : BufTy).Contents (Elt F) → (⟨S27x27, .f32⟩ : BufTy).Contents (Elt F) → (⟨S27x27, .i1⟩ : BufTy).Contents (Elt F)) ]

/-- Its running count along the flattened mask. -/
abbrev segM2 : List (HloOp τ sig (Elt F)) :=
  [ StableHlo.TRef.reshape (.of main_v11 : StableHlo.TRef sig ⟨S27x27, .i1⟩) main_call1.v0 rfl shapeCasts_S27x27_S729,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![729] ![1] ![728] ![0] x v reduceWindows_S729_S729_w729s1p728_0 h_S_) ]

/-- The count clipped, made a bin number, and one scatter-add per entry into the bins. -/
abbrev segM3 : List (HloOp τ sig (Elt F)) :=
  [ StableHlo.nullary main_c (constantI S_ 32 0#32),
    StableHlo.unary main_c main_v13 (broadcastInDim S378 ![] bcast_S_S378 : (⟨S_, .i32⟩ : BufTy).Contents (Elt F) → (⟨S378, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S729 ![] bcast_S_S729),
    StableHlo.TRef.binary main_call2.v1 (.of main_v12 : StableHlo.TRef sig ⟨S729, .i32⟩) main_call2.v2 maxsi,
    StableHlo.nullary main_c_2 (constantI S_ 32 0#32),
    StableHlo.unary main_c_2 main_v15 (broadcastInDim S729 ![] bcast_S_S729 : (⟨S_, .i32⟩ : BufTy).Contents (Elt F) → (⟨S729, .i32⟩ : BufTy).Contents (Elt F)),
    StableHlo.binary main_v14 main_v15 main_v16 (cmpi .slt : (⟨S729, .i32⟩ : BufTy).Contents (Elt F) → (⟨S729, .i32⟩ : BufTy).Contents (Elt F) → (⟨S729, .i1⟩ : BufTy).Contents (Elt F)),
    StableHlo.nullary main_c_3 (constantI S_ 32 378#32),
    StableHlo.unary main_c_3 main_v17 (broadcastInDim S729 ![] bcast_S_S729 : (⟨S_, .i32⟩ : BufTy).Contents (Elt F) → (⟨S729, .i32⟩ : BufTy).Contents (Elt F)),
    StableHlo.binary main_v14 main_v17 main_v18 (addi : (⟨S729, .i32⟩ : BufTy).Contents (Elt F) → (⟨S729, .i32⟩ : BufTy).Contents (Elt F) → (⟨S729, .i32⟩ : BufTy).Contents (Elt F)),
    StableHlo.ternary main_v16 main_v18 main_v14 main_v19 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    StableHlo.unary main_v19 main_v20 (broadcastInDim S729x1 ![0] bcast_S729_S729x1_0 : (⟨S729, .i32⟩ : BufTy).Contents (Elt F) → (⟨S729x1, .i32⟩ : BufTy).Contents (Elt F)),
    StableHlo.nullary main_c_4 (constantI S_ 32 1#32),
    StableHlo.unary main_c_4 main_v21 (broadcastInDim S729 ![] bcast_S_S729 : (⟨S_, .i32⟩ : BufTy).Contents (Elt F) → (⟨S729, .i32⟩ : BufTy).Contents (Elt F)),
    StableHlo.ternary main_v13 main_v20 main_v21 main_v22 ((fun x i u => Host.scatter scatter_S378_S729x1_S729_n_0_0_1 IntOp.addi x i u) : (⟨S378, .i32⟩ : BufTy).Contents (Elt F) → (⟨S729x1, .i32⟩ : BufTy).Contents (Elt F) → (⟨S729, .i32⟩ : BufTy).Contents (Elt F) → (⟨S378, .i32⟩ : BufTy).Contents (Elt F)) ]

/-- The running count of the bins. -/
abbrev segM4 : List (HloOp τ sig (Elt F)) :=
  [ StableHlo.TRef.nullary main_call3.call0.c (constantI S_ 32 0#32),
    StableHlo.TRef.unary main_call3.call0.c main_call3.call0.v0 (broadcastInDim S_ ![] bcast_S_S_),
    StableHlo.TRef.binary (.of main_v22 : StableHlo.TRef sig ⟨S378, .i32⟩) main_call3.call0.v0 main_call3.call0.v1 (fun x v => Host.reduceWindow IntOp.addi ![378] ![1] ![377] ![0] x v reduceWindows_S378_S378_w378s1p377_0 h_S_) ]

/-- The flat positions floor-divided by 27. -/
abbrev segM5 : List (HloOp τ sig (Elt F)) :=
  [ StableHlo.nullary main_c_5 (constantI S_ 32 27#32),
    StableHlo.TRef.unary (.of main_c_5 : StableHlo.TRef sig ⟨S_, .i32⟩) main_call4.v0 (broadcastInDim S378 ![] bcast_S_S378),
    StableHlo.TRef.binary (.of main_v23 : StableHlo.TRef sig ⟨S378, .i32⟩) main_call4.v0 main_call4.v1 Host.divsi,
    StableHlo.TRef.unary (.of main_v23 : StableHlo.TRef sig ⟨S378, .i32⟩) main_call4.v2 signi,
    StableHlo.TRef.unary (.of main_c_5 : StableHlo.TRef sig ⟨S_, .i32⟩) main_call4.v3 signi,
    StableHlo.TRef.unary main_call4.v3 main_call4.v4 (broadcastInDim S378 ![] bcast_S_S378),
    StableHlo.TRef.binary main_call4.v2 main_call4.v4 main_call4.v5 (cmpi .ne),
    StableHlo.TRef.unary (.of main_c_5 : StableHlo.TRef sig ⟨S_, .i32⟩) main_call4.v6 (broadcastInDim S378 ![] bcast_S_S378),
    StableHlo.TRef.binary (.of main_v23 : StableHlo.TRef sig ⟨S378, .i32⟩) main_call4.v6 main_call4.v7 Host.remsi,
    StableHlo.TRef.nullary main_call4.c (constantI S_ 32 0#32),
    StableHlo.TRef.unary main_call4.c main_call4.v8 (broadcastInDim S378 ![] bcast_S_S378),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S378 ![] bcast_S_S378),
    StableHlo.TRef.binary main_call4.v1 main_call4.v11 main_call4.v12 subi,
    StableHlo.TRef.ternary main_call4.v10 main_call4.v12 main_call4.v1 main_call4.call0.v0 select ]

/-- That quotient's remainder by 27. -/
abbrev segM6 : List (HloOp τ sig (Elt F)) :=
  [ StableHlo.nullary main_c_6 (constantI S_ 32 27#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S378 ![] bcast_S_S378),
    StableHlo.TRef.binary (.of main_v24 : StableHlo.TRef sig ⟨S378, .i32⟩) main_call5.v3 main_call5.v4 Host.remsi,
    StableHlo.TRef.nullary main_call5.c_1 (constantI S_ 32 0#32),
    StableHlo.TRef.unary main_call5.c_1 main_call5.v5 (broadcastInDim S378 ![] bcast_S_S378),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S378 ![] bcast_S_S378),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S378 ![] bcast_S_S378),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S378 ![] bcast_S_S378),
    StableHlo.TRef.binary main_call5.v4 main_call5.v13 main_call5.v14 addi,
    StableHlo.TRef.ternary main_call5.v12 main_call5.v14 main_call5.v4 main_call5.v15 select ]

/-- The flat positions floor-divided by 1. -/
abbrev segM7 : List (HloOp τ sig (Elt F)) :=
  [ StableHlo.nullary main_c_7 (constantI S_ 32 1#32),
    StableHlo.TRef.unary (.of main_c_7 : StableHlo.TRef sig ⟨S_, .i32⟩) main_call6.v0 (broadcastInDim S378 ![] bcast_S_S378),
    StableHlo.TRef.binary (.of main_v23 : StableHlo.TRef sig ⟨S378, .i32⟩) main_call6.v0 main_call6.v1 Host.divsi,
    StableHlo.TRef.unary (.of main_v23 : StableHlo.TRef sig ⟨S378, .i32⟩) main_call6.v2 signi,
    StableHlo.TRef.unary (.of main_c_7 : StableHlo.TRef sig ⟨S_, .i32⟩) main_call6.v3 signi,
    StableHlo.TRef.unary main_call6.v3 main_call6.v4 (broadcastInDim S378 ![] bcast_S_S378),
    StableHlo.TRef.binary main_call6.v2 main_call6.v4 main_call6.v5 (cmpi .ne),
    StableHlo.TRef.unary (.of main_c_7 : StableHlo.TRef sig ⟨S_, .i32⟩) main_call6.v6 (broadcastInDim S378 ![] bcast_S_S378),
    StableHlo.TRef.binary (.of main_v23 : StableHlo.TRef sig ⟨S378, .i32⟩) main_call6.v6 main_call6.v7 Host.remsi,
    StableHlo.TRef.nullary main_call6.c (constantI S_ 32 0#32),
    StableHlo.TRef.unary main_call6.c main_call6.v8 (broadcastInDim S378 ![] bcast_S_S378),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S378 ![] bcast_S_S378),
    StableHlo.TRef.binary main_call6.v1 main_call6.v11 main_call6.v12 subi,
    StableHlo.TRef.ternary main_call6.v10 main_call6.v12 main_call6.v1 main_call6.call0.v0 select ]

/-- That quotient's remainder by 27. -/
abbrev segM8 : List (HloOp τ sig (Elt F)) :=
  [ StableHlo.nullary main_c_8 (constantI S_ 32 27#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S378 ![] bcast_S_S378),
    StableHlo.TRef.binary (.of main_v26 : StableHlo.TRef sig ⟨S378, .i32⟩) main_call7.v3 main_call7.v4 Host.remsi,
    StableHlo.TRef.nullary main_call7.c_1 (constantI S_ 32 0#32),
    StableHlo.TRef.unary main_call7.c_1 main_call7.v5 (broadcastInDim S378 ![] bcast_S_S378),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S378 ![] bcast_S_S378),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S378 ![] bcast_S_S378),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S378 ![] bcast_S_S378),
    StableHlo.TRef.binary main_call7.v4 main_call7.v13 main_call7.v14 addi,
    StableHlo.TRef.ternary main_call7.v12 main_call7.v14 main_call7.v4 main_call7.v15 select ]

/-- Both index columns wrapped and put side by side. -/
abbrev segM9 : List (HloOp τ sig (Elt F)) :=
  [ StableHlo.nullary main_c_9 (constantI S_ 32 0#32),
    StableHlo.unary main_c_9 main_v28 (broadcastInDim S378 ![] bcast_S_S378 : (⟨S_, .i32⟩ : BufTy).Contents (Elt F) → (⟨S378, .i32⟩ : BufTy).Contents (Elt F)),
    StableHlo.binary main_v25 main_v28 main_v29 (cmpi .slt : (⟨S378, .i32⟩ : BufTy).Contents (Elt F) → (⟨S378, .i32⟩ : BufTy).Contents (Elt F) → (⟨S378, .i1⟩ : BufTy).Contents (Elt F)),
    StableHlo.nullary main_c_10 (constantI S_ 32 27#32),
    StableHlo.unary main_c_10 main_v30 (broadcastInDim S378 ![] bcast_S_S378 : (⟨S_, .i32⟩ : BufTy).Contents (Elt F) → (⟨S378, .i32⟩ : BufTy).Contents (Elt F)),
    StableHlo.binary main_v25 main_v30 main_v31 (addi : (⟨S378, .i32⟩ : BufTy).Contents (Elt F) → (⟨S378, .i32⟩ : BufTy).Contents (Elt F) → (⟨S378, .i32⟩ : BufTy).Contents (Elt F)),
    StableHlo.ternary main_v29 main_v31 main_v25 main_v32 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    StableHlo.nullary main_c_11 (constantI S_ 32 0#32),
    StableHlo.unary main_c_11 main_v33 (broadcastInDim S378 ![] bcast_S_S378 : (⟨S_, .i32⟩ : BufTy).Contents (Elt F) → (⟨S378, .i32⟩ : BufTy).Contents (Elt F)),
    StableHlo.binary main_v27 main_v33 main_v34 (cmpi .slt : (⟨S378, .i32⟩ : BufTy).Contents (Elt F) → (⟨S378, .i32⟩ : BufTy).Contents (Elt F) → (⟨S378, .i1⟩ : BufTy).Contents (Elt F)),
    StableHlo.nullary main_c_12 (constantI S_ 32 27#32),
    StableHlo.unary main_c_12 main_v35 (broadcastInDim S378 ![] bcast_S_S378 : (⟨S_, .i32⟩ : BufTy).Contents (Elt F) → (⟨S378, .i32⟩ : BufTy).Contents (Elt F)),
    StableHlo.binary main_v27 main_v35 main_v36 (addi : (⟨S378, .i32⟩ : BufTy).Contents (Elt F) → (⟨S378, .i32⟩ : BufTy).Contents (Elt F) → (⟨S378, .i32⟩ : BufTy).Contents (Elt F)),
    StableHlo.ternary main_v34 main_v36 main_v27 main_v37 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    StableHlo.unary main_v32 main_v38 (broadcastInDim S378x1 ![0] bcast_S378_S378x1_0 : (⟨S378, .i32⟩ : BufTy).Contents (Elt F) → (⟨S378x1, .i32⟩ : BufTy).Contents (Elt F)),
    StableHlo.unary main_v37 main_v39 (broadcastInDim S378x1 ![0] bcast_S378_S378x1_0 : (⟨S378, .i32⟩ : BufTy).Contents (Elt F) → (⟨S378x1, .i32⟩ : BufTy).Contents (Elt F)),
    StableHlo.binary main_v38 main_v39 main_v40 ((fun a b => concatenate S378x2 1 [⟨S378x1, a⟩, ⟨S378x1, b⟩] concatenates_S378x1_S378x1_S378x2_d1) : (⟨S378x1, .i32⟩ : BufTy).Contents (Elt F) → (⟨S378x1, .i32⟩ : BufTy).Contents (Elt F) → (⟨S378x2, .i32⟩ : BufTy).Contents (Elt F)) ]

/-- The gather of the triangle's entries, the concatenation and the last affine layer. -/
abbrev segL : List (HloOp τ sig (Elt F)) :=
  [ StableHlo.binary main_v7 main_v40 main_v41 ((fun x i => Host.gather gather_S16384x27x27_S378x2_S16384x378_0_12_n_n_12_1_1638411 x i) : (⟨S16384x27x27, .f32⟩ : BufTy).Contents (Elt F) → (⟨S378x2, .i32⟩ : BufTy).Contents (Elt F) → (⟨S16384x378, .f32⟩ : BufTy).Contents (Elt F)),
    StableHlo.binary main_arg0 main_v41 main_v42 ((fun a b => concatenate S16384x890 1 [⟨S16384x512, a⟩, ⟨S16384x378, b⟩] concatenates_S16384x512_S16384x378_S16384x890_d1) : (⟨S16384x512, .f32⟩ : BufTy).Contents (Elt F) → (⟨S16384x378, .f32⟩ : BufTy).Contents (Elt F) → (⟨S16384x890, .f32⟩ : BufTy).Contents (Elt F)),
    StableHlo.unary main_arg4 main_v43 ((transpose S890x512 [1, 0] · transposes_S512x890_S890x512_1_0) : (⟨S512x890, .f32⟩ : BufTy).Contents (Elt F) → (⟨S890x512, .f32⟩ : BufTy).Contents (Elt F)),
    StableHlo.binary main_v42 main_v43 main_v44 ((fun l r => Host.dotGeneral dot_S16384x890_S890x512_S16384x512_1_0_0_1_n_n none l r) : (⟨S16384x890, .f32⟩ : BufTy).Contents (Elt F) → (⟨S890x512, .f32⟩ : BufTy).Contents (Elt F) → (⟨S16384x512, .f32⟩ : BufTy).Contents (Elt F)),
    StableHlo.unary main_arg5 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S16384x512 ![0, 1] bcast_S1x512_S16384x512_0_1 : (⟨S1x512, .f32⟩ : BufTy).Contents (Elt F) → (⟨S16384x512, .f32⟩ : BufTy).Contents (Elt F)),
    StableHlo.binary main_v44 main_v46 main_v47 (addf : (⟨S16384x512, .f32⟩ : BufTy).Contents (Elt F) → (⟨S16384x512, .f32⟩ : BufTy).Contents (Elt F) → (⟨S16384x512, .f32⟩ : BufTy).Contents (Elt F)) ]

/-- The operations of the integer part: they read no argument. -/
abbrev opsM : List (HloOp τ sig (Elt F)) :=
  [ StableHlo.nullary main_cst (constant S_ .f32 0x3F800000#32),
    StableHlo.unary main_cst main_v8 (broadcastInDim S27x27 ![] bcast_S_S27x27 : (⟨S_, .f32⟩ : BufTy).Contents (Elt F) → (⟨S27x27, .f32⟩ : BufTy).Contents (Elt F)),
    StableHlo.TRef.nullary main_call0.v0 (iotaInDim S27x27 32 0),
    StableHlo.TRef.nullary main_call0.c (constantI S_ 32 0#32),
    StableHlo.TRef.unary main_call0.c main_call0.v1 (broadcastInDim S27x27 ![] bcast_S_S27x27),
    StableHlo.TRef.binary main_call0.v0 main_call0.v1 main_call0.v2 addi,
    StableHlo.TRef.nullary main_call0.v3 (iotaInDim S27x27 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S27x27 ![] bcast_S_S27x27),
    StableHlo.TRef.ternary main_call0.v4 (.of main_v8 : StableHlo.TRef sig ⟨S27x27, .f32⟩) main_call0.v5 main_call0.v6 select,
    StableHlo.nullary main_cst_0 (constant S_ .f32 0x00000000#32),
    StableHlo.unary main_cst_0 main_v10 (broadcastInDim S27x27 ![] bcast_S_S27x27 : (⟨S_, .f32⟩ : BufTy).Contents (Elt F) → (⟨S27x27, .f32⟩ : BufTy).Contents (Elt F)),
    StableHlo.binary main_v9 main_v10 main_v11 (cmpf .une : (⟨S27x27, .f32⟩ : BufTy).Contents (Elt F) → (⟨S27x27, .f32⟩ : BufTy).Contents (Elt F) → (⟨S27x27, .i1⟩ : BufTy).Contents (Elt F)),
    StableHlo.TRef.reshape (.of main_v11 : StableHlo.TRef sig ⟨S27x27, .i1⟩) main_call1.v0 rfl shapeCasts_S27x27_S729,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![729] ![1] ![728] ![0] x v reduceWindows_S729_S729_w729s1p728_0 h_S_),
    StableHlo.nullary main_c (constantI S_ 32 0#32),
    StableHlo.unary main_c main_v13 (broadcastInDim S378 ![] bcast_S_S378 : (⟨S_, .i32⟩ : BufTy).Contents (Elt F) → (⟨S378, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S729 ![] bcast_S_S729),
    StableHlo.TRef.binary main_call2.v1 (.of main_v12 : StableHlo.TRef sig ⟨S729, .i32⟩) main_call2.v2 maxsi,
    StableHlo.nullary main_c_2 (constantI S_ 32 0#32),
    StableHlo.unary main_c_2 main_v15 (broadcastInDim S729 ![] bcast_S_S729 : (⟨S_, .i32⟩ : BufTy).Contents (Elt F) → (⟨S729, .i32⟩ : BufTy).Contents (Elt F)),
    StableHlo.binary main_v14 main_v15 main_v16 (cmpi .slt : (⟨S729, .i32⟩ : BufTy).Contents (Elt F) → (⟨S729, .i32⟩ : BufTy).Contents (Elt F) → (⟨S729, .i1⟩ : BufTy).Contents (Elt F)),
    StableHlo.nullary main_c_3 (constantI S_ 32 378#32),
    StableHlo.unary main_c_3 main_v17 (broadcastInDim S729 ![] bcast_S_S729 : (⟨S_, .i32⟩ : BufTy).Contents (Elt F) → (⟨S729, .i32⟩ : BufTy).Contents (Elt F)),
    StableHlo.binary main_v14 main_v17 main_v18 (addi : (⟨S729, .i32⟩ : BufTy).Contents (Elt F) → (⟨S729, .i32⟩ : BufTy).Contents (Elt F) → (⟨S729, .i32⟩ : BufTy).Contents (Elt F)),
    StableHlo.ternary main_v16 main_v18 main_v14 main_v19 (select : (⟨S729, .i1⟩ : BufTy).Contents (Elt F) → (⟨S729, .i32⟩ : BufTy).Contents (Elt F) → (⟨S729, .i32⟩ : BufTy).Contents (Elt F) → (⟨S729, .i32⟩ : BufTy).Contents (Elt F)),
    StableHlo.unary main_v19 main_v20 (broadcastInDim S729x1 ![0] bcast_S729_S729x1_0 : (⟨S729, .i32⟩ : BufTy).Contents (Elt F) → (⟨S729x1, .i32⟩ : BufTy).Contents (Elt F)),
    StableHlo.nullary main_c_4 (constantI S_ 32 1#32),
    StableHlo.unary main_c_4 main_v21 (broadcastInDim S729 ![] bcast_S_S729 : (⟨S_, .i32⟩ : BufTy).Contents (Elt F) → (⟨S729, .i32⟩ : BufTy).Contents (Elt F)),
    StableHlo.ternary main_v13 main_v20 main_v21 main_v22 ((fun x i u => Host.scatter scatter_S378_S729x1_S729_n_0_0_1 IntOp.addi x i u) : (⟨S378, .i32⟩ : BufTy).Contents (Elt F) → (⟨S729x1, .i32⟩ : BufTy).Contents (Elt F) → (⟨S729, .i32⟩ : BufTy).Contents (Elt F) → (⟨S378, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v22 : StableHlo.TRef sig ⟨S378, .i32⟩) main_call3.call0.v0 main_call3.call0.v1 (fun x v => Host.reduceWindow IntOp.addi ![378] ![1] ![377] ![0] x v reduceWindows_S378_S378_w378s1p377_0 h_S_),
    StableHlo.nullary main_c_5 (constantI S_ 32 27#32),
    StableHlo.TRef.unary (.of main_c_5 : StableHlo.TRef sig ⟨S_, .i32⟩) main_call4.v0 (broadcastInDim S378 ![] bcast_S_S378),
    StableHlo.TRef.binary (.of main_v23 : StableHlo.TRef sig ⟨S378, .i32⟩) main_call4.v0 main_call4.v1 Host.divsi,
    StableHlo.TRef.unary (.of main_v23 : StableHlo.TRef sig ⟨S378, .i32⟩) main_call4.v2 signi,
    StableHlo.TRef.unary (.of main_c_5 : StableHlo.TRef sig ⟨S_, .i32⟩) main_call4.v3 signi,
    StableHlo.TRef.unary main_call4.v3 main_call4.v4 (broadcastInDim S378 ![] bcast_S_S378),
    StableHlo.TRef.binary main_call4.v2 main_call4.v4 main_call4.v5 (cmpi .ne),
    StableHlo.TRef.unary (.of main_c_5 : StableHlo.TRef sig ⟨S_, .i32⟩) main_call4.v6 (broadcastInDim S378 ![] bcast_S_S378),
    StableHlo.TRef.binary (.of main_v23 : StableHlo.TRef sig ⟨S378, .i32⟩) main_call4.v6 main_call4.v7 Host.remsi,
    StableHlo.TRef.nullary main_call4.c (constantI S_ 32 0#32),
    StableHlo.TRef.unary main_call4.c main_call4.v8 (broadcastInDim S378 ![] bcast_S_S378),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S378 ![] bcast_S_S378),
    StableHlo.TRef.binary main_call4.v1 main_call4.v11 main_call4.v12 subi,
    StableHlo.TRef.ternary main_call4.v10 main_call4.v12 main_call4.v1 main_call4.call0.v0 select,
    StableHlo.nullary main_c_6 (constantI S_ 32 27#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S378 ![] bcast_S_S378),
    StableHlo.TRef.binary (.of main_v24 : StableHlo.TRef sig ⟨S378, .i32⟩) main_call5.v3 main_call5.v4 Host.remsi,
    StableHlo.TRef.nullary main_call5.c_1 (constantI S_ 32 0#32),
    StableHlo.TRef.unary main_call5.c_1 main_call5.v5 (broadcastInDim S378 ![] bcast_S_S378),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S378 ![] bcast_S_S378),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S378 ![] bcast_S_S378),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S378 ![] bcast_S_S378),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S378 ![] bcast_S_S378),
    StableHlo.TRef.binary (.of main_v23 : StableHlo.TRef sig ⟨S378, .i32⟩) main_call6.v0 main_call6.v1 Host.divsi,
    StableHlo.TRef.unary (.of main_v23 : StableHlo.TRef sig ⟨S378, .i32⟩) main_call6.v2 signi,
    StableHlo.TRef.unary (.of main_c_7 : StableHlo.TRef sig ⟨S_, .i32⟩) main_call6.v3 signi,
    StableHlo.TRef.unary main_call6.v3 main_call6.v4 (broadcastInDim S378 ![] bcast_S_S378),
    StableHlo.TRef.binary main_call6.v2 main_call6.v4 main_call6.v5 (cmpi .ne),
    StableHlo.TRef.unary (.of main_c_7 : StableHlo.TRef sig ⟨S_, .i32⟩) main_call6.v6 (broadcastInDim S378 ![] bcast_S_S378),
    StableHlo.TRef.binary (.of main_v23 : StableHlo.TRef sig ⟨S378, .i32⟩) main_call6.v6 main_call6.v7 Host.remsi,
    StableHlo.TRef.nullary main_call6.c (constantI S_ 32 0#32),
    StableHlo.TRef.unary main_call6.c main_call6.v8 (broadcastInDim S378 ![] bcast_S_S378),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S378 ![] bcast_S_S378),
    StableHlo.TRef.binary main_call6.v1 main_call6.v11 main_call6.v12 subi,
    StableHlo.TRef.ternary main_call6.v10 main_call6.v12 main_call6.v1 main_call6.call0.v0 select,
    StableHlo.nullary main_c_8 (constantI S_ 32 27#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S378 ![] bcast_S_S378),
    StableHlo.TRef.binary (.of main_v26 : StableHlo.TRef sig ⟨S378, .i32⟩) main_call7.v3 main_call7.v4 Host.remsi,
    StableHlo.TRef.nullary main_call7.c_1 (constantI S_ 32 0#32),
    StableHlo.TRef.unary main_call7.c_1 main_call7.v5 (broadcastInDim S378 ![] bcast_S_S378),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S378 ![] bcast_S_S378),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S378 ![] bcast_S_S378),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S378 ![] bcast_S_S378),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v28 (broadcastInDim S378 ![] bcast_S_S378 : (⟨S_, .i32⟩ : BufTy).Contents (Elt F) → (⟨S378, .i32⟩ : BufTy).Contents (Elt F)),
    StableHlo.binary main_v25 main_v28 main_v29 (cmpi .slt : (⟨S378, .i32⟩ : BufTy).Contents (Elt F) → (⟨S378, .i32⟩ : BufTy).Contents (Elt F) → (⟨S378, .i1⟩ : BufTy).Contents (Elt F)),
    StableHlo.nullary main_c_10 (constantI S_ 32 27#32),
    StableHlo.unary main_c_10 main_v30 (broadcastInDim S378 ![] bcast_S_S378 : (⟨S_, .i32⟩ : BufTy).Contents (Elt F) → (⟨S378, .i32⟩ : BufTy).Contents (Elt F)),
    StableHlo.binary main_v25 main_v30 main_v31 (addi : (⟨S378, .i32⟩ : BufTy).Contents (Elt F) → (⟨S378, .i32⟩ : BufTy).Contents (Elt F) → (⟨S378, .i32⟩ : BufTy).Contents (Elt F)),
    StableHlo.ternary main_v29 main_v31 main_v25 main_v32 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    StableHlo.nullary main_c_11 (constantI S_ 32 0#32),
    StableHlo.unary main_c_11 main_v33 (broadcastInDim S378 ![] bcast_S_S378 : (⟨S_, .i32⟩ : BufTy).Contents (Elt F) → (⟨S378, .i32⟩ : BufTy).Contents (Elt F)),
    StableHlo.binary main_v27 main_v33 main_v34 (cmpi .slt : (⟨S378, .i32⟩ : BufTy).Contents (Elt F) → (⟨S378, .i32⟩ : BufTy).Contents (Elt F) → (⟨S378, .i1⟩ : BufTy).Contents (Elt F)),
    StableHlo.nullary main_c_12 (constantI S_ 32 27#32),
    StableHlo.unary main_c_12 main_v35 (broadcastInDim S378 ![] bcast_S_S378 : (⟨S_, .i32⟩ : BufTy).Contents (Elt F) → (⟨S378, .i32⟩ : BufTy).Contents (Elt F)),
    StableHlo.binary main_v27 main_v35 main_v36 (addi : (⟨S378, .i32⟩ : BufTy).Contents (Elt F) → (⟨S378, .i32⟩ : BufTy).Contents (Elt F) → (⟨S378, .i32⟩ : BufTy).Contents (Elt F)),
    StableHlo.ternary main_v34 main_v36 main_v27 main_v37 (select : (⟨S378, .i1⟩ : BufTy).Contents (Elt F) → (⟨S378, .i32⟩ : BufTy).Contents (Elt F) → (⟨S378, .i32⟩ : BufTy).Contents (Elt F) → (⟨S378, .i32⟩ : BufTy).Contents (Elt F)),
    StableHlo.unary main_v32 main_v38 (broadcastInDim S378x1 ![0] bcast_S378_S378x1_0 : (⟨S378, .i32⟩ : BufTy).Contents (Elt F) → (⟨S378x1, .i32⟩ : BufTy).Contents (Elt F)),
    StableHlo.unary main_v37 main_v39 (broadcastInDim S378x1 ![0] bcast_S378_S378x1_0 : (⟨S378, .i32⟩ : BufTy).Contents (Elt F) → (⟨S378x1, .i32⟩ : BufTy).Contents (Elt F)),
    StableHlo.binary main_v38 main_v39 main_v40 ((fun a b => concatenate S378x2 1 [⟨S378x1, a⟩, ⟨S378x1, b⟩] concatenates_S378x1_S378x1_S378x2_d1) : (⟨S378x1, .i32⟩ : BufTy).Contents (Elt F) → (⟨S378x1, .i32⟩ : BufTy).Contents (Elt F) → (⟨S378x2, .i32⟩ : BufTy).Contents (Elt F)) ]

attribute [local irreducible] Host.reduceWindow Host.scatter Host.gather in
set_option maxRecDepth 8192 in
/-- After the first eight operations the pairwise inner products are `gramAll` of the arguments. -/
theorem segA_v7 (W : Valuation τ sig (Elt F)) :
    after segA W (main_v7 : DevRef τ sig)
      = Cert.RefTerm.gramAll (W (main_arg0 : DevRef τ sig) : FVec F S16384x512 .f32) (W (main_arg1 : DevRef τ sig) : FVec F S16384x26x128 .f32) (W (main_arg2 : DevRef τ sig) : FVec F S128x512 .f32) (W (main_arg3 : DevRef τ sig) : FVec F S128 .f32) := by
  after_results_simp
  rfl

attribute [local irreducible] Host.reduceWindow Host.scatter Host.gather in
set_option maxRecDepth 8192 in
/-- The mask, whatever the contents before. -/
theorem segM1_v11 (W : Valuation τ sig (Elt F)) :
    after segM1 W (main_v11 : DevRef τ sig)
      = Cert.RefTerm.trilMask (F := F) := by
  after_results_simp
  rfl

attribute [local irreducible] Host.reduceWindow Host.scatter Host.gather in
set_option maxRecDepth 8192 in
/-- The running count of the mask held before. -/
theorem segM2_v12 (W : Valuation τ sig (Elt F)) :
    after segM2 W (main_v12 : DevRef τ sig)
      = Host.reduceWindow IntOp.addi ![729] ![1] ![728] ![0]
          (extui 32 (shapeCast S729 (W (main_v11 : DevRef τ sig) : IVec S27x27 1) shapeCasts_S27x27_S729) natLt_1_32)
          (broadcastInDim S_ ![] bcast_S_S_ (constantI S_ 32 0#32)) reduceWindows_S729_S729_w729s1p728_0 h_S_ := by
  after_results_simp
  rfl

attribute [local irreducible] Host.reduceWindow Host.scatter Host.gather in
set_option maxRecDepth 8192 in
/-- The bins of the running count held before. -/
theorem segM3_v22 (W : Valuation τ sig (Elt F)) :
    after segM3 W (main_v22 : DevRef τ sig)
      = Host.scatter scatter_S378_S729x1_S729_n_0_0_1 IntOp.addi (broadcastInDim S378 ![] bcast_S_S378 (constantI S_ 32 0#32))
          (broadcastInDim S729x1 ![0] bcast_S729_S729x1_0
            (select (cmpi .slt (maxsi (broadcastInDim S729 ![] bcast_S_S729 (id (constantI S_ 32 0#32))) (W (main_v12 : DevRef τ sig) : IVec S729 32)) (broadcastInDim S729 ![] bcast_S_S729 (constantI S_ 32 0#32)))
              (addi (maxsi (broadcastInDim S729 ![] bcast_S_S729 (id (constantI S_ 32 0#32))) (W (main_v12 : DevRef τ sig) : IVec S729 32)) (broadcastInDim S729 ![] bcast_S_S729 (constantI S_ 32 378#32))) (maxsi (broadcastInDim S729 ![] bcast_S_S729 (id (constantI S_ 32 0#32))) (W (main_v12 : DevRef τ sig) : IVec S729 32))))
          (broadcastInDim S729 ![] bcast_S_S729 (constantI S_ 32 1#32)) := by
  after_results_simp
  rfl

attribute [local irreducible] Host.reduceWindow Host.scatter Host.gather in
set_option maxRecDepth 8192 in
/-- The running count of the bins held before. -/
theorem segM4_v23 (W : Valuation τ sig (Elt F)) :
    after segM4 W (main_v23 : DevRef τ sig)
      = Host.reduceWindow IntOp.addi ![378] ![1] ![377] ![0] (W (main_v22 : DevRef τ sig) : IVec S378 32)
          (broadcastInDim S_ ![] bcast_S_S_ (constantI S_ 32 0#32)) reduceWindows_S378_S378_w378s1p377_0 h_S_ := by
  after_results_simp
  rfl

attribute [local irreducible] Host.reduceWindow Host.scatter Host.gather in
set_option maxRecDepth 8192 in
/-- The floor division by 27 of what was held. -/
theorem segM5_v24 (W : Valuation τ sig (Elt F)) :
    after segM5 W (main_v24 : DevRef τ sig)
      = Cert.RefTerm.floorDiv (W (main_v23 : DevRef τ sig) : IVec S378 32) (constantI S_ 32 27#32) := by
  after_results_simp
  rfl

attribute [local irreducible] Host.reduceWindow Host.scatter Host.gather in
set_option maxRecDepth 8192 in
/-- The remainder by 27 of what was held. -/
theorem segM6_v25 (W : Valuation τ sig (Elt F)) :
    after segM6 W (main_v25 : DevRef τ sig)
      = Cert.RefTerm.remn (W (main_v24 : DevRef τ sig) : IVec S378 32) (constantI S_ 32 27#32) := by
  after_results_simp
  rfl

attribute [local irreducible] Host.reduceWindow Host.scatter Host.gather in
set_option maxRecDepth 8192 in
/-- The floor division by 1 of what was held. -/
theorem segM7_v26 (W : Valuation τ sig (Elt F)) :
    after segM7 W (main_v26 : DevRef τ sig)
      = Cert.RefTerm.floorDiv (W (main_v23 : DevRef τ sig) : IVec S378 32) (constantI S_ 32 1#32) := by
  after_results_simp
  rfl

attribute [local irreducible] Host.reduceWindow Host.scatter Host.gather in
set_option maxRecDepth 8192 in
/-- The remainder by 27 of what was held. -/
theorem segM8_v27 (W : Valuation τ sig (Elt F)) :
    after segM8 W (main_v27 : DevRef τ sig)
      = Cert.RefTerm.remn (W (main_v26 : DevRef τ sig) : IVec S378 32) (constantI S_ 32 27#32) := by
  after_results_simp
  rfl

attribute [local irreducible] Host.reduceWindow Host.scatter Host.gather in
set_option maxRecDepth 8192 in
/-- The two columns held before, wrapped and put side by side. -/
theorem segM9_v40 (W : Valuation τ sig (Elt F)) :
    after segM9 W (main_v40 : DevRef τ sig)
      = concatenate S378x2 1 [⟨S378x1, broadcastInDim S378x1 ![0] bcast_S378_S378x1_0 (Cert.RefTerm.wrap27 (W (main_v25 : DevRef τ sig) : IVec S378 32))⟩,
          ⟨S378x1, broadcastInDim S378x1 ![0] bcast_S378_S378x1_0 (Cert.RefTerm.wrap27 (W (main_v27 : DevRef τ sig) : IVec S378 32))⟩] concatenates_S378x1_S378x1_S378x2_d1 := by
  after_results_simp
  rfl

attribute [local irreducible] Host.reduceWindow Host.scatter Host.gather in
set_option maxRecDepth 8192 in
/-- The result from the inner products, the index pairs and the arguments held before. -/
theorem segL_v47 (W : Valuation τ sig (Elt F)) :
    after segL W (main_v47 : DevRef τ sig)
      = addf
          (Host.dotGeneral dot_S16384x890_S890x512_S16384x512_1_0_0_1_n_n none
            (concatenate S16384x890 1 [⟨S16384x512, (W (main_arg0 : DevRef τ sig) : FVec F S16384x512 .f32)⟩,
              ⟨S16384x378, Host.gather gather_S16384x27x27_S378x2_S16384x378_0_12_n_n_12_1_1638411 (W (main_v7 : DevRef τ sig) : FVec F S16384x27x27 .f32) (W (main_v40 : DevRef τ sig) : IVec S378x2 32)⟩]
              concatenates_S16384x512_S16384x378_S16384x890_d1)
            (transpose S890x512 [1, 0] (W (main_arg4 : DevRef τ sig) : FVec F S512x890 .f32) transposes_S512x890_S890x512_1_0))
          (broadcastInDim S16384x512 ![0, 1] bcast_S1x512_S16384x512_0_1 (broadcastInDim S1x512 ![1] bcast_S512_S1x512_1 (W (main_arg5 : DevRef τ sig) : FVec F S512 .f32))) := by
  after_results_simp
  rfl

/-! A buffer a stretch does not write keeps its contents through it. -/

set_option maxRecDepth 16384 in
theorem segA_keep_arg0 (W : Valuation τ sig (Elt F)) :
    after segA W (main_arg0 : DevRef τ sig) = W (main_arg0 : DevRef τ sig) := by
  simp only [after_cons, after_nil]
  rfl

set_option maxRecDepth 16384 in
theorem segA_keep_arg4 (W : Valuation τ sig (Elt F)) :
    after segA W (main_arg4 : DevRef τ sig) = W (main_arg4 : DevRef τ sig) := by
  simp only [after_cons, after_nil]
  rfl

set_option maxRecDepth 16384 in
theorem segA_keep_arg5 (W : Valuation τ sig (Elt F)) :
    after segA W (main_arg5 : DevRef τ sig) = W (main_arg5 : DevRef τ sig) := by
  simp only [after_cons, after_nil]
  rfl

set_option maxRecDepth 16384 in
theorem opsM_keep_v7 (W : Valuation τ sig (Elt F)) :
    after opsM W (main_v7 : DevRef τ sig) = W (main_v7 : DevRef τ sig) := by
  simp only [after_cons, after_nil]
  rfl

set_option maxRecDepth 16384 in
theorem opsM_keep_arg0 (W : Valuation τ sig (Elt F)) :
    after opsM W (main_arg0 : DevRef τ sig) = W (main_arg0 : DevRef τ sig) := by
  simp only [after_cons, after_nil]
  rfl

set_option maxRecDepth 16384 in
theorem opsM_keep_arg4 (W : Valuation τ sig (Elt F)) :
    after opsM W (main_arg4 : DevRef τ sig) = W (main_arg4 : DevRef τ sig) := by
  simp only [after_cons, after_nil]
  rfl

set_option maxRecDepth 16384 in
theorem opsM_keep_arg5 (W : Valuation τ sig (Elt F)) :
    after opsM W (main_arg5 : DevRef τ sig) = W (main_arg5 : DevRef τ sig) := by
  simp only [after_cons, after_nil]
  rfl

set_option maxRecDepth 16384 in
theorem segM5_keep_v23 (W : Valuation τ sig (Elt F)) :
    after segM5 W (main_v23 : DevRef τ sig) = W (main_v23 : DevRef τ sig) := by
  simp only [after_cons, after_nil]
  rfl

set_option maxRecDepth 16384 in
theorem segM6_keep_v23 (W : Valuation τ sig (Elt F)) :
    after segM6 W (main_v23 : DevRef τ sig) = W (main_v23 : DevRef τ sig) := by
  simp only [after_cons, after_nil]
  rfl

set_option maxRecDepth 16384 in
theorem segM7_keep_v25 (W : Valuation τ sig (Elt F)) :
    after segM7 W (main_v25 : DevRef τ sig) = W (main_v25 : DevRef τ sig) := by
  simp only [after_cons, after_nil]
  rfl

set_option maxRecDepth 16384 in
theorem segM8_keep_v25 (W : Valuation τ sig (Elt F)) :
    after segM8 W (main_v25 : DevRef τ sig) = W (main_v25 : DevRef τ sig) := by
  simp only [after_cons, after_nil]
  rfl

/-- The fold of two lists run one after the other. -/
theorem after_append {Val : EltTy → Type} : ∀ (l₁ l₂ : List (HloOp τ sig Val)) (V : Valuation τ sig Val),
    after (l₁ ++ l₂) V = after l₂ (after l₁ V)
  | [], _, _ => rfl
  | op :: l, l₂, V => by rw [List.cons_append, after_cons, after_cons, after_append l l₂]

theorem ops_split : (ops : List (HloOp τ sig (Elt F))) = segA ++ (opsM ++ segL) := rfl

theorem opsM_split : (opsM : List (HloOp τ sig (Elt F)))
    = segM1 ++ (segM2 ++ (segM3 ++ (segM4 ++ (segM5 ++ (segM6 ++ (segM7 ++ (segM8 ++ segM9))))))) := rfl

set_option maxRecDepth 8192 in
/-- The integer part leaves the index pairs of the lower triangle, whatever the contents before: the stages composed,
    each reading what the one before left. -/
theorem opsM_v40 (W : Valuation τ sig (Elt F)) :
    after opsM W (main_v40 : DevRef τ sig) = Cert.RefTerm.idxPairs (F := F) := by
  rw [opsM_split]
  simp only [after_append]
  rw [segM9_v40, segM8_v27, segM8_keep_v25, segM7_keep_v25, segM7_v26, segM6_v25, segM6_keep_v23, segM5_keep_v23, segM5_v24,
    segM4_v23, segM3_v22, segM2_v12, segM1_v11]
  rfl

set_option maxRecDepth 8192 in
/-- The fold at the result buffer is the composed term: the float part, the integer part and the last layer composed,
    the arguments and the inner products untouched in between. -/
theorem out_eq (V : Valuation τ sig (Elt F)) :
    after ops V (main_v47 : DevRef τ sig)
      = Cert.RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split]
  simp only [after_append]
  rw [segL_v47, opsM_v40, opsM_keep_v7, opsM_keep_arg0, opsM_keep_arg4, opsM_keep_arg5, segA_v7, segA_keep_arg0, segA_keep_arg4,
    segA_keep_arg5]
  rfl

/-! No operation writes an argument's buffer. -/

set_option maxRecDepth 16384 in
theorem arg0_eq (V : Valuation τ sig (Elt F)) :
    after ops V (main_arg0 : DevRef τ sig) = V (main_arg0 : DevRef τ sig) := by
  simp only [after_cons, after_nil]
  rfl

set_option maxRecDepth 16384 in
theorem arg1_eq (V : Valuation τ sig (Elt F)) :
    after ops V (main_arg1 : DevRef τ sig) = V (main_arg1 : DevRef τ sig) := by
  simp only [after_cons, after_nil]
  rfl

set_option maxRecDepth 16384 in
theorem arg2_eq (V : Valuation τ sig (Elt F)) :
    after ops V (main_arg2 : DevRef τ sig) = V (main_arg2 : DevRef τ sig) := by
  simp only [after_cons, after_nil]
  rfl

set_option maxRecDepth 16384 in
theorem arg3_eq (V : Valuation τ sig (Elt F)) :
    after ops V (main_arg3 : DevRef τ sig) = V (main_arg3 : DevRef τ sig) := by
  simp only [after_cons, after_nil]
  rfl

set_option maxRecDepth 16384 in
theorem arg4_eq (V : Valuation τ sig (Elt F)) :
    after ops V (main_arg4 : DevRef τ sig) = V (main_arg4 : DevRef τ sig) := by
  simp only [after_cons, after_nil]
  rfl

set_option maxRecDepth 16384 in
theorem arg5_eq (V : Valuation τ sig (Elt F)) :
    after ops V (main_arg5 : DevRef τ sig) = V (main_arg5 : DevRef τ sig) := by
  simp only [after_cons, after_nil]
  rfl

/-- At the compiled mesh, for any float values, from any memory with zero counters: every weakly fair execution of
    @main terminates with the result buffer at the composed term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = Cert.RefTerm.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v47).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

/-- The same at the extended reals. -/
theorem run_ideal (m : (ℓ : Loc nD τ sig) → Buf (Elt Ideal) ℓ) (ρ : Dev nD → PrngReg) :
    θ_run Cert.ReferenceIdeal.defs (onTc (τ := τ) (main (F := Ideal))) ⟨m, fun _ => 0, ρ⟩ fun r => ∀ c : Dev nD,
      r.2.mem ((c.tc : Thread nD τ).loc main_v47)
          = Cert.RefTerm.out (F := Ideal) (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run (F := Ideal) m ρ

end Cert.RefRun

end
-- ==== Proof.LibGram.lean ====
/-
  The product of two stacks of matrices row against row: `dot_general` over A : [G, m, k] and B : [G, n, k] with batch
  axes 0 and 0 and BOTH last axes contracted (`einsum 'gak,gbk->gab'`), read at an index, is the sum over the
  contracted coordinate of the products of row a of A's member g and row b of B's member g. At the ideal values.
  (The library states the stack product with the right operand contracted on its middle axis; this is the other
  spelling.) General: nothing here mentions a program.
-/
import Idealize.ShloMosaic.Lib.KernelVsHost
import Idealize.ShloMosaic.Lib.ValueIdx
import Idealize.ShloMosaic.PureOps.Ideal.Laws

open scoped BigOperators

namespace Cert.LibGram

open Idealize.ShloMosaic Idealize.ShloMosaic.ValueIdx

variable {G m n : Nat}

/-- The host's product read at (g, a, b). `w` is the record's well-formedness, which a program states. -/
theorem dotGeneral_gram_apply {k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- The matrix unit's product into the zero array is the same sum. -/
theorem matmul_gram_zero_apply {k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    matmul (⟨[2], [2], [1], [1], [0], [0], w⟩ : DotDims _ _ _) prec A B (constant ⟨3, ![G, m, n]⟩ .f32 0x00000000#32) (ix3 g a b)
      = ∑ c : Fin k, A (ix3 g a c) * B (ix3 g b c) := by
  rw [matmul_zero_eq_dotGeneral]
  exact dotGeneral_gram_apply w prec A B g a b

end Cert.LibGram
-- ==== Proof.LibPairGather.lean ====
/-
  A gather of single entries out of each member of a stack of matrices: the operand is [B, R, C], the start indices
  are E pairs (row, column) laid out [E, 2], and the result [B, E] holds, at (b, e), the operand's entry
  (b, row e, column e) — each index read signed and clamped into its axis. This is what `Z[:, li, lj]` with two
  index vectors lowers to. General: nothing here mentions a program.
-/
import Idealize.ShloMosaic.PureOps.ShapeOps
import Idealize.ShloMosaic.PureOps.Dims
import Idealize.ShloMosaic.Lib.ValueIdx

namespace Cert.LibPairGather

open Idealize.ShloMosaic Idealize.ShloMosaic.ValueIdx

variable {α : Type} {B R C E w : Nat}

/-- Those dimension numbers: the batch axis kept whole, the two matrix axes collapsed and indexed. -/
abbrev pairDims (B R C E : Nat)
    (wf : GatherDims.WF ⟨3, ![B, R, C]⟩ ⟨2, ![E, 2]⟩ ⟨2, ![B, E]⟩ [0] [1, 2] [] [1, 2] [] 1 ![B, 1, 1]) :
    GatherDims ⟨3, ![B, R, C]⟩ ⟨2, ![E, 2]⟩ ⟨2, ![B, E]⟩ where
  offsetDims := [0]
  collapsedSliceDims := [1, 2]
  operandBatchingDims := []
  startIndicesBatchingDims := []
  startIndexMap := [1, 2]
  indexVectorDim := 1
  sliceSizes := ![B, 1, 1]
  wf := wf

variable (wf : GatherDims.WF ⟨3, ![B, R, C]⟩ ⟨2, ![E, 2]⟩ ⟨2, ![B, E]⟩ [0] [1, 2] [] [1, 2] [] 1 ![B, 1, 1])

/-- THE GATHER READ AT (b, e). -/
theorem gather_pair_apply (hR : 0 < R) (hC : 0 < C) (x : (⟨3, ![B, R, C]⟩ : Shape).Idx → α) (idx : IVec ⟨2, ![E, 2]⟩ w)
    (b : Fin B) (e : Fin E) :
    Host.gather (pairDims B R C E wf) x idx (ix2 b e)
      = x (ix3 b ⟨min (idx (ix2 e (0 : Fin 2))).toInt.toNat (R - 1), by omega⟩
          ⟨min (idx (ix2 e (1 : Fin 2))).toInt.toNat (C - 1), by omega⟩) := by
  unfold Host.gather
  congr 1
  funext a
  refine Fin.ext ?_
  show (pairDims B R C E wf).start (ix2 b e) idx a + (pairDims B R C E wf).batchCoord (ix2 b e) a
    + (pairDims B R C E wf).offCoord (ix2 b e) a = _
  rw [GatherDims.batchCoord_eq_zero _ _ _ List.not_mem_nil, Nat.add_zero]
  match a with
  | ⟨0, _⟩ =>
    have hk : (0 : Fin 3) ∈ (pairDims B R C E wf).sKept :=
      ((GatherDims.mem_sKept _ _).mpr ⟨(show ¬ (0 : Fin 3) ∈ ([1, 2] : List (Fin 3)) by decide), List.not_mem_nil⟩)
    have hs : (pairDims B R C E wf).start (ix2 b e) idx 0 = 0 := by
      unfold GatherDims.start
      rw [dif_neg (show ¬ (0 : Fin 3) ∈ ([1, 2] : List (Fin 3)) by decide)]
    show (pairDims B R C E wf).start (ix2 b e) idx 0 + (pairDims B R C E wf).offCoord (ix2 b e) 0 = b.val
    rw [hs, Nat.zero_add]
    unfold GatherDims.offCoord
    rw [dif_pos hk]
    rfl
  | ⟨1, _⟩ =>
    have hk : ¬ (1 : Fin 3) ∈ (pairDims B R C E wf).sKept := fun h =>
      ((GatherDims.mem_sKept _ _).mp h).1 (show (1 : Fin 3) ∈ ([1, 2] : List (Fin 3)) by decide)
    show (pairDims B R C E wf).start (ix2 b e) idx 1 + (pairDims B R C E wf).offCoord (ix2 b e) 1 = _
    rw [GatherDims.offCoord_eq_zero _ _ _ hk, Nat.add_zero]
    unfold GatherDims.start
    rw [dif_pos (show (1 : Fin 3) ∈ (pairDims B R C E wf).startIndexMap from (show (1 : Fin 3) ∈ ([1, 2] : List (Fin 3)) by decide))]
    have hsi : (pairDims B R C E wf).siIdx (ix2 b e) ⟨List.idxOf (1 : Fin 3) (pairDims B R C E wf).startIndexMap,
        List.idxOf_lt_length_iff.2 (show (1 : Fin 3) ∈ ([1, 2] : List (Fin 3)) by decide)⟩ = ix2 e (0 : Fin 2) := by
      funext c; refine Fin.ext ?_
      match c with
      | ⟨0, _⟩ => rfl
      | ⟨1, _⟩ => rfl
    rw [hsi]
    rfl
  | ⟨2, _⟩ =>
    have hk : ¬ (2 : Fin 3) ∈ (pairDims B R C E wf).sKept := fun h =>
      ((GatherDims.mem_sKept _ _).mp h).1 (show (2 : Fin 3) ∈ ([1, 2] : List (Fin 3)) by decide)
    show (pairDims B R C E wf).start (ix2 b e) idx 2 + (pairDims B R C E wf).offCoord (ix2 b e) 2 = _
    rw [GatherDims.offCoord_eq_zero _ _ _ hk, Nat.add_zero]
    unfold GatherDims.start
    rw [dif_pos (show (2 : Fin 3) ∈ (pairDims B R C E wf).startIndexMap from (show (2 : Fin 3) ∈ ([1, 2] : List (Fin 3)) by decide))]
    have hsi : (pairDims B R C E wf).siIdx (ix2 b e) ⟨List.idxOf (2 : Fin 3) (pairDims B R C E wf).startIndexMap,
        List.idxOf_lt_length_iff.2 (show (2 : Fin 3) ∈ ([1, 2] : List (Fin 3)) by decide)⟩ = ix2 e (1 : Fin 2) := by
      funext c; refine Fin.ext ?_
      match c with
      | ⟨0, _⟩ => rfl
      | ⟨1, _⟩ => rfl
    rw [hsi]
    rfl

end Cert.LibPairGather
-- ==== Proof.RefValue.lean ====
/-
  The reference's result read at one index, as the specification's `outAt`. The projection is a plain product plus
  a bias broadcast down the rows; the 27 stacked rows are a two-piece concatenation along the middle axis; the
  interaction matrix is the stack product with both last axes contracted; the gather reads entry
  (row k, column k) of it, where the index arrays hold `triRow k` and `triCol k` (hypotheses here: the integer
  pipeline that produces them is evaluated elsewhere); and the last layer's sum over 890 features splits into its
  512 dense and 378 triangle terms.
-/
import proofs.«147438_j49555332661502_2_alg».proof.Proof.RefTerm
import proofs.«147438_j49555332661502_2_alg».proof.Proof.Spec
import proofs.«147438_j49555332661502_2_alg».proof.Proof.LibGram
import proofs.«147438_j49555332661502_2_alg».proof.Proof.LibPairGather
import proofs.«147438_j49555332661502_2_alg».proof.Proof.Gen.ReferenceIdeal
import Idealize.ShloMosaic.Lib.StackMember
import Idealize.ShloMosaic.Lib.ValueLayout
import Idealize.ShloMosaic.Lib.Pipeline.Value
import proofs.«147438_j49555332661502_2_alg».proof.Proof.LibSupportSum

noncomputable section

open scoped BigOperators

namespace Cert.RefValue

open Cert.ReferenceIdeal Cert.ReferenceIdeal.Gen Cert.RefTerm Idealize.ShloMosaic Idealize.ShloMosaic.ValueIdx
open Idealize.ShloMosaic.StackMember

variable (x : FVec Ideal S16384x512 .f32) (sp : FVec Ideal S16384x26x128 .f32) (Wp : FVec Ideal S128x512 .f32)
  (bp : FVec Ideal S128 .f32) (Wo : FVec Ideal S512x890 .f32) (bo : FVec Ideal S512 .f32)

theorem proj_apply (b : Fin 16384) (e : Fin 128) : RefTerm.proj x Wp bp (ix2 b e) = Spec.proj x Wp bp b e := by
  unfold RefTerm.proj Spec.proj
  rw [addf_apply]
  congr 1
  · refine (dotGeneral_plain_apply (m := 16384) (k := 512) (n := 128) none x _ b e).trans ?_
    refine Finset.sum_congr rfl fun d _ => ?_
    rw [transpose_ix2_apply]
  · rw [broadcastInDim_apply _ _ _ _ (ix2 (0 : Fin 1) e) (fun a => match a with | ⟨0, _⟩ => rfl | ⟨1, _⟩ => rfl)]
    rw [broadcastInDim_apply _ _ _ _ (ix1 e) (fun a => match a with | ⟨0, _⟩ => rfl)]

theorem stack_apply (b : Fin 16384) (i : Fin 27) (e : Fin 128) :
    RefTerm.stack x sp Wp bp (ix3 b i e) = Spec.feat x sp Wp bp b i e := by
  unfold RefTerm.stack Spec.feat
  by_cases h : i.val = 0
  · rw [dif_pos h]
    rw [concatenate_pair_apply_left (s₁ := S16384x1x128) (s₂ := S16384x26x128) (1 : Fin 3) _ _ _ (ix3 b i e) rfl (ix3 b (0 : Fin 1) e)
      (fun a => match a with | ⟨0, _⟩ => rfl | ⟨1, _⟩ => h.symm | ⟨2, _⟩ => rfl)]
    rw [broadcastInDim_apply _ _ _ _ (ix2 b e) (fun a => match a with | ⟨0, _⟩ => rfl | ⟨1, _⟩ => rfl)]
    exact proj_apply x Wp bp b e
  · rw [dif_neg h]
    exact concatenate_pair_apply_right (s₁ := S16384x1x128) (s₂ := S16384x26x128) (1 : Fin 3) _ _ _ (ix3 b i e) rfl rfl (ix3 b (⟨i.val - 1, by omega⟩ : Fin 26) e)
      (fun a ha => match a with | ⟨0, _⟩ => rfl | ⟨1, _⟩ => absurd rfl ha | ⟨2, _⟩ => rfl)
      (by show i.val - 1 + 1 = i.val; omega)

theorem gramAll_apply (b : Fin 16384) (i j : Fin 27) :
    RefTerm.gramAll x sp Wp bp (ix3 b i j) = Spec.gram x sp Wp bp b i j := by
  unfold RefTerm.gramAll Spec.gram
  refine (Cert.LibGram.dotGeneral_gram_apply (G := 16384) (m := 27) (n := 27) (k := 128)
    dot_S16384x27x128_S16384x27x128_S16384x27x27_2_2_1_1_0_0_wf none _ _ b i j).trans ?_
  refine Finset.sum_congr rfl fun e _ => ?_
  rw [stack_apply, stack_apply]

/-- The index pairs hold the row in column 0 and the column in column 1. -/
theorem idxPairs_zero (k : Fin 378) : RefTerm.idxPairs (F := Ideal) (ix2 k (0 : Fin 2)) = RefTerm.rowIdx (F := Ideal) (ix1 k) := by
  unfold RefTerm.idxPairs
  rw [concatenate_pair_apply_left (s₁ := S378x1) (s₂ := S378x1) (1 : Fin 2) _ _ _ (ix2 k (0 : Fin 2)) rfl (ix2 k (0 : Fin 1))
    (fun a => match a with | ⟨0, _⟩ => rfl | ⟨1, _⟩ => rfl)]
  rw [broadcastInDim_apply _ _ _ _ (ix1 k) (fun a => match a with | ⟨0, _⟩ => rfl)]

theorem idxPairs_one (k : Fin 378) : RefTerm.idxPairs (F := Ideal) (ix2 k (1 : Fin 2)) = RefTerm.colIdx (F := Ideal) (ix1 k) := by
  unfold RefTerm.idxPairs
  rw [concatenate_pair_apply_right (s₁ := S378x1) (s₂ := S378x1) (1 : Fin 2) _ _ _ (ix2 k (1 : Fin 2)) rfl rfl (ix2 k (0 : Fin 1))
    (fun a ha => match a with | ⟨0, _⟩ => rfl | ⟨1, _⟩ => absurd rfl ha) rfl]
  rw [broadcastInDim_apply _ _ _ _ (ix1 k) (fun a => match a with | ⟨0, _⟩ => rfl)]

/-- A small index word read signed is its number, so clamping it into the axis does nothing. -/
theorem clamp_small (n : Fin 27) : min (BitVec.ofNat 32 n.val).toInt.toNat (27 - 1) = n.val := by
  have h := n.isLt
  have h2 : (BitVec.ofNat 32 n.val).toNat = n.val := by
    rw [BitVec.toNat_ofNat]; exact Nat.mod_eq_of_lt (by omega)
  have h3 : (BitVec.ofNat 32 n.val).toInt = (n.val : Int) := by
    rw [BitVec.toInt_eq_toNat_cond, h2]; split <;> omega
  rw [h3]
  omega

variable (hrow : ∀ k : Fin 378, RefTerm.rowIdx (F := Ideal) (ix1 k) = BitVec.ofNat 32 (Spec.triRow k).val)
  (hcol : ∀ k : Fin 378, RefTerm.colIdx (F := Ideal) (ix1 k) = BitVec.ofNat 32 (Spec.triCol k).val)

include hrow hcol in
theorem gathered_apply (b : Fin 16384) (k : Fin 378) :
    Host.gather gather_S16384x27x27_S378x2_S16384x378_0_12_n_n_12_1_1638411 (RefTerm.gramAll x sp Wp bp) (RefTerm.idxPairs (F := Ideal)) (ix2 b k)
      = Spec.gram x sp Wp bp b (Spec.triRow k) (Spec.triCol k) := by
  refine (Cert.LibPairGather.gather_pair_apply (B := 16384) (R := 27) (C := 27) (E := 378)
    gather_S16384x27x27_S378x2_S16384x378_0_12_n_n_12_1_1638411_wf (by decide) (by decide) _ _ b k).trans ?_
  rw [← gramAll_apply]
  refine congrArg (RefTerm.gramAll x sp Wp bp) ?_
  funext a
  refine Fin.ext ?_
  match a with
  | ⟨0, _⟩ => rfl
  | ⟨1, _⟩ =>
    show min (RefTerm.idxPairs (F := Ideal) (ix2 k (0 : Fin 2))).toInt.toNat (27 - 1) = (Spec.triRow k).val
    rw [idxPairs_zero, hrow k, clamp_small]
  | ⟨2, _⟩ =>
    show min (RefTerm.idxPairs (F := Ideal) (ix2 k (1 : Fin 2))).toInt.toNat (27 - 1) = (Spec.triCol k).val
    rw [idxPairs_one, hcol k, clamp_small]

/-- The 890 features of sample b: the dense ones first, -/
theorem cat_left (G : FVec Ideal S16384x378 .f32) (b : Fin 16384) (d : Fin 512) :
    concatenate S16384x890 1 [⟨S16384x512, x⟩, ⟨S16384x378, G⟩] concatenates_S16384x512_S16384x378_S16384x890_d1
      (ix2 b (⟨d.val, by omega⟩ : Fin 890)) = x (ix2 b d) :=
  concatenate_pair_apply_left (t := S16384x890) (s₁ := S16384x512) (s₂ := S16384x378) (1 : Fin 2) x G
    concatenates_S16384x512_S16384x378_S16384x890_d1 (ix2 b (⟨d.val, by omega⟩ : Fin 890)) rfl (ix2 b d)
    (fun a => match a with | ⟨0, _⟩ => rfl | ⟨1, _⟩ => rfl)

/-- then the gathered ones. -/
theorem cat_right (G : FVec Ideal S16384x378 .f32) (b : Fin 16384) (k : Fin 378) :
    concatenate S16384x890 1 [⟨S16384x512, x⟩, ⟨S16384x378, G⟩] concatenates_S16384x512_S16384x378_S16384x890_d1
      (ix2 b (⟨512 + k.val, by omega⟩ : Fin 890)) = G (ix2 b k) :=
  concatenate_pair_apply_right (t := S16384x890) (s₁ := S16384x512) (s₂ := S16384x378) (1 : Fin 2) x G
    concatenates_S16384x512_S16384x378_S16384x890_d1 (ix2 b (⟨512 + k.val, by omega⟩ : Fin 890)) rfl rfl (ix2 b k)
    (fun a ha => match a with | ⟨0, _⟩ => rfl | ⟨1, _⟩ => absurd rfl ha) (by show k.val + 512 = 512 + k.val; omega)

theorem bias_apply (b : Fin 16384) (o : Fin 512) :
    broadcastInDim S16384x512 ![0, 1] bcast_S1x512_S16384x512_0_1 (broadcastInDim S1x512 ![1] bcast_S512_S1x512_1 bo) (ix2 b o)
      = bo (ix1 o) := by
  rw [broadcastInDim_apply _ _ _ _ (ix2 (0 : Fin 1) o) (fun a => match a with | ⟨0, _⟩ => rfl | ⟨1, _⟩ => rfl)]
  rw [broadcastInDim_apply _ _ _ _ (ix1 o) (fun a => match a with | ⟨0, _⟩ => rfl)]

/-- The last product, for any gathered block: its 890-term sum split into the dense and the gathered terms. -/
theorem last_dot (G : FVec Ideal S16384x378 .f32) (b : Fin 16384) (o : Fin 512) :
    Host.dotGeneral dot_S16384x890_S890x512_S16384x512_1_0_0_1_n_n none
        (concatenate S16384x890 1 [⟨S16384x512, x⟩, ⟨S16384x378, G⟩] concatenates_S16384x512_S16384x378_S16384x890_d1)
        (transpose S890x512 [1, 0] Wo transposes_S512x890_S890x512_1_0) (ix2 b o)
      = (∑ d : Fin 512, x (ix2 b d) * Wo (ix2 o (⟨d.val, by omega⟩ : Fin 890)))
        + ∑ k : Fin 378, G (ix2 b k) * Wo (ix2 o (⟨512 + k.val, by omega⟩ : Fin 890)) := by
  refine (dotGeneral_plain_apply (m := 16384) (k := 890) (n := 512) none _ _ b o).trans ?_
  refine (Cert.LibSupportSum.sum_fin_split 512 378 890 rfl _).trans ?_
  refine congrArg₂ (· + ·) (Finset.sum_congr rfl fun d _ => ?_) (Finset.sum_congr rfl fun k _ => ?_)
  · dsimp only
    rw [transpose_ix2_apply, cat_left]
  · dsimp only
    rw [transpose_ix2_apply, cat_right]

include hrow hcol in
/-- THE REFERENCE IS THE SPECIFICATION. -/
theorem out_eq : RefTerm.out x sp Wp bp Wo bo = Spec.out x sp Wp bp Wo bo := by
  funext i
  obtain ⟨b, o, rfl⟩ : ∃ (b : Fin 16384) (o : Fin 512), i = ix2 b o := ⟨i 0, i 1, eq_ix2 i⟩
  show RefTerm.out x sp Wp bp Wo bo (ix2 b o) = Spec.outAt x sp Wp bp Wo bo b o
  unfold RefTerm.out Spec.outAt
  rw [addf_apply, bias_apply, last_dot]
  refine congrArg (fun s => ((∑ d : Fin 512, x (ix2 b d) * Wo (ix2 o (⟨d.val, by omega⟩ : Fin 890))) + s) + bo (ix1 o)) ?_
  exact Finset.sum_congr rfl fun k _ => by rw [gathered_apply x sp Wp bp hrow hcol b k]

end Cert.RefValue

end
-- ==== Proof.TrilIdx.lean ====
/-
  The values of the reference's integer index arrays: jnp.tril_indices(27) computed as the non-zero positions of a
  lower-triangular mask. At flat position p = 27 i + j of the 27 x 27 square the mask is set exactly when j ≤ i. Its
  running count at p is i (i + 1) / 2 + min j i + 1: the entries of the rows above, and those of row i up to column j;
  the values run from 1 to 378. Clipping at zero and wrapping negative numbers change none of them. One is added to bin
  k of 378 bins for every position whose running count is k (the count 378 names no bin and is dropped): bin 0 stays
  empty, the bin of a diagonal entry (i, i) collects the 27 - i positions of row i from the diagonal on, every other
  bin collects one. The running count of the bins at k is therefore the flat position 27 r + c of entry k = (r, c) of
  the triangle in row-major order, and dividing by 27, respectively reducing modulo 27, gives r and c.
  The mask itself is a comparison of extended reals (one against zero) and is read by hand; from there on every stage
  is arithmetic on 32-bit words over a finite index range, checked by evaluation against its closed form, stage by
  stage: each stage is first rewritten to the closed form of the one before.
-/
import proofs.«147438_j49555332661502_2_alg».proof.Proof.Spec
import proofs.«147438_j49555332661502_2_alg».proof.Proof.RefTerm
import proofs.«147438_j49555332661502_2_alg».proof.Proof.Gen.ReferenceIdeal
import Idealize.ShloMosaic.Lib.IdealHost
import Idealize.ShloMosaic.Lib.Pipeline.Value
import Mathlib.Data.BitVec

set_option Elab.async false

noncomputable section

namespace Cert.TrilIdx

open Idealize.ShloMosaic Idealize.ShloMosaic.ValueIdx Cert.ReferenceIdeal Cert.RefTerm
open Facts₀ Facts
open scoped BigOperators

/-- The signed comparison "row ≥ column" on the two coordinates' words. -/
theorem cmp_sge : ∀ i j : Fin 27, IntOp.cmpi .sge (IntOp.addi (BitVec.ofNat 32 i.val) 0#32) (BitVec.ofNat 32 j.val)
    = if j.val ≤ i.val then 1#1 else 0#1 := by decide +kernel

/-- The mask at row i, column j is set exactly when the column does not exceed the row: the selected value is one
    there and zero elsewhere, and one differs from zero. -/
theorem trilMask_apply (i j : Fin 27) :
    trilMask (F := Ideal) (ix2 i j) = if j.val ≤ i.val then 1#1 else 0#1 := by
  show Ideal.cmp .une (Scalar.select (IntOp.cmpi .sge (IntOp.addi (BitVec.ofNat 32 i.val) 0#32) (BitVec.ofNat 32 j.val))
    (Ideal.ofBits .f32 0x3F800000#32) (Ideal.ofBits .f32 0x00000000#32)) (Ideal.ofBits .f32 0x00000000#32) = _
  rw [cmp_sge, Ideal.ofBits_one_f32, Ideal.ofBits_zero_f32]
  by_cases h : j.val ≤ i.val
  · rw [if_pos h, select_one]; simp [Ideal.cmp]
  · rw [if_neg h, select_zero]; simp [Ideal.cmp]

/-- The flattened mask as 32-bit words: at flat position p = 27 i + j, one where j ≤ i. -/
def maskW : IVec S729 32 := fun q => if (q 0).val % 27 ≤ (q 0).val / 27 then 1#32 else 0#32

/-- Flat position p of the 729 entries is row p / 27, column p % 27 of the square. -/
theorem flat_pos : ∀ p : Fin 729,
    (S27x27.rowMajor (ix2 (⟨p.val / 27, by omega⟩ : Fin 27) (⟨p.val % 27, by omega⟩ : Fin 27))).val = (S729.rowMajor (ix1 p)).val := by
  decide +kernel

theorem maskWords :
    extui 32 (shapeCast S729 (trilMask (F := Ideal)) shapeCasts_S27x27_S729) natLt_1_32 = maskW := by
  funext q
  obtain ⟨p, rfl⟩ : ∃ p, q = ix1 p := ⟨q 0, eq_ix1 q⟩
  show (shapeCast S729 (trilMask (F := Ideal)) shapeCasts_S27x27_S729 (ix1 p)).setWidth 32 = maskW (ix1 p)
  rw [shapeCast_apply _ _ (ix1 p) (ix2 (⟨p.val / 27, by omega⟩ : Fin 27) (⟨p.val % 27, by omega⟩ : Fin 27)) (flat_pos p),
    trilMask_apply]
  show _ = if p.val % 27 ≤ p.val / 27 then 1#32 else 0#32
  by_cases h : p.val % 27 ≤ p.val / 27
  · rw [if_pos h, if_pos h]; rfl
  · rw [if_neg h, if_neg h]; rfl

/-- A scatter's fold read at one element: only the updates that land on it matter. -/
theorem scatter_fold_apply {α : Type} {s u : Shape} (f : α → α → α) (g : u.Idx → Option s.Idx) (upd : u.Idx → α)
    (l : List (Fin u.numel)) (x : s.Idx → α) (i' : s.Idx) :
    (l.foldl (fun r n => match g (u.rowMajor.symm n) with
        | some i => fun i' => if i' = i then f (r i) (upd (u.rowMajor.symm n)) else r i'
        | none => r) x) i'
    = l.foldl (fun acc n => if g (u.rowMajor.symm n) = some i' then f acc (upd (u.rowMajor.symm n)) else acc) (x i') := by
  induction l generalizing x with
  | nil => rfl
  | cons a l ih =>
    rw [List.foldl_cons, List.foldl_cons, ih]
    congr 1
    cases hg : g (u.rowMajor.symm a) with
    | none => simp
    | some i =>
      by_cases h : i' = i
      · subst h; simp
      · have h2 : ¬ (some i = some i') := fun h' => h (Option.some.inj h').symm
        simp [h, h2]

/-- The scatter read at one element of its result: the fold, over the updates in order, that combines in those
    whose result index is that element. -/
theorem scatter_apply {α : Type} {s si u : Shape} {w : Nat} (d : ScatterDims s si u) (f : α → α → α) (x : s.Idx → α) (idx : IVec si w)
    (upd : u.Idx → α) (i' : s.Idx) :
    Host.scatter d f x idx upd i'
      = (List.finRange u.numel).foldl (fun acc n => if d.resultIdx? (u.rowMajor.symm n) idx = some i' then f acc (upd (u.rowMajor.symm n)) else acc) (x i') := by
  unfold Host.scatter
  exact scatter_fold_apply f (fun j => d.resultIdx? j idx) upd _ x i'

/-- A one-axis window sum of stride one, read at position j: the fold, over the window's n positions m, of the
    element at j + m - lo where that lies inside the array and of the initial value where it is padding. -/
theorem reduceWindow_axis {n lo : Nat} (x : IVec ⟨1, ![n]⟩ 32) (init : S_.Idx → BitVec 32)
    (h : (⟨1, ![n]⟩ : Shape).ReduceWindows ![n] ![1] ![lo] ![0] ⟨1, ![n]⟩) (hu : 0 < S_.numel) (j : Fin n) :
    Host.reduceWindow IntOp.addi ![n] ![1] ![lo] ![0] x init h hu (ix1 j)
      = (List.finRange (Shape.numel ⟨1, ![n]⟩)).foldl (fun r m =>
          IntOp.addi r (if hin : lo ≤ j.val + m.val ∧ j.val + m.val - lo < n
            then x (ix1 ⟨j.val + m.val - lo, hin.2⟩) else init (Shape.Idx.first hu)))
          (init (Shape.Idx.first hu)) := by
  unfold Host.reduceWindow
  dsimp only
  congr 1
  funext r m
  congr 1
  have hp0 : (ix1 j ((0 : Fin 1).cast h.1.symm)).val * (![1] : Fin 1 → Nat) 0
      + ((Shape.rowMajor ⟨1, ![n]⟩).symm m (0 : Fin 1)).val = j.val + m.val := by
    show j.val * 1 + m.val / 1 = _
    rw [Nat.mul_one, Nat.div_one]
  by_cases hc : lo ≤ j.val + m.val ∧ j.val + m.val - lo < n
  · have hall : ∀ a : Fin 1, (![lo] : Fin 1 → Nat) a ≤ (ix1 j (a.cast h.1.symm)).val * (![1] : Fin 1 → Nat) a
          + ((Shape.rowMajor ⟨1, ![n]⟩).symm m a).val ∧
        (ix1 j (a.cast h.1.symm)).val * (![1] : Fin 1 → Nat) a + ((Shape.rowMajor ⟨1, ![n]⟩).symm m a).val
          - (![lo] : Fin 1 → Nat) a < (⟨1, ![n]⟩ : Shape).size a := by
      intro a
      obtain rfl : a = 0 := Subsingleton.elim _ _
      rw [hp0]; exact hc
    rw [dif_pos hc, dif_pos hall]
    congr 1
    funext a
    obtain rfl : a = 0 := Subsingleton.elim _ _
    exact Fin.ext (congrArg (· - lo) hp0)
  · have hnall : ¬ ∀ a : Fin 1, (![lo] : Fin 1 → Nat) a ≤ (ix1 j (a.cast h.1.symm)).val * (![1] : Fin 1 → Nat) a
          + ((Shape.rowMajor ⟨1, ![n]⟩).symm m a).val ∧
        (ix1 j (a.cast h.1.symm)).val * (![1] : Fin 1 → Nat) a + ((Shape.rowMajor ⟨1, ![n]⟩).symm m a).val
          - (![lo] : Fin 1 → Nat) a < (⟨1, ![n]⟩ : Shape).size a := by
      intro hall
      have h0 := hall 0
      rw [hp0] at h0; exact hc h0
    rw [dif_neg hc, dif_neg hnall]

/-- An array of n words read at a natural number: zero past the end. -/
def natRead {n : Nat} (x : IVec ⟨1, ![n]⟩ 32) (q : Nat) : BitVec 32 := if h : q < n then x (ix1 ⟨q, h⟩) else 0#32

/-- A left fold that adds one term per element is the start plus the sum of the terms. -/
theorem foldl_add_eq {ι : Type} (g : ι → BitVec 32) (l : List ι) (v : BitVec 32) :
    l.foldl (fun r m => IntOp.addi r (g m)) v = v + (l.map g).sum := by
  induction l generalizing v with
  | nil => simp
  | cons a l ih =>
    rw [List.foldl_cons, ih, List.map_cons, List.sum_cons]
    show v + g a + _ = v + (g a + _)
    rw [BitVec.add_assoc]

theorem fold_finRange_eq_sum {n : Nat} (g : Fin n → BitVec 32) (v : BitVec 32) :
    (List.finRange n).foldl (fun r m => IntOp.addi r (g m)) v = v + ∑ m : Fin n, g m := by
  rw [foldl_add_eq, Fin.sum_univ_def]

theorem numel1 (n : Nat) : Shape.numel ⟨1, ![n]⟩ = n := by simp [Shape.numel]

theorem foldl_finRange_cast {β : Type} {a b : Nat} (h : a = b) (F : β → Fin a → β) (v : β) :
    (List.finRange a).foldl F v = (List.finRange b).foldl (fun r m => F r (m.cast h.symm)) v := by
  subst h; rfl

theorem window_term {n lo : Nat} (x : IVec ⟨1, ![n]⟩ 32) (j q : Nat) :
    (if hin : lo ≤ j + q ∧ j + q - lo < n then x (ix1 ⟨j + q - lo, hin.2⟩) else 0#32)
      = if lo ≤ j + q then natRead x (j + q - lo) else 0 := by
  unfold natRead
  by_cases h1 : lo ≤ j + q
  · by_cases h2 : j + q - lo < n
    · rw [dif_pos ⟨h1, h2⟩, if_pos h1, dif_pos h2]
    · rw [dif_neg (fun h => h2 h.2), if_pos h1, dif_neg h2]
  · rw [dif_neg (fun h => h1 h.1), if_neg h1]; rfl

/-- The running sum as jax writes it — a window as long as the array, padded in front by one less — read at
    position j is the sum of the elements up to j: the window's first n - 1 - j positions are padding, the others
    are the elements 0 to j in order. -/
theorem cumsum_apply {n lo : Nat} (hlo : lo + 1 = n) (x : IVec ⟨1, ![n]⟩ 32) (init : S_.Idx → BitVec 32)
    (h : (⟨1, ![n]⟩ : Shape).ReduceWindows ![n] ![1] ![lo] ![0] ⟨1, ![n]⟩) (hu : 0 < S_.numel)
    (hv : init (Shape.Idx.first hu) = 0#32) (j : Fin n) :
    Host.reduceWindow IntOp.addi ![n] ![1] ![lo] ![0] x init h hu (ix1 j)
      = ∑ q ∈ Finset.range (j.val + 1), natRead x q := by
  rw [reduceWindow_axis, hv, foldl_finRange_cast (numel1 n)]
  refine Eq.trans (?_ : _ = (List.finRange n).foldl (fun r m => IntOp.addi r
      ((fun q : Nat => if lo ≤ j.val + q then natRead x (j.val + q - lo) else 0) m.val)) 0#32) ?_
  · congr 1; funext r m; congr 1
    exact window_term x j.val m.val
  rw [fold_finRange_eq_sum, BitVec.zero_add,
    Fin.sum_univ_eq_sum_range (fun q : Nat => if lo ≤ j.val + q then natRead x (j.val + q - lo) else 0) n,
    ← Finset.sum_filter]
  refine Finset.sum_nbij' (fun m => j.val + m - lo) (fun q => q + lo - j.val) ?_ ?_ ?_ ?_ ?_
  · intro m hm; simp only [Finset.mem_filter, Finset.mem_range] at hm ⊢; have := j.isLt; omega
  · intro q hq; simp only [Finset.mem_filter, Finset.mem_range] at hq ⊢; have := j.isLt; omega
  · intro m hm; simp only [Finset.mem_filter, Finset.mem_range] at hm; have := j.isLt; omega
  · intro q hq; simp only [Finset.mem_range] at hq; have := j.isLt; omega
  · intro m hm; rfl

/-- A sequence of partial sums has the closed form c when c starts at the first element and steps by the next. -/
theorem prefix_closed {n : Nat} (x : IVec ⟨1, ![n]⟩ 32) (c : Nat → Nat)
    (h0 : natRead x 0 = BitVec.ofNat 32 (c 0))
    (hs : ∀ p, p + 1 < n → BitVec.ofNat 32 (c p) + natRead x (p + 1) = BitVec.ofNat 32 (c (p + 1))) :
    ∀ j, j < n → ∑ q ∈ Finset.range (j + 1), natRead x q = BitVec.ofNat 32 (c j) := by
  intro j
  induction j with
  | zero => intro _; rw [Finset.sum_range_one, h0]
  | succ j ih => intro hj; rw [Finset.sum_range_succ, ih (by omega), hs j hj]

/-- The running count of set entries up to flat position p = 27 i + j: the i (i + 1) / 2 entries of the rows above,
    and min j i + 1 entries of row i. -/
def cumNat (p : Nat) : Nat := (p / 27) * (p / 27 + 1) / 2 + min (p % 27) (p / 27) + 1

theorem cum_step : ∀ p : Fin 728,
    BitVec.ofNat 32 (cumNat p.val) + natRead maskW (p.val + 1) = BitVec.ofNat 32 (cumNat (p.val + 1)) := by decide +kernel

/-- The running count of the mask at flat position p. -/
theorem maskCum_apply (p : Fin 729) : maskCum (F := Ideal) (ix1 p) = BitVec.ofNat 32 (cumNat p.val) := by
  unfold maskCum
  rw [maskWords]
  exact (cumsum_apply (n := 729) (lo := 728) rfl maskW _ _ _ rfl p).trans
    (prefix_closed maskW cumNat (by decide +kernel) (fun q hq => cum_step ⟨q, by omega⟩) p.val p.isLt)

/-- Clipping below at zero and wrapping a negative bin number change nothing: the counts are 1 to 378. -/
theorem clip_wrap : ∀ p : Fin 729,
    Scalar.select (IntOp.cmpi .slt (IntOp.maxsi 0#32 (BitVec.ofNat 32 (cumNat p.val))) 0#32)
      (IntOp.addi (IntOp.maxsi 0#32 (BitVec.ofNat 32 (cumNat p.val))) 378#32)
      (IntOp.maxsi 0#32 (BitVec.ofNat 32 (cumNat p.val))) = BitVec.ofNat 32 (cumNat p.val) := by decide +kernel

/-- The running counts as an array. -/
def cumTab : IVec S729 32 := fun q => BitVec.ofNat 32 (cumNat (q 0).val)

theorem cumIdx_eq : cumIdx (F := Ideal) = cumTab := by
  funext q
  obtain ⟨p, rfl⟩ : ∃ p, q = ix1 p := ⟨q 0, eq_ix1 q⟩
  show Scalar.select (IntOp.cmpi .slt (IntOp.maxsi 0#32 (maskCum (F := Ideal) (ix1 p))) 0#32)
      (IntOp.addi (IntOp.maxsi 0#32 (maskCum (F := Ideal) (ix1 p))) 378#32)
      (IntOp.maxsi 0#32 (maskCum (F := Ideal) (ix1 p))) = _
  rw [maskCum_apply]
  exact clip_wrap p

/-- How many flat positions have running count k: none for k = 0; for k ≥ 1, entry k - 1 of the triangle is
    (row i, column m), and the positions are column m of row i alone when m < i, and columns i to 26 of row i
    when m = i (past the diagonal the count stays). -/
def cntNat (k : Nat) : Nat :=
  if k = 0 then 0
  else if (Spec.triSplit 27 0 (k - 1)).2 = (Spec.triSplit 27 0 (k - 1)).1 then 27 - (Spec.triSplit 27 0 (k - 1)).1 else 1

/-- Update n lands in the bin its running count names; the count 378 names no bin. -/
theorem land : ∀ n : Fin S729.numel,
    scatter_S378_S729x1_S729_n_0_0_1.resultIdx? (S729.rowMajor.symm n) (broadcastInDim S729x1 ![0] bcast_S729_S729x1_0 cumTab)
      = if h : cumNat n.val < 378 then some (ix1 (⟨cumNat n.val, h⟩ : Fin 378)) else none := by decide +kernel

theorem land_iff (c : Nat) (k : Fin 378) :
    ((if h : c < 378 then some (ix1 (⟨c, h⟩ : Fin 378)) else none) = some (ix1 k)) ↔ c = k.val := by
  constructor
  · intro h
    by_cases hc : c < 378
    · rw [dif_pos hc] at h
      have h0 := congrFun (Option.some.inj h) 0
      exact congrArg Fin.val h0
    · rw [dif_neg hc] at h; cases h
  · rintro rfl
    rw [dif_pos k.isLt]

/-- Counting, bin by bin, the positions whose running count is the bin's number. -/
theorem count_fold : ∀ k : Fin 378,
    (List.finRange S729.numel).foldl (fun (acc : BitVec 32) n => if cumNat n.val = k.val then IntOp.addi acc 1#32 else acc) 0#32
      = BitVec.ofNat 32 (cntNat k.val) := by decide +kernel

/-- The bins as an array. -/
def cntTab : IVec S378 32 := fun q => BitVec.ofNat 32 (cntNat (q 0).val)

theorem counts_eq : counts (F := Ideal) = cntTab := by
  funext q
  obtain ⟨k, rfl⟩ : ∃ k, q = ix1 k := ⟨q 0, eq_ix1 q⟩
  unfold counts
  rw [cumIdx_eq, scatter_apply]
  have hstep : (fun (acc : BitVec 32) (n : Fin S729.numel) =>
        if scatter_S378_S729x1_S729_n_0_0_1.resultIdx? (S729.rowMajor.symm n) (broadcastInDim S729x1 ![0] bcast_S729_S729x1_0 cumTab) = some (ix1 k)
        then IntOp.addi acc (broadcastInDim S729 ![] bcast_S_S729 (constantI S_ 32 1#32) (S729.rowMajor.symm n)) else acc)
      = (fun acc n => if cumNat n.val = k.val then IntOp.addi acc 1#32 else acc) := by
    funext acc n
    rw [land n]
    exact if_congr (land_iff _ k) rfl rfl
  exact (congrArg (fun F => (List.finRange S729.numel).foldl F 0#32) hstep).trans (count_fold k)

/-- The flat position 27 r + c of entry k = (r, c) of the triangle. -/
def posNat (k : Nat) : Nat := 27 * ((Spec.triSplit 27 0 k).1 % 27) + (Spec.triSplit 27 0 k).2 % 27

/-- The flat positions of the triangle's entries as an array. -/
def posTab : IVec S378 32 := fun q => BitVec.ofNat 32 (posNat (q 0).val)

/-- From one entry of the triangle to the next the flat position grows by the next bin: by one inside a row, and
    from a diagonal entry (r, r) by the 27 - r positions up to the start of row r + 1. -/
theorem pos_step : ∀ k : Fin 377,
    BitVec.ofNat 32 (posNat k.val) + natRead cntTab (k.val + 1) = BitVec.ofNat 32 (posNat (k.val + 1)) := by decide +kernel

/-- The running count of the bins at k is the flat position of entry k. -/
theorem flatPos_eq : flatPos (F := Ideal) = posTab := by
  funext q
  obtain ⟨k, rfl⟩ : ∃ k, q = ix1 k := ⟨q 0, eq_ix1 q⟩
  unfold flatPos
  rw [counts_eq]
  show _ = BitVec.ofNat 32 (posNat k.val)
  exact (cumsum_apply (n := 378) (lo := 377) rfl cntTab _ _ _ rfl k).trans
    (prefix_closed cntTab posNat (by decide +kernel) (fun q hq => pos_step ⟨q, by omega⟩) k.val k.isLt)

/-- Row: the flat position divided by 27 (then reduced modulo 27, and wrapped: neither changes it). -/
theorem row_fact : ∀ k : Fin 378,
    wrap27 (remn (floorDiv posTab (constantI S_ 32 27#32)) (constantI S_ 32 27#32)) (ix1 k)
      = BitVec.ofNat 32 (Spec.triRow k).val := by decide +kernel

/-- Column: the flat position modulo 27. -/
theorem col_fact : ∀ k : Fin 378,
    wrap27 (remn (floorDiv posTab (constantI S_ 32 1#32)) (constantI S_ 32 27#32)) (ix1 k)
      = BitVec.ofNat 32 (Spec.triCol k).val := by decide +kernel

/-- The reference's row index array holds the rows of the lower triangle's entries in row-major order. -/
theorem rowIdx_apply (k : Fin 378) :
    Cert.RefTerm.rowIdx (F := Ideal) (ix1 k) = BitVec.ofNat 32 (Cert.Spec.triRow k).val := by
  unfold rowIdx
  rw [flatPos_eq]
  exact row_fact k

/-- The reference's column index array holds their columns. -/
theorem colIdx_apply (k : Fin 378) :
    Cert.RefTerm.colIdx (F := Ideal) (ix1 k) = BitVec.ofNat 32 (Cert.Spec.triCol k).val := by
  unfold colIdx
  rw [flatPos_eq]
  exact col_fact k

end Cert.TrilIdx
end
-- ==== Proof.lean ====
/-
  The certificate's five claims. Both idealized programs compute, at sample b and output feature o, the dense
  features through the dense output weights, plus the inner products of the lower triangle of the sample's 27 rows
  (its projected dense row and its 26 sparse rows) through the triangle output weights, plus the bias
  (Proof/Spec.lean). The kernel pads the rows to 32, multiplies a whole padded 32 x 32 matrix into weights the
  wrapper scattered to the triangle's flat positions and left zero elsewhere; the reference gathers the 378 triangle
  entries at indices it computes as the non-zero positions of a triangular mask. The two sums agree term by term
  because a product with a zero weight is zero on the extended reals, whatever the other factor: no finiteness of
  the inputs is used. The kernel's side is Proof/KernelArr.lean over Proof/KernelPay.lean and Proof/KernelGlue.lean;
  the reference's run is Proof/RefRun.lean, its index arithmetic Proof/TrilIdx.lean and its value
  Proof/RefValue.lean. The three frames are the generated frame certificates and the reference's run; nothing was
  rewritten by the ideal pass, so `preserves` has nothing to say.
-/
import proofs.«147438_j49555332661502_2_alg».proof.Defs
import proofs.«147438_j49555332661502_2_alg».proof.Proof.Gen.Kernel
import proofs.«147438_j49555332661502_2_alg».proof.Proof.Gen.Kernel.Frame
import proofs.«147438_j49555332661502_2_alg».proof.Proof.Gen.KernelIdeal
import proofs.«147438_j49555332661502_2_alg».proof.Proof.Gen.KernelIdeal.Frame
import proofs.«147438_j49555332661502_2_alg».proof.Proof.Gen.ReferenceIdeal
import proofs.«147438_j49555332661502_2_alg».proof.Proof.Gen.Pre_finite_inputs
import proofs.«147438_j49555332661502_2_alg».proof.Proof.KernelArr
import proofs.«147438_j49555332661502_2_alg».proof.Proof.RefRun
import proofs.«147438_j49555332661502_2_alg».proof.Proof.RefValue
import proofs.«147438_j49555332661502_2_alg».proof.Proof.TrilIdx
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefRun.run_ideal m ρ)

theorem preserves : Cert.preserves_Kernel_KernelIdeal := trivial

/-- Both runs end with the result array at the specification's function of the (agreeing) arguments. -/
theorem algebraic : Cert.algebraic_KernelIdeal_ReferenceIdeal := by
  intro m ρ m' ρ' _ hagree
  refine ⟨fun c => Cert.KernelArr.G m c, Cert.KernelArr.run m ρ, ?_⟩
  refine (θ_run Cert.ReferenceIdeal.defs _ _).mono (fun _ h c => ⟨(h c).1.trans ?_, (h c).2⟩) (Cert.RefRun.run_ideal m' ρ')
  rw [(hagree c).1, (hagree c).2.1, (hagree c).2.2.1, (hagree c).2.2.2.1, (hagree c).2.2.2.2.1, (hagree c).2.2.2.2.2]
  exact Cert.RefValue.out_eq _ _ _ _ _ _ Cert.TrilIdx.rowIdx_apply Cert.TrilIdx.colIdx_apply

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
